-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S4096 : Shape := ⟨1, ![4096]⟩
abbrev S4096x1 : Shape := ⟨2, ![4096, 1]⟩
abbrev S1024x128 : Shape := ⟨2, ![1024, 128]⟩
abbrev S1024x1 : Shape := ⟨2, ![1024, 1]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 26
  | .vmem => 9
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .bf16⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  concatenates_S4096x128_S4096x128_S8192x128_d0 : Shape.Concatenates [S4096x128, S4096x128] S8192x128 0
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  slices_S8192x128_S4096x128_0_0 : S8192x128.Slices ![0, 0] S4096x128
  slices_S8192x128_S4096x128_4096_0 : S8192x128.Slices ![4096, 0] S4096x128
  reducesTo_S4096x128_S4096_d1 : S4096x128.ReducesTo [1] S4096
  bcast_S4096_S4096x1_0 : S4096.BroadcastsInDim S4096x1 (![0] : Fin 1 → Fin S4096x1.rank)
  concatenates_S4096x1_S4096x1_S8192x1_d0 : Shape.Concatenates [S4096x1, S4096x1] S8192x1 0
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  reduces_S1024x1024_S1024 : S1024x1024.Reduces [1] S1024
  shapeCasts_S1024_S1024x1 : S1024.ShapeCasts S1024x1
  reducesTo_S8192x1_S_d0_1 : S8192x1.ReducesTo [0, 1] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v6) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x128 : Shape := ⟨2, ![4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩
abbrev S4096 : Shape := ⟨1, ![4096]⟩
abbrev S4096x1 : Shape := ⟨2, ![4096, 1]⟩
abbrev S4096x2 : Shape := ⟨2, ![4096, 2]⟩
abbrev S8192x8193 : Shape := ⟨2, ![8192, 8193]⟩

abbrev nBuf : Space → Nat
  | .hbm => 89
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S128x8192, .f32⟩
  | .hbm, ⟨14, _⟩ => ⟨S8192x8192, .f32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x1, .i32⟩
  | .hbm, ⟨36, _⟩ => ⟨S4096x2, .i32⟩
  | .hbm, ⟨37, _⟩ => ⟨S4096, .f32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S4096x1, .i32⟩
  | .hbm, ⟨59, _⟩ => ⟨S4096x2, .i32⟩
  | .hbm, ⟨60, _⟩ => ⟨S4096, .f32⟩
  | .hbm, ⟨61, _⟩ => ⟨S8192, .f32⟩
  | .hbm, ⟨62, _⟩ => ⟨S8192x1, .f32⟩
  | .hbm, ⟨63, _⟩ => ⟨S8192x8193, .f32⟩
  | .hbm, ⟨64, _⟩ => ⟨S_, .f32⟩
  | .hbm, ⟨65, _⟩ => ⟨S8192x8193, .f32⟩
  | .hbm, ⟨66, _⟩ => ⟨S8192x8193, .f32⟩
  | .hbm, ⟨67, _⟩ => ⟨S_, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192x1, .f32⟩
  | .hbm, ⟨73, _⟩ => ⟨S8192x8193, .f32⟩
  | .hbm, ⟨74, _⟩ => ⟨S8192x8193, .f32⟩
  | .hbm, ⟨75, _⟩ => ⟨S8192x8193, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1, .f32⟩
  | .hbm, ⟨80, _⟩ => ⟨S8192x8193, .f32⟩
  | .hbm, ⟨81, _⟩ => ⟨S8192x8193, .f32⟩
  | .hbm, ⟨82, _⟩ => ⟨S8192x1, .f32⟩
  | .hbm, ⟨83, _⟩ => ⟨S8192, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_call1_v1 : Ref sig .tc := ⟨.hbm, 16, rfl⟩
abbrev main_call1_c : Ref sig .tc := ⟨.hbm, 17, rfl⟩
abbrev main_call1_v2 : Ref sig .tc := ⟨.hbm, 18, rfl⟩
abbrev main_call1_v3 : Ref sig .tc := ⟨.hbm, 19, rfl⟩
abbrev main_call1_c_0 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c_2 : Ref sig .tc := ⟨.hbm, 27, rfl⟩
abbrev main_call1_v9 : Ref sig .tc := ⟨.hbm, 28, rfl⟩
abbrev main_call1_v10 : Ref sig .tc := ⟨.hbm, 29, rfl⟩
abbrev main_call1_c_3 : Ref sig .tc := ⟨.hbm, 30, rfl⟩
abbrev main_call1_v11 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_v15 : Ref sig .tc := ⟨.hbm, 35, rfl⟩
abbrev main_call1_v16 : Ref sig .tc := ⟨.hbm, 36, rfl⟩
abbrev main_v8 : Ref sig .tc := ⟨.hbm, 37, rfl⟩
abbrev main_call2_v0 : Ref sig .tc := ⟨.hbm, 38, rfl⟩
abbrev main_call2_v1 : Ref sig .tc := ⟨.hbm, 39, rfl⟩
abbrev main_call2_c : Ref sig .tc := ⟨.hbm, 40, rfl⟩
abbrev main_call2_v2 : Ref sig .tc := ⟨.hbm, 41, rfl⟩
abbrev main_call2_v3 : Ref sig .tc := ⟨.hbm, 42, rfl⟩
abbrev main_call2_c_0 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c_2 : Ref sig .tc := ⟨.hbm, 50, rfl⟩
abbrev main_call2_v9 : Ref sig .tc := ⟨.hbm, 51, rfl⟩
abbrev main_call2_v10 : Ref sig .tc := ⟨.hbm, 52, rfl⟩
abbrev main_call2_c_3 : Ref sig .tc := ⟨.hbm, 53, rfl⟩
abbrev main_call2_v11 : Ref sig .tc := ⟨.hbm, 54, rfl⟩
abbrev main_call2_v12 : Ref sig .tc := ⟨.hbm, 55, rfl⟩
abbrev main_call2_v13 : Ref sig .tc := ⟨.hbm, 56, rfl⟩
abbrev main_call2_v14 : Ref sig .tc := ⟨.hbm, 57, rfl⟩
abbrev main_call2_v15 : Ref sig .tc := ⟨.hbm, 58, rfl⟩
abbrev main_call2_v16 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_cst_0 : Ref sig .tc := ⟨.hbm, 64, rfl⟩
abbrev main_v13 : Ref sig .tc := ⟨.hbm, 65, rfl⟩
abbrev main_v14 : Ref sig .tc := ⟨.hbm, 66, rfl⟩
abbrev main_call3_cst : Ref sig .tc := ⟨.hbm, 67, rfl⟩
abbrev main_call3_v0 : Ref sig .tc := ⟨.hbm, 68, rfl⟩
abbrev main_call3_cst_0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_cst_1 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_call3_v10 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_cst_1 : Ref sig .tc := ⟨.hbm, 84, rfl⟩
abbrev main_v18 : Ref sig .tc := ⟨.hbm, 85, rfl⟩
abbrev main_v19 : Ref sig .tc := ⟨.hbm, 86, rfl⟩
abbrev main_cst_2 : Ref sig .tc := ⟨.hbm, 87, rfl⟩
abbrev main_v20 : Ref sig .tc := ⟨.hbm, 88, rfl⟩

abbrev nD : Nat := 1
abbrev τ : Topo := Topo.v7x

variable {F : FTy → Type} [FloatOps F]

class Facts₀ : Prop where
  concatenates_S4096x128_S4096x128_S8192x128_d0 : Shape.Concatenates [S4096x128, S4096x128] S8192x128 0
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096_S4096_S8192_d0 : Shape.Concatenates [S4096, S4096] S8192 0
  concatenates_S8192x1_S8192x8192_S8192x8193_d1 : Shape.Concatenates [S8192x1, S8192x8192] S8192x8193 1
  bcast_S_S8192x8193 : S_.BroadcastsInDim S8192x8193 (![] : Fin 0 → Fin S8192x8193.rank)
  reducesTo_S8192x8193_S8192_d1 : S8192x8193.ReducesTo [1] S8192
  bcast_S_S8192 : S_.BroadcastsInDim S8192 (![] : Fin 0 → Fin S8192.rank)
  bcast_S8192x1_S8192x8193_0_1 : S8192x1.BroadcastsInDim S8192x8193 (![0, 1] : Fin 2 → Fin S8192x8193.rank)
  slices_S8192x8193_S8192x1_0_0 : S8192x8193.Slices ![0, 0] S8192x1
  shapeCasts_S8192x1_S8192 : S8192x1.ShapeCasts S8192
  reducesTo_S8192_S_d0 : S8192.ReducesTo [0] S_
  dot_S8192x128_S128x8192_S8192x8192_1_0_0_1_n_n_wf : DotDims.WF S8192x128 S128x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.RefRun.lean ====
/-
  The reference program's run, stretch by stretch.

  The program is a straight line of 87 host operations.  Read as ten consecutive stretches — stack, norms,
  similarity matrix, the two diagonals, logits, the three parts of the log-softmax, mean — each stretch, run from ANY contents of the
  buffers, leaves in the buffer it is read for the corresponding stage of the arguments, provided the buffers it
  reads hold theirs; and it leaves the buffers it does not write alone.  Chaining the ten gives the result
  buffer at the last stage of the two arguments, which end unchanged.
-/
import proofs.«110881_j37039797960862_2_alg».proof.Proof.RefStages
import Idealize.ShloMosaic.Lib.StableHlo.Run
import Idealize.ShloMosaic.Lib.Pipeline.Frame

noncomputable section

namespace Cert.ReferenceIdeal.Stretch

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- The two arguments stacked. -/
abbrev s1 : List (HloOp τ sig (Elt F)) :=
  [ binary main_arg0 main_arg1 main_v0 ((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)) ]

/-- The row norms: squares, their row sums from the zero word, as a column, square roots. -/
abbrev s2 : List (HloOp τ sig (Elt F)) :=
  [ TRef.binary (TRef.of (T := ⟨S8192x128, .f32⟩) main_v0) (TRef.of (T := ⟨S8192x128, .f32⟩) main_v0) (TRef.of (T := ⟨S8192x128, .f32⟩) main_call0_v0) mulf,
    TRef.nullary (TRef.of (T := ⟨S_, .f32⟩) main_call0_cst) (constant S_ .f32 0x00000000#32),
    TRef.binary (TRef.of (T := ⟨S8192x128, .f32⟩) main_call0_v0) (TRef.of (T := ⟨S_, .f32⟩) main_call0_cst) (TRef.of (T := ⟨S8192, .f32⟩) main_call0_v1) (fun x v => Host.reduceAdd x v reducesTo_S8192x128_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v1) Host.sqrt ]

/-- The floor, the scaled rows, their transpose, and the similarity matrix. -/
abbrev s3 : List (HloOp τ sig (Elt F)) :=
  [ nullary main_cst (constant S_ .f32 0x322BCC77#32),
    unary main_cst main_v2 (broadcastInDim S8192x1 ![] bcast_S_S8192x1 : (⟨S_, .f32⟩ : BufTy).Contents (Elt F) → (⟨S8192x1, .f32⟩ : BufTy).Contents (Elt F)),
    binary main_v1 main_v2 main_v3 (maximumf : (⟨S8192x1, .f32⟩ : BufTy).Contents (Elt F) → (⟨S8192x1, .f32⟩ : BufTy).Contents (Elt F) → (⟨S8192x1, .f32⟩ : BufTy).Contents (Elt F)),
    unary main_v3 main_v4 (broadcastInDim S8192x128 ![0, 1] bcast_S8192x1_S8192x128_0_1 : (⟨S8192x1, .f32⟩ : BufTy).Contents (Elt F) → (⟨S8192x128, .f32⟩ : BufTy).Contents (Elt F)),
    binary main_v0 main_v4 main_v5 (Host.divf : (⟨S8192x128, .f32⟩ : BufTy).Contents (Elt F) → (⟨S8192x128, .f32⟩ : BufTy).Contents (Elt F) → (⟨S8192x128, .f32⟩ : BufTy).Contents (Elt F)),
    unary main_v5 main_v6 ((transpose S128x8192 [1, 0] · transposes_S8192x128_S128x8192_1_0) : (⟨S8192x128, .f32⟩ : BufTy).Contents (Elt F) → (⟨S128x8192, .f32⟩ : BufTy).Contents (Elt F)),
    binary main_v5 main_v6 main_v7 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)) ]

/-- The upper diagonal of the similarity matrix, offset 4096: the index pairs (r, r + 4096), wrapped into range, and the gather at them. -/
abbrev s4 : List (HloOp τ sig (Elt F)) :=
  [ TRef.nullary (TRef.of (T := ⟨S4096, .i32⟩) main_call1_v0) (iotaInDim S4096 32 0),
    TRef.nullary (TRef.of (T := ⟨S4096, .i32⟩) main_call1_v1) (iotaInDim S4096 32 0),
    TRef.nullary (TRef.of (T := ⟨S_, .i32⟩) main_call1_c) (constantI S_ 32 4096#32),
    TRef.unary (TRef.of (T := ⟨S_, .i32⟩) main_call1_c) (TRef.of (T := ⟨S4096, .i32⟩) main_call1_v2) (broadcastInDim S4096 ![] bcast_S_S4096),
    TRef.binary (TRef.of (T := ⟨S4096, .i32⟩) main_call1_v2) (TRef.of (T := ⟨S4096, .i32⟩) main_call1_v1) (TRef.of (T := ⟨S4096, .i32⟩) main_call1_v3) addi,
    TRef.nullary (TRef.of (T := ⟨S_, .i32⟩) main_call1_c_0) (constantI S_ 32 0#32),
    TRef.unary (TRef.of (T := ⟨S_, .i32⟩) main_call1_c_0) (TRef.of (T := ⟨S4096, .i32⟩) main_call1_v4) (broadcastInDim S4096 ![] bcast_S_S4096),
    TRef.binary (TRef.of (T := ⟨S4096, .i32⟩) main_call1_v0) (TRef.of (T := ⟨S4096, .i32⟩) main_call1_v4) (TRef.of (T := ⟨S4096, .i1⟩) main_call1_v5) (cmpi .slt),
    TRef.nullary (TRef.of (T := ⟨S_, .i32⟩) main_call1_c_1) (constantI S_ 32 8192#32),
    TRef.unary (TRef.of (T := ⟨S_, .i32⟩) main_call1_c_1) (TRef.of (T := ⟨S4096, .i32⟩) main_call1_v6) (broadcastInDim S4096 ![] bcast_S_S4096),
    TRef.binary (TRef.of (T := ⟨S4096, .i32⟩) main_call1_v0) (TRef.of (T := ⟨S4096, .i32⟩) main_call1_v6) (TRef.of (T := ⟨S4096, .i32⟩) main_call1_v7) addi,
    TRef.ternary (TRef.of (T := ⟨S4096, .i1⟩) main_call1_v5) (TRef.of (T := ⟨S4096, .i32⟩) main_call1_v7) (TRef.of (T := ⟨S4096, .i32⟩) main_call1_v0) (TRef.of (T := ⟨S4096, .i32⟩) main_call1_v8) select,
    TRef.nullary (TRef.of (T := ⟨S_, .i32⟩) main_call1_c_2) (constantI S_ 32 0#32),
    TRef.unary (TRef.of (T := ⟨S_, .i32⟩) main_call1_c_2) (TRef.of (T := ⟨S4096, .i32⟩) main_call1_v9) (broadcastInDim S4096 ![] bcast_S_S4096),
    TRef.binary (TRef.of (T := ⟨S4096, .i32⟩) main_call1_v3) (TRef.of (T := ⟨S4096, .i32⟩) main_call1_v9) (TRef.of (T := ⟨S4096, .i1⟩) main_call1_v10) (cmpi .slt),
    TRef.nullary (TRef.of (T := ⟨S_, .i32⟩) main_call1_c_3) (constantI S_ 32 8192#32),
    TRef.unary (TRef.of (T := ⟨S_, .i32⟩) main_call1_c_3) (TRef.of (T := ⟨S4096, .i32⟩) main_call1_v11) (broadcastInDim S4096 ![] bcast_S_S4096),
    TRef.binary (TRef.of (T := ⟨S4096, .i32⟩) main_call1_v3) (TRef.of (T := ⟨S4096, .i32⟩) main_call1_v11) (TRef.of (T := ⟨S4096, .i32⟩) main_call1_v12) addi,
    TRef.ternary (TRef.of (T := ⟨S4096, .i1⟩) main_call1_v10) (TRef.of (T := ⟨S4096, .i32⟩) main_call1_v12) (TRef.of (T := ⟨S4096, .i32⟩) main_call1_v3) (TRef.of (T := ⟨S4096, .i32⟩) main_call1_v13) select,
    TRef.unary (TRef.of (T := ⟨S4096, .i32⟩) main_call1_v8) (TRef.of (T := ⟨S4096x1, .i32⟩) main_call1_v14) (broadcastInDim S4096x1 ![0] bcast_S4096_S4096x1_0),
    TRef.unary (TRef.of (T := ⟨S4096, .i32⟩) main_call1_v13) (TRef.of (T := ⟨S4096x1, .i32⟩) main_call1_v15) (broadcastInDim S4096x1 ![0] bcast_S4096_S4096x1_0),
    TRef.binary (TRef.of (T := ⟨S4096x1, .i32⟩) main_call1_v14) (TRef.of (T := ⟨S4096x1, .i32⟩) main_call1_v15) (TRef.of (T := ⟨S4096x2, .i32⟩) main_call1_v16) (fun a b => concatenate S4096x2 1 [⟨S4096x1, a⟩, ⟨S4096x1, b⟩] concatenates_S4096x1_S4096x1_S4096x2_d1),
    TRef.binary (TRef.of (T := ⟨S8192x8192, .f32⟩) main_v7) (TRef.of (T := ⟨S4096x2, .i32⟩) main_call1_v16) (TRef.of (T := ⟨S4096, .f32⟩) main_v8) (fun x i => Host.gather gather_S8192x8192_S4096x2_S4096_n_01_n_n_01_1_11 x i) ]

/-- The lower diagonal, offset −4096: the index pairs (r + 4096, r), and the gather at them. -/
abbrev s5 : List (HloOp τ sig (Elt F)) :=
  [ TRef.nullary (TRef.of (T := ⟨S4096, .i32⟩) main_call2_v0) (iotaInDim S4096 32 0),
    TRef.nullary (TRef.of (T := ⟨S4096, .i32⟩) main_call2_v1) (iotaInDim S4096 32 0),
    TRef.nullary (TRef.of (T := ⟨S_, .i32⟩) main_call2_c) (constantI S_ 32 4096#32),
    TRef.unary (TRef.of (T := ⟨S_, .i32⟩) main_call2_c) (TRef.of (T := ⟨S4096, .i32⟩) main_call2_v2) (broadcastInDim S4096 ![] bcast_S_S4096),
    TRef.binary (TRef.of (T := ⟨S4096, .i32⟩) main_call2_v2) (TRef.of (T := ⟨S4096, .i32⟩) main_call2_v1) (TRef.of (T := ⟨S4096, .i32⟩) main_call2_v3) addi,
    TRef.nullary (TRef.of (T := ⟨S_, .i32⟩) main_call2_c_0) (constantI S_ 32 0#32),
    TRef.unary (TRef.of (T := ⟨S_, .i32⟩) main_call2_c_0) (TRef.of (T := ⟨S4096, .i32⟩) main_call2_v4) (broadcastInDim S4096 ![] bcast_S_S4096),
    TRef.binary (TRef.of (T := ⟨S4096, .i32⟩) main_call2_v3) (TRef.of (T := ⟨S4096, .i32⟩) main_call2_v4) (TRef.of (T := ⟨S4096, .i1⟩) main_call2_v5) (cmpi .slt),
    TRef.nullary (TRef.of (T := ⟨S_, .i32⟩) main_call2_c_1) (constantI S_ 32 8192#32),
    TRef.unary (TRef.of (T := ⟨S_, .i32⟩) main_call2_c_1) (TRef.of (T := ⟨S4096, .i32⟩) main_call2_v6) (broadcastInDim S4096 ![] bcast_S_S4096),
    TRef.binary (TRef.of (T := ⟨S4096, .i32⟩) main_call2_v3) (TRef.of (T := ⟨S4096, .i32⟩) main_call2_v6) (TRef.of (T := ⟨S4096, .i32⟩) main_call2_v7) addi,
    TRef.ternary (TRef.of (T := ⟨S4096, .i1⟩) main_call2_v5) (TRef.of (T := ⟨S4096, .i32⟩) main_call2_v7) (TRef.of (T := ⟨S4096, .i32⟩) main_call2_v3) (TRef.of (T := ⟨S4096, .i32⟩) main_call2_v8) select,
    TRef.nullary (TRef.of (T := ⟨S_, .i32⟩) main_call2_c_2) (constantI S_ 32 0#32),
    TRef.unary (TRef.of (T := ⟨S_, .i32⟩) main_call2_c_2) (TRef.of (T := ⟨S4096, .i32⟩) main_call2_v9) (broadcastInDim S4096 ![] bcast_S_S4096),
    TRef.binary (TRef.of (T := ⟨S4096, .i32⟩) main_call2_v0) (TRef.of (T := ⟨S4096, .i32⟩) main_call2_v9) (TRef.of (T := ⟨S4096, .i1⟩) main_call2_v10) (cmpi .slt),
    TRef.nullary (TRef.of (T := ⟨S_, .i32⟩) main_call2_c_3) (constantI S_ 32 8192#32),
    TRef.unary (TRef.of (T := ⟨S_, .i32⟩) main_call2_c_3) (TRef.of (T := ⟨S4096, .i32⟩) main_call2_v11) (broadcastInDim S4096 ![] bcast_S_S4096),
    TRef.binary (TRef.of (T := ⟨S4096, .i32⟩) main_call2_v0) (TRef.of (T := ⟨S4096, .i32⟩) main_call2_v11) (TRef.of (T := ⟨S4096, .i32⟩) main_call2_v12) addi,
    TRef.ternary (TRef.of (T := ⟨S4096, .i1⟩) main_call2_v10) (TRef.of (T := ⟨S4096, .i32⟩) main_call2_v12) (TRef.of (T := ⟨S4096, .i32⟩) main_call2_v0) (TRef.of (T := ⟨S4096, .i32⟩) main_call2_v13) select,
    TRef.unary (TRef.of (T := ⟨S4096, .i32⟩) main_call2_v8) (TRef.of (T := ⟨S4096x1, .i32⟩) main_call2_v14) (broadcastInDim S4096x1 ![0] bcast_S4096_S4096x1_0),
    TRef.unary (TRef.of (T := ⟨S4096, .i32⟩) main_call2_v13) (TRef.of (T := ⟨S4096x1, .i32⟩) main_call2_v15) (broadcastInDim S4096x1 ![0] bcast_S4096_S4096x1_0),
    TRef.binary (TRef.of (T := ⟨S4096x1, .i32⟩) main_call2_v14) (TRef.of (T := ⟨S4096x1, .i32⟩) main_call2_v15) (TRef.of (T := ⟨S4096x2, .i32⟩) main_call2_v16) (fun a b => concatenate S4096x2 1 [⟨S4096x1, a⟩, ⟨S4096x1, b⟩] concatenates_S4096x1_S4096x1_S4096x2_d1),
    TRef.binary (TRef.of (T := ⟨S8192x8192, .f32⟩) main_v7) (TRef.of (T := ⟨S4096x2, .i32⟩) main_call2_v16) (TRef.of (T := ⟨S4096, .f32⟩) main_v9) (fun x i => Host.gather gather_S8192x8192_S4096x2_S4096_n_01_n_n_01_1_11 x i) ]

/-- The positives as a column, placed before the similarity matrix, and everything divided by the temperature word. -/
abbrev s6 : List (HloOp τ sig (Elt F)) :=
  [ binary main_v8 main_v9 main_v10 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)),
    unary main_v10 main_v11 (broadcastInDim S8192x1 ![0] bcast_S8192_S8192x1_0 : (⟨S8192, .f32⟩ : BufTy).Contents (Elt F) → (⟨S8192x1, .f32⟩ : BufTy).Contents (Elt F)),
    binary main_v11 main_v7 main_v12 ((fun a b => concatenate S8192x8193 1 [⟨S8192x1, a⟩, ⟨S8192x8192, b⟩] concatenates_S8192x1_S8192x8192_S8192x8193_d1) : (⟨S8192x1, .f32⟩ : BufTy).Contents (Elt F) → (⟨S8192x8192, .f32⟩ : BufTy).Contents (Elt F) → (⟨S8192x8193, .f32⟩ : BufTy).Contents (Elt F)),
    nullary main_cst_0 (constant S_ .f32 0x3DCCCCCD#32),
    unary main_cst_0 main_v13 (broadcastInDim S8192x8193 ![] bcast_S_S8192x8193 : (⟨S_, .f32⟩ : BufTy).Contents (Elt F) → (⟨S8192x8193, .f32⟩ : BufTy).Contents (Elt F)),
    binary main_v12 main_v13 main_v14 (Host.divf : (⟨S8192x8193, .f32⟩ : BufTy).Contents (Elt F) → (⟨S8192x8193, .f32⟩ : BufTy).Contents (Elt F) → (⟨S8192x8193, .f32⟩ : BufTy).Contents (Elt F)) ]

/-- The log-softmax, the row maxima: the maximum along each row from the −∞ word. -/
abbrev s7a : List (HloOp τ sig (Elt F)) :=
  [ TRef.nullary (TRef.of (T := ⟨S_, .f32⟩) main_call3_cst) (constant S_ .f32 0xFF800000#32),
    TRef.binary (TRef.of (T := ⟨S8192x8193, .f32⟩) main_v14) (TRef.of (T := ⟨S_, .f32⟩) main_call3_cst) (TRef.of (T := ⟨S8192, .f32⟩) main_call3_v0) (fun x v => Host.reduce FloatOps.maximumf x v reducesTo_S8192x8193_S8192_d1 h_S_) ]

/-- The log-softmax, the shift: the row maxima taken once more against −∞, as a column, along the rows, and the logits minus them. -/
abbrev s7b : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S8192, .f32⟩) main_call3_v1) (broadcastInDim S8192 ![] bcast_S_S8192),
    TRef.binary (TRef.of (T := ⟨S8192, .f32⟩) main_call3_v1) (TRef.of (T := ⟨S8192, .f32⟩) main_call3_v0) (TRef.of (T := ⟨S8192, .f32⟩) main_call3_v2) maximumf,
    TRef.unary (TRef.of (T := ⟨S8192, .f32⟩) main_call3_v2) (TRef.of (T := ⟨S8192x1, .f32⟩) main_call3_v3) (broadcastInDim S8192x1 ![0] bcast_S8192_S8192x1_0),
    TRef.unary (TRef.of (T := ⟨S8192x1, .f32⟩) main_call3_v3) (TRef.of (T := ⟨S8192x8193, .f32⟩) main_call3_v4) (broadcastInDim S8192x8193 ![0, 1] bcast_S8192x1_S8192x8193_0_1),
    TRef.binary (TRef.of (T := ⟨S8192x8193, .f32⟩) main_v14) (TRef.of (T := ⟨S8192x8193, .f32⟩) main_call3_v4) (TRef.of (T := ⟨S8192x8193, .f32⟩) main_call3_v5) subf ]

/-- The log-softmax, second half: the exponentials of the shifted logits, their row sums from the zero word, the logarithms, and the difference. -/
abbrev s7c : List (HloOp τ sig (Elt F)) :=
  [ TRef.unary (TRef.of (T := ⟨S8192x8193, .f32⟩) main_call3_v5) (TRef.of (T := ⟨S8192x8193, .f32⟩) main_call3_v6) Host.exp,
    TRef.nullary (TRef.of (T := ⟨S_, .f32⟩) main_call3_cst_1) (constant S_ .f32 0x00000000#32),
    TRef.binary (TRef.of (T := ⟨S8192x8193, .f32⟩) main_call3_v6) (TRef.of (T := ⟨S_, .f32⟩) main_call3_cst_1) (TRef.of (T := ⟨S8192, .f32⟩) main_call3_v7) (fun x v => Host.reduceAdd x v reducesTo_S8192x8193_S8192_d1 h_S_),
    TRef.unary (TRef.of (T := ⟨S8192, .f32⟩) main_call3_v7) (TRef.of (T := ⟨S8192x1, .f32⟩) main_call3_v8) (broadcastInDim S8192x1 ![0] bcast_S8192_S8192x1_0),
    TRef.unary (TRef.of (T := ⟨S8192x1, .f32⟩) main_call3_v8) (TRef.of (T := ⟨S8192x1, .f32⟩) main_call3_v9) Host.log,
    TRef.unary (TRef.of (T := ⟨S8192x1, .f32⟩) main_call3_v9) (TRef.of (T := ⟨S8192x8193, .f32⟩) main_call3_v10) (broadcastInDim S8192x8193 ![0, 1] bcast_S8192x1_S8192x8193_0_1),
    TRef.binary (TRef.of (T := ⟨S8192x8193, .f32⟩) main_call3_v5) (TRef.of (T := ⟨S8192x8193, .f32⟩) main_call3_v10) (TRef.of (T := ⟨S8192x8193, .f32⟩) main_v15) subf ]

/-- The first column, summed from the zero word, negated, divided by the number of rows. -/
abbrev s8 : List (HloOp τ sig (Elt F)) :=
  [ unary main_v15 main_v16 ((extractStridedSlice S8192x1 ![0, 0] · slices_S8192x8193_S8192x1_0_0) : (⟨S8192x8193, .f32⟩ : BufTy).Contents (Elt F) → (⟨S8192x1, .f32⟩ : BufTy).Contents (Elt F)),
    reshape main_v16 main_v17 rfl shapeCasts_S8192x1_S8192,
    nullary main_cst_1 (constant S_ .f32 0x00000000#32),
    binary main_v17 main_cst_1 main_v18 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v18 main_v19 (Host.negf : (⟨S_, .f32⟩ : BufTy).Contents (Elt F) → (⟨S_, .f32⟩ : BufTy).Contents (Elt F)),
    nullary main_cst_2 (constant S_ .f32 0x46000000#32),
    binary main_v19 main_cst_2 main_v20 (Host.divf : (⟨S_, .f32⟩ : BufTy).Contents (Elt F) → (⟨S_, .f32⟩ : BufTy).Contents (Elt F) → (⟨S_, .f32⟩ : BufTy).Contents (Elt F)) ]

/-- The whole line. -/
abbrev ops : List (HloOp τ sig (Elt F)) := s1 ++ (s2 ++ (s3 ++ (s4 ++ (s5 ++ (s6 ++ (s7a ++ (s7b ++ (s7c ++ s8))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., nullary_bufs_sub .., binary_bufs_sub .., unary_bufs_sub .., nullary_bufs_sub .., binary_bufs_sub ..⟩

variable (W : Valuation τ sig (Elt F)) (x0 x1 : (⟨S4096x128, .f32⟩ : BufTy).Contents (Elt F))

/-! ## Each stretch against the stages -/

theorem s1_v0 (h0 : W (Proc.devRef .tc main_arg0) = x0) (h1 : W (Proc.devRef .tc main_arg1) = x1) :
    after s1 W (Proc.devRef .tc main_v0) = val_main_v0 (F := F) x0 x1 := by
  subst h0 h1; after_results; rfl

set_option maxRecDepth 16384 in
set_option maxHeartbeats 4000000 in
theorem s2_v1 (h0 : W (Proc.devRef .tc main_v0) = val_main_v0 (F := F) x0 x1) :
    after s2 W (Proc.devRef .tc main_v1) = val_main_v1 (F := F) x0 x1 := by
  after_results
  repeat (erw [h0])
  try unfold TRef.ofBuf TRef.toBuf
  repeat (rw [cast_eq])
  rfl
theorem s2_keeps_v0 : after s2 W (Proc.devRef .tc main_v0) = W (Proc.devRef .tc main_v0) := by after_results

set_option maxRecDepth 16384 in
set_option maxHeartbeats 4000000 in
theorem s3_v7 (h0 : W (Proc.devRef .tc main_v0) = val_main_v0 (F := F) x0 x1) (h1 : W (Proc.devRef .tc main_v1) = val_main_v1 (F := F) x0 x1) :
    after s3 W (Proc.devRef .tc main_v7) = val_main_v7 (F := F) x0 x1 := by
  after_results
  repeat (erw [h0]); repeat (erw [h1])
  try unfold TRef.ofBuf TRef.toBuf
  repeat (rw [cast_eq])
  rfl

set_option maxRecDepth 16384 in
set_option maxHeartbeats 4000000 in
theorem s4_v8 (h0 : W (Proc.devRef .tc main_v7) = val_main_v7 (F := F) x0 x1) :
    after s4 W (Proc.devRef .tc main_v8) = val_main_v8 (F := F) x0 x1 := by
  after_results
  repeat (erw [h0])
  try unfold TRef.ofBuf TRef.toBuf
  repeat (rw [cast_eq])
  rfl
theorem s4_keeps_v7 : after s4 W (Proc.devRef .tc main_v7) = W (Proc.devRef .tc main_v7) := by after_results

set_option maxRecDepth 16384 in
set_option maxHeartbeats 4000000 in
theorem s5_v9 (h0 : W (Proc.devRef .tc main_v7) = val_main_v7 (F := F) x0 x1) :
    after s5 W (Proc.devRef .tc main_v9) = val_main_v9 (F := F) x0 x1 := by
  after_results
  repeat (erw [h0])
  try unfold TRef.ofBuf TRef.toBuf
  repeat (rw [cast_eq])
  rfl
theorem s5_keeps_v7 : after s5 W (Proc.devRef .tc main_v7) = W (Proc.devRef .tc main_v7) := by after_results
theorem s5_keeps_v8 : after s5 W (Proc.devRef .tc main_v8) = W (Proc.devRef .tc main_v8) := by after_results

set_option maxRecDepth 16384 in
set_option maxHeartbeats 4000000 in
theorem s6_v14 (h0 : W (Proc.devRef .tc main_v8) = val_main_v8 (F := F) x0 x1) (h1 : W (Proc.devRef .tc main_v9) = val_main_v9 (F := F) x0 x1) (h2 : W (Proc.devRef .tc main_v7) = val_main_v7 (F := F) x0 x1) :
    after s6 W (Proc.devRef .tc main_v14) = val_main_v14 (F := F) x0 x1 := by
  after_results
  repeat (erw [h0]); repeat (erw [h1]); repeat (erw [h2])
  try unfold TRef.ofBuf TRef.toBuf
  repeat (rw [cast_eq])
  rfl

set_option maxRecDepth 16384 in
set_option maxHeartbeats 4000000 in
theorem s7a_call3_v0 (h0 : W (Proc.devRef .tc main_v14) = val_main_v14 (F := F) x0 x1) :
    after s7a W (Proc.devRef .tc main_call3_v0) = val_main_call3_v0 (F := F) x0 x1 := by
  after_results
  repeat (erw [h0])
  try unfold TRef.ofBuf TRef.toBuf
  repeat (rw [cast_eq])
  rfl
theorem s7a_keeps_v14 : after s7a W (Proc.devRef .tc main_v14) = W (Proc.devRef .tc main_v14) := by after_results

set_option maxRecDepth 16384 in
set_option maxHeartbeats 4000000 in
theorem s7b_call3_v5 (h0 : W (Proc.devRef .tc main_call3_v0) = val_main_call3_v0 (F := F) x0 x1) (h1 : W (Proc.devRef .tc main_v14) = val_main_v14 (F := F) x0 x1) :
    after s7b W (Proc.devRef .tc main_call3_v5) = val_main_call3_v5 (F := F) x0 x1 := by
  after_results
  repeat (erw [h0]); repeat (erw [h1])
  try unfold TRef.ofBuf TRef.toBuf
  repeat (rw [cast_eq])
  rfl

set_option maxRecDepth 16384 in
set_option maxHeartbeats 4000000 in
theorem s7c_v15 (h0 : W (Proc.devRef .tc main_call3_v5) = val_main_call3_v5 (F := F) x0 x1) :
    after s7c W (Proc.devRef .tc main_v15) = val_main_v15 (F := F) x0 x1 := by
  after_results
  repeat (erw [h0])
  try unfold TRef.ofBuf TRef.toBuf
  repeat (rw [cast_eq])
  rfl

set_option maxRecDepth 16384 in
set_option maxHeartbeats 4000000 in
theorem s8_v20 (h0 : W (Proc.devRef .tc main_v15) = val_main_v15 (F := F) x0 x1) :
    after s8 W (Proc.devRef .tc main_v20) = val_main_v20 (F := F) x0 x1 := by
  after_results
  repeat (erw [h0])
  try unfold TRef.ofBuf TRef.toBuf
  repeat (rw [cast_eq])
  rfl

theorem s1_keeps_arg0 : after s1 W (Proc.devRef .tc main_arg0) = W (Proc.devRef .tc main_arg0) := by after_results
theorem s1_keeps_arg1 : after s1 W (Proc.devRef .tc main_arg1) = W (Proc.devRef .tc main_arg1) := by after_results
theorem s2_keeps_arg0 : after s2 W (Proc.devRef .tc main_arg0) = W (Proc.devRef .tc main_arg0) := by after_results
theorem s2_keeps_arg1 : after s2 W (Proc.devRef .tc main_arg1) = W (Proc.devRef .tc main_arg1) := by after_results
theorem s3_keeps_arg0 : after s3 W (Proc.devRef .tc main_arg0) = W (Proc.devRef .tc main_arg0) := by after_results
theorem s3_keeps_arg1 : after s3 W (Proc.devRef .tc main_arg1) = W (Proc.devRef .tc main_arg1) := by after_results
theorem s4_keeps_arg0 : after s4 W (Proc.devRef .tc main_arg0) = W (Proc.devRef .tc main_arg0) := by after_results
theorem s4_keeps_arg1 : after s4 W (Proc.devRef .tc main_arg1) = W (Proc.devRef .tc main_arg1) := by after_results
theorem s5_keeps_arg0 : after s5 W (Proc.devRef .tc main_arg0) = W (Proc.devRef .tc main_arg0) := by after_results
theorem s5_keeps_arg1 : after s5 W (Proc.devRef .tc main_arg1) = W (Proc.devRef .tc main_arg1) := by after_results
theorem s6_keeps_arg0 : after s6 W (Proc.devRef .tc main_arg0) = W (Proc.devRef .tc main_arg0) := by after_results
theorem s6_keeps_arg1 : after s6 W (Proc.devRef .tc main_arg1) = W (Proc.devRef .tc main_arg1) := by after_results
theorem s7a_keeps_arg0 : after s7a W (Proc.devRef .tc main_arg0) = W (Proc.devRef .tc main_arg0) := by after_results
theorem s7a_keeps_arg1 : after s7a W (Proc.devRef .tc main_arg1) = W (Proc.devRef .tc main_arg1) := by after_results
theorem s7b_keeps_arg0 : after s7b W (Proc.devRef .tc main_arg0) = W (Proc.devRef .tc main_arg0) := by after_results
theorem s7b_keeps_arg1 : after s7b W (Proc.devRef .tc main_arg1) = W (Proc.devRef .tc main_arg1) := by after_results
theorem s7c_keeps_arg0 : after s7c W (Proc.devRef .tc main_arg0) = W (Proc.devRef .tc main_arg0) := by after_results
theorem s7c_keeps_arg1 : after s7c W (Proc.devRef .tc main_arg1) = W (Proc.devRef .tc main_arg1) := by after_results
theorem s8_keeps_arg0 : after s8 W (Proc.devRef .tc main_arg0) = W (Proc.devRef .tc main_arg0) := by after_results
theorem s8_keeps_arg1 : after s8 W (Proc.devRef .tc main_arg1) = W (Proc.devRef .tc main_arg1) := by after_results

/-! ## The whole line -/

/-- After the whole line the result buffer holds the last stage of the two arguments. -/
theorem after_v20 :
    after ops W (Proc.devRef .tc main_v20)
      = val_main_v20 (F := F) (W (Proc.devRef .tc main_arg0)) (W (Proc.devRef .tc main_arg1)) := by
  simp only [ops, after_append]
  have a1 := s1_v0 W _ _ rfl rfl
  generalize after s1 W = W1 at a1 ⊢
  have a2 := s2_v1 W1 _ _ a1
  have a2' := (s2_keeps_v0 W1).trans a1
  generalize after s2 W1 = W2 at a2 a2' ⊢
  have a3 := s3_v7 W2 _ _ a2' a2
  generalize after s3 W2 = W3 at a3 ⊢
  have a4 := s4_v8 W3 _ _ a3
  have a4' := (s4_keeps_v7 W3).trans a3
  generalize after s4 W3 = W4 at a4 a4' ⊢
  have a5 := s5_v9 W4 _ _ a4'
  have a5' := (s5_keeps_v7 W4).trans a4'
  have a5'' := (s5_keeps_v8 W4).trans a4
  generalize after s5 W4 = W5 at a5 a5' a5'' ⊢
  have a6 := s6_v14 W5 _ _ a5'' a5 a5'
  generalize after s6 W5 = W6 at a6 ⊢
  have a7 := s7a_call3_v0 W6 _ _ a6
  have a7' := (s7a_keeps_v14 W6).trans a6
  generalize after s7a W6 = W7 at a7 a7' ⊢
  have a8 := s7b_call3_v5 W7 _ _ a7 a7'
  generalize after s7b W7 = W8 at a8 ⊢
  have a9 := s7c_v15 W8 _ _ a8
  generalize after s7c W8 = W9 at a9 ⊢
  exact s8_v20 W9 _ _ a9

theorem after_arg0 : after ops W (Proc.devRef .tc main_arg0) = W (Proc.devRef .tc main_arg0) := by
  simp only [ops, after_append]
  rw [s8_keeps_arg0, s7c_keeps_arg0, s7b_keeps_arg0, s7a_keeps_arg0, s6_keeps_arg0, s5_keeps_arg0, s4_keeps_arg0, s3_keeps_arg0, s2_keeps_arg0, s1_keeps_arg0]
theorem after_arg1 : after ops W (Proc.devRef .tc main_arg1) = W (Proc.devRef .tc main_arg1) := by
  simp only [ops, after_append]
  rw [s8_keeps_arg1, s7c_keeps_arg1, s7b_keeps_arg1, s7a_keeps_arg1, s6_keeps_arg1, s5_keeps_arg1, s4_keeps_arg1, s3_keeps_arg1, s2_keeps_arg1, s1_keeps_arg1]

/-- On every device, from any memory with zero counters: every weakly fair execution of the reference program terminates,
    with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
          = val_main_v20 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v20).trans (after_v20 _), (h c main_arg0).trans (after_arg0 _), (h c main_arg1).trans (after_arg1 _)⟩)
    (run_seq scopedRefs_eq scopedSems_eq defs main (fun _ => ops) main_eq (fun _ => ops_sub) m ρ)

end Cert.ReferenceIdeal.Stretch

end
-- ==== Proof.KbCases.lean ====
/-
  The kernel body at a grid point (i, j) of the 8 × 8 grid, case by case.

  The body keeps a running denominator in its scratch column: at j = 0 it first stores the positive's
  term there; at every j it adds the block's row sums to it; at j = 7 it stores the row losses into the
  output block.  So there are three cases of the two conditions (j = 0, j = 7), and in each the body
  runs on whole staging buffers to a state that holds the inputs as they were, the scratch with the
  case's stores written, and the output block either untouched (j < 7) or with the loss store written.
-/
import proofs.«110881_j37039797960862_2_alg».proof.Proof.Gen.Kernel.Launch
import proofs.«110881_j37039797960862_2_alg».proof.Proof.Gen.Kernel.Skeleton
import proofs.«110881_j37039797960862_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic
import Idealize.ShloMosaic.PureOps.Ideal

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions over the grid -/

/-- "This is the first column block" (j = 0), as the body computes it from the grid coordinates. -/
abbrev condFirst (i : grid0.Coords) : Prop :=
  (Scalar.cmpi .ne (Scalar.extui (Scalar.cmpi .eq (BitVec.ofNat 32 (i 1).val) 0#32)) 0#32) = 1#1
/-- It holds exactly at the points t with t mod 8 = 0. -/
theorem condFirst_iff : ∀ t : Fin cfg0.N, condFirst (grid0.coords t) ↔ t.val % 8 = 0 :=
  (by decide +kernel : ∀ t : Fin grid0.N, condFirst (grid0.coords t) ↔ t.val % 8 = 0)

/-- "This is the last column block" (j = 7). -/
abbrev condLast (i : grid0.Coords) : Prop := k0_cond2 i = 1#1
/-- It holds exactly at the points t with t mod 8 = 7. -/
theorem condLast_iff : ∀ t : Fin cfg0.N, condLast (grid0.coords t) ↔ t.val % 8 = 7 :=
  (by decide +kernel : ∀ t : Fin grid0.N, condLast (grid0.coords t) ↔ t.val % 8 = 7)

/-! ## Where a window's buffer is left alone -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Before the last column block nothing is stored into the output block, -/
theorem idle3 : ∀ t : Fin cfg0.N, ¬condLast (grid0.coords t) → cfg0.idle 3 (grid0.coords t) = true := by decide +kernel
/-- and it is not written back there; -/
theorem noFlush3 : ∀ t : Fin cfg0.N, ¬condLast (grid0.coords t) → (cfg0.win 3).flush t = false := by decide +kernel
/-- at the last column block it is stored. -/
theorem live3 : ∀ t : Fin cfg0.N, condLast (grid0.coords t) → cfg0.idle 3 (grid0.coords t) = false := by decide +kernel

/-! ## The buffers the body is called with -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
/-- The scratch column that carries the running denominator. -/
abbrev scM : Memref sig .tc .vmem S1024x1 .f32 := Memref.whole cc0_scratch0
abbrev VS : View sig .tc .vmem S1024x1 .f32 := scM.view
/-- A view of the output block's shape, through which its contents are stated. -/
abbrev VO : View sig .tc .vmem S1024x1 .f32 := (Memref.whole cc0_stg3_0 : Memref sig .tc .vmem S1024x1 .f32).view

/-- The scoped buffers no window stages are the scratch column, at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

/-! ## The three cases -/

set_option maxHeartbeats 1600000 in
/-- j = 0: the scratch is found at anything; the body stores the positive's term, then the sum with the
    block's row sums; the output block is handed back as found. -/
noncomputable def runFirst (c : Dev nD) (i : grid0.Coords) (arg2 : Memref sig .tc .vmem S1024x128 .bf16) (harg2 : arg2.IsWhole)
    (arg3 : Memref sig .tc .vmem S1024x128 .bf16) (harg3 : arg3.IsWhole) (arg4 : Memref sig .tc .vmem S1024x1 .f32) (harg4 : arg4.IsWhole)
    (arg5 : Memref sig .tc .vmem S1024x1 .f32) (harg5 : arg5.IsWhole) (arg6 : Memref sig .tc .vmem S1024x1 .f32) (harg6 : arg6.IsWhole)
    (hc0 : condFirst i) (hc1 : ¬condLast i)
    (x0 x1 : Vec F S1024x128 .bf16) (x2 : Vec F S1024x1 .f32) :
    Σ' (L3 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc0__ntxent_kernel i arg2 harg2 arg3 harg3 arg4 harg4 arg5 harg5 arg6 harg6) K } := by
  refine ⟨[], ?_, fun xi E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1600000 in
/-- 0 < j < 7: the scratch is found at what the point before left; the body adds the block's row sums. -/
noncomputable def runMiddle (c : Dev nD) (i : grid0.Coords) (arg2 : Memref sig .tc .vmem S1024x128 .bf16) (harg2 : arg2.IsWhole)
    (arg3 : Memref sig .tc .vmem S1024x128 .bf16) (harg3 : arg3.IsWhole) (arg4 : Memref sig .tc .vmem S1024x1 .f32) (harg4 : arg4.IsWhole)
    (arg5 : Memref sig .tc .vmem S1024x1 .f32) (harg5 : arg5.IsWhole) (arg6 : Memref sig .tc .vmem S1024x1 .f32) (harg6 : arg6.IsWhole)
    (hc0 : ¬condFirst i) (hc1 : ¬condLast i)
    (x0 x1 : Vec F S1024x128 .bf16) (x2 : Vec F S1024x1 .f32) (xs : Vec F S1024x1 .f32) :
    Σ' (L3 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc0__ntxent_kernel i arg2 harg2 arg3 harg3 arg4 harg4 arg5 harg5 arg6 harg6) K } := by
  refine ⟨[], ?_, fun xi E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1600000 in
/-- j = 7: as in the middle, and then the row losses are stored into the output block, found at anything. -/
noncomputable def runLast (c : Dev nD) (i : grid0.Coords) (arg2 : Memref sig .tc .vmem S1024x128 .bf16) (harg2 : arg2.IsWhole)
    (arg3 : Memref sig .tc .vmem S1024x128 .bf16) (harg3 : arg3.IsWhole) (arg4 : Memref sig .tc .vmem S1024x1 .f32) (harg4 : arg4.IsWhole)
    (arg5 : Memref sig .tc .vmem S1024x1 .f32) (harg5 : arg5.IsWhole) (arg6 : Memref sig .tc .vmem S1024x1 .f32) (harg6 : arg6.IsWhole)
    (hc0 : ¬condFirst i) (hc1 : condLast i)
    (x0 x1 : Vec F S1024x128 .bf16) (x2 : Vec F S1024x1 .f32) (xs : Vec F S1024x1 .f32) :
    Σ' (L3 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__ntxent_kernel i arg2 harg2 arg3 harg3 arg4 harg4 arg5 harg5 arg6 harg6) K } := by
  refine ⟨?_, ?_, fun E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Frame

end
-- ==== Proof.KbData.lean ====
/-
  What the scratch column and the output block hold after each grid point, the proof data of the
  pipeline built from it, and the body's obligation at every point.

  The points run row block by row block (t = 8·i + j).  After point t the scratch holds the running
  denominator of row block i over column blocks 0 … j; the output block holds the row losses after the
  points with j = 7, where it is written back, and is left alone elsewhere.
-/
import proofs.«110881_j37039797960862_2_alg».proof.Proof.KbCases

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core c's buffers when the region is entered: after the host operations before it. -/
abbrev V0 (c : Dev nD) : Valuation τ sig (Elt F) :=
  StableHlo.after (List.flatten [hostOps0, hostOps0_1, hostOps0_2]) (fun b => m (c, b))
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's current staging buffer holds its block at every point, fetched there or not. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The output block where nothing is stored into it: a placeholder nothing consults. -/
def outIdle : Vec F S1024x1 .f32 := VO.read (Elt F) VO.junk

theorem coverFirstS (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : condFirst i) (hc1 : ¬condLast i)
    (x0 x1 : Vec F S1024x128 .bf16) (x2 : Vec F S1024x1 .f32) (y : S1024x1.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S1024x1.size (by sl_kernel_rfl) y
/-- The scratch after a point with j = 0. -/
def scFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : condFirst i) (hc1 : ¬condLast i)
    (x0 x1 : Vec F S1024x128 .bf16) (x2 : Vec F S1024x1 .f32) : Vec F S1024x1 .f32 :=
  VS.read (Elt F) (VS.writes (Elt F) VS.junk (runFirst c i arg2 harg2 arg3 harg3 arg4 harg4 arg5 harg5 arg6 harg6 hc0 hc1 x0 x1 x2).2.1)

theorem coverMiddleS (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : ¬condLast i)
    (x0 x1 : Vec F S1024x128 .bf16) (x2 : Vec F S1024x1 .f32) (xs : Vec F S1024x1 .f32) (y : S1024x1.Idx) :
    ∃ pc ∈ (runMiddle c i arg2 harg2 arg3 harg3 arg4 harg4 arg5 harg5 arg6 harg6 hc0 hc1 x0 x1 x2 xs).2.1, y ∈ pc.1.set :=
  View.cover_of_tiledL (runMiddle c i arg2 harg2 arg3 harg3 arg4 harg4 arg5 harg5 arg6 harg6 hc0 hc1 x0 x1 x2 xs).2.1 S1024x1.size (by sl_kernel_rfl) y
/-- The scratch after a point with 0 < j < 7. -/
def scMiddle (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : ¬condLast i)
    (x0 x1 : Vec F S1024x128 .bf16) (x2 : Vec F S1024x1 .f32) (xs : Vec F S1024x1 .f32) : Vec F S1024x1 .f32 :=
  VS.read (Elt F) (VS.writes (Elt F) VS.junk (runMiddle c i arg2 harg2 arg3 harg3 arg4 harg4 arg5 harg5 arg6 harg6 hc0 hc1 x0 x1 x2 xs).2.1)

theorem coverLastS (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : condLast i)
    (x0 x1 : Vec F S1024x128 .bf16) (x2 : Vec F S1024x1 .f32) (xs : Vec F S1024x1 .f32) (y : S1024x1.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x1.size (by sl_kernel_rfl) y
/-- The scratch after a point with j = 7. -/
def scLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : condLast i)
    (x0 x1 : Vec F S1024x128 .bf16) (x2 : Vec F S1024x1 .f32) (xs : Vec F S1024x1 .f32) : Vec F S1024x1 .f32 :=
  VS.read (Elt F) (VS.writes (Elt F) VS.junk (runLast c i arg2 harg2 arg3 harg3 arg4 harg4 arg5 harg5 arg6 harg6 hc0 hc1 x0 x1 x2 xs).2.1)
theorem coverLastO (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : condLast i)
    (x0 x1 : Vec F S1024x128 .bf16) (x2 : Vec F S1024x1 .f32) (xs : Vec F S1024x1 .f32) (y : S1024x1.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1024x1.size (by sl_kernel_rfl) y
/-- The output block after a point with j = 7. -/
def outLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : condLast i)
    (x0 x1 : Vec F S1024x128 .bf16) (x2 : Vec F S1024x1 .f32) (xs : Vec F S1024x1 .f32) : Vec F S1024x1 .f32 :=
  VO.read (Elt F) (VO.writes (Elt F) VO.junk (runLast c i arg2 harg2 arg3 harg3 arg4 harg4 arg5 harg5 arg6 harg6 hc0 hc1 x0 x1 x2 xs).1)

/-! ## Point by point -/

/-- What the output block and the scratch hold after the body at position n: the case the position is in,
    run at the point's buffers and input blocks, over the scratch the point before left. -/
def outsAt (c : Dev nD) : (n : ℕ) → n < cfg0.N → Vec F S1024x1 .f32 × Vec F S1024x1 .f32
  | 0, hn => (outIdle, scFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((condFirst_iff ⟨0, hn⟩).mpr (Nat.zero_mod _))
      (fun h => (fun h => by (try dsimp only at h); omega) ((condLast_iff ⟨0, hn⟩).mp h)) (iblk m c 0 ⟨0, hn⟩) (iblk m c 1 ⟨0, hn⟩) (iblk m c 2 ⟨0, hn⟩))
  | n + 1, hn =>
    if h0 : (n + 1) % 8 = 0 then
      (outIdle, scFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((condFirst_iff ⟨n + 1, hn⟩).mpr h0)
        (fun h => (fun h => by (try dsimp only at h); omega) ((condLast_iff ⟨n + 1, hn⟩).mp h)) (iblk m c 0 ⟨n + 1, hn⟩) (iblk m c 1 ⟨n + 1, hn⟩) (iblk m c 2 ⟨n + 1, hn⟩))
    else
      if h1 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) ((condLast_iff ⟨n + 1, hn⟩).mpr h1)
            (iblk m c 0 ⟨n + 1, hn⟩) (iblk m c 1 ⟨n + 1, hn⟩) (iblk m c 2 ⟨n + 1, hn⟩) (outsAt c n (Nat.lt_of_succ_lt hn)).2,
          scLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) ((condLast_iff ⟨n + 1, hn⟩).mpr h1)
            (iblk m c 0 ⟨n + 1, hn⟩) (iblk m c 1 ⟨n + 1, hn⟩) (iblk m c 2 ⟨n + 1, hn⟩) (outsAt c n (Nat.lt_of_succ_lt hn)).2)
      else
        (outIdle, scMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) (fun h => h1 ((condLast_iff ⟨n + 1, hn⟩).mp h))
            (iblk m c 0 ⟨n + 1, hn⟩) (iblk m c 1 ⟨n + 1, hn⟩) (iblk m c 2 ⟨n + 1, hn⟩) (outsAt c n (Nat.lt_of_succ_lt hn)).2)

theorem outsAt_first (c : Dev nD) (t : Fin cfg0.N) (h0 : t.val % 8 = 0) (h1 : ¬t.val % 8 = 7) :
    outsAt m c t.val t.isLt = (outIdle, scFirst c (grid0.coords t) (ms0 t) (hs0 t) (ms1 t) (hs1 t) (ms2 t) (hs2 t) (ms3 t) (hs3 t) scM (Memref.isWhole_whole _) ((condFirst_iff t).mpr h0) (fun h => h1 ((condLast_iff t).mp h)) (iblk m c 0 t) (iblk m c 1 t) (iblk m c 2 t)) := by
  obtain ⟨n, hn⟩ := t
  cases n with
  | zero => exact rfl
  | succ n => exact (dif_pos h0).trans rfl

theorem outsAt_middle (c : Dev nD) (t : Fin cfg0.N) (h0 : ¬t.val % 8 = 0) (h1 : ¬t.val % 8 = 7) :
    outsAt m c t.val t.isLt = (outIdle, scMiddle c (grid0.coords t) (ms0 t) (hs0 t) (ms1 t) (hs1 t) (ms2 t) (hs2 t) (ms3 t) (hs3 t) scM (Memref.isWhole_whole _) (fun h => h0 ((condFirst_iff t).mp h)) (fun h => h1 ((condLast_iff t).mp h)) (iblk m c 0 t) (iblk m c 1 t) (iblk m c 2 t)
      (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt m c t.val t.isLt = (outLast c (grid0.coords t) (ms0 t) (hs0 t) (ms1 t) (hs1 t) (ms2 t) (hs2 t) (ms3 t) (hs3 t) scM (Memref.isWhole_whole _) (fun h => h0 ((condFirst_iff t).mp h)) ((condLast_iff t).mpr h1) (iblk m c 0 t) (iblk m c 1 t) (iblk m c 2 t)
        (outsAt m c (t.val - 1) (Nat.lt_of_le_of_lt (Nat.sub_le _ _) t.isLt)).2,
      scLast c (grid0.coords t) (ms0 t) (hs0 t) (ms1 t) (hs1 t) (ms2 t) (hs2 t) (ms3 t) (hs3 t) scM (Memref.isWhole_whole _) (fun h => h0 ((condFirst_iff t).mp h)) ((condLast_iff t).mpr h1) (iblk m c 0 t) (iblk m c 1 t) (iblk m c 2 t)
        (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position n: the scratch at anything before the first point, afterwards at what the point
    before left in it. -/
def PhiS (c : Dev nD) : (n : ℕ) → n ≤ cfg0.N → sProp 𝕄
  | 0, _ => Pipeline.scopedRest spec0 c
  | n + 1, hn => owns (c : Thread nD τ) scM fullShare ((outsAt m c n hn).2)

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-- At any position the invariant holds the scratch at some contents. -/
theorem PhiS_any (c : Dev nD) (n : ℕ) (h : n ≤ cfg0.N) : PhiS m c n h ⊢ iprop(∃ d, owns (c : Thread nD τ) scM fullShare d) := by
  cases n with
  | zero => rw [show PhiS m c 0 h = Pipeline.scopedRest spec0 c from rfl, scopedRest_scratch]
  | succ n => rw [PhiS_succ]; iintro H; iexists _; iexact H

/-! ## The proof data -/

/-- The pipeline's proof data on core c.  The two windows on the scaled-rows array read it at half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]

set_option maxHeartbeats 4800000 in
/-- The body at any point: the inputs' buffers hold their blocks; the point's position mod 8 says which case it is in;
    the invariant hands the body the scratch (at anything at j = 0, else at what the point before left) and takes it
    back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, PhiS_castSucc m c t]
  have hN : t.val < 64 := lt_of_lt_of_eq t.isLt (show cfg0.N = 64 from N_0)
  by_cases h0 : t.val % 8 = 0
  · have h1 : ¬t.val % 8 = 7 := by omega
    rw [Dat.leavesExact_idle (dats m 0 c) 3 t (idle3 t (fun h => h1 ((condLast_iff t).mp h))) (noFlush3 t (fun h => h1 ((condLast_iff t).mp h)))]
    rw [outsAt_first m c t h0 h1]
    unfold scFirst; (try dsimp only)
    iintro ⟨HS, Ho, ⟨%d0, H0⟩, ⟨%d1, H1⟩, ⟨%d2, H2⟩, ⟨%d3, H3⟩⟩
    ihave HS := (PhiS_any m c _ _) $$ HS
    iapply ((runFirst c (grid0.coords t) _ _ _ _ _ _ _ _ _ _ ((condFirst_iff t).mpr h0) (fun h => h1 ((condLast_iff t).mp h)) (iblk m c 0 t) (iblk m c 1 t) (iblk m c 2 t)).2.2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS]
    · unfold owns; iexists _; isplitr
      swap; · iexact HS
      ipureintro; exact View.read_writes_of_cover _ _ _ _ _ (coverFirstS c _ _ _ _ _ _ _ _ _ _ _ _ _ _ _ _)
    isplitl [Ho]; · iexact Ho
    isplitl [H0]; · iexact H0
    isplitl [H1]; · iexact H1
    isplitl [H2]; · iexact H2
    iexists _; iexact H3
  · have hz : t.val ≠ 0 := fun h => h0 (by rw [h])
    rw [PhiS_pos m c _ _ hz]
    by_cases h1 : t.val % 8 = 7
    · rw [show (dats m 0 c).leavesExact 3 t = owns (c : Thread nD τ) (ms3 t) fullShare ((dats m 0 c).after 3 t) from by
        unfold Dat.leavesExact; rw [live3 t ((condLast_iff t).mpr h1)], after3]
      rw [outsAt_last m c t h0 h1]
      unfold outLast scLast; (try dsimp only)
      iintro ⟨HS, Ho, ⟨%d0, H0⟩, ⟨%d1, H1⟩, ⟨%d2, H2⟩, ⟨%d3, H3⟩⟩
      iapply ((runLast c (grid0.coords t) _ _ _ _ _ _ _ _ _ _ (fun h => h0 ((condFirst_iff t).mp h)) ((condLast_iff t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS]
      · unfold owns; iexists _; isplitr
        swap; · iexact HS
        ipureintro; exact View.read_writes_of_cover _ _ _ _ _ (coverLastS c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastO c _ _ _ _ _ _ _ _ _ _ _ _ _ _ _ _ _)
    · rw [Dat.leavesExact_idle (dats m 0 c) 3 t (idle3 t (fun h => h1 ((condLast_iff t).mp h))) (noFlush3 t (fun h => h1 ((condLast_iff t).mp h)))]
      rw [outsAt_middle m c t h0 h1]
      unfold scMiddle; (try dsimp only)
      iintro ⟨HS, Ho, ⟨%d0, H0⟩, ⟨%d1, H1⟩, ⟨%d2, H2⟩, ⟨%d3, H3⟩⟩
      iapply ((runMiddle c (grid0.coords t) _ _ _ _ _ _ _ _ _ _ (fun h => h0 ((condFirst_iff t).mp h)) (fun h => h1 ((condLast_iff t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact View.read_writes_of_cover _ _ _ _ _ (coverMiddleS c _ _ _ _ _ _ _ _ _ _ _ _ _ _ _ _ _)
      isplitl [Ho]; · iexact Ho
      isplitl [H0]; · iexact H0
      isplitl [H1]; · iexact H1
      isplitl [H2]; · iexact H2
      iexists _; iexact H3

/-- The pipeline library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.KbLaunch.lean ====
/-
  The whole program around the kernel region, as host stretches and the region in order.

  Three stretches of host operations build the scaled rows and the positives; the region runs over
  them — its two windows on the scaled-rows array each read it at half the share, so the array is
  split in two at the region's entry and joined again at its exit —; one more stretch sums the row
  losses the region wrote and divides by their number.  The run's post names every unscoped buffer's
  final contents.
-/
import proofs.«110881_j37039797960862_2_alg».proof.Proof.KbData
import Idealize.ShloMosaic.Lib.Pipeline.Frame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Lz : GSem nD τ sig → Finset Unit := fun _ => ∅
abbrev lvz : GSem nD τ sig → Unit → ℕ := fun _ _ => 0
abbrev adm : (p : Fin 1) → (pcfgs (F := F) p).Adm := fun p => (cfgs p).toPCfg_adm
abbrev VN : Variants := Variants.none
/-- What rides beside the buffers: the core owes nothing. -/
abbrev R (c : Dev nD) : sProp 𝕄 := iprop(∃ W, owes (c : Thread nD τ) (0 : CellTallies nD τ sig Unit) W)

/-! ## The buffers' contents, stretch by stretch -/

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)

theorem W3_eq (c : Dev nD) : W3 m c = V0 m c := by
  simp only [W3, W2, W1, W0, V0, List.flatten_cons, List.flatten_nil, List.append_nil, StableHlo.after_append]

/-- The output array after the region: what the pipeline's write-backs leave. -/
abbrev finalOut (c : Dev nD) := (dats m 0 c).arrAt 3 cfg0.N
/-- The buffers at the region's exit: the output array rewritten, every other as at the entry. -/
abbrev W4 (c : Dev nD) : Valuation τ sig (Elt F) := Function.update (V0 m c) (Proc.devRef .tc main_v13) (finalOut m c)
/-- The buffers at the end. -/
abbrev W5 (c : Dev nD) : Valuation τ sig (Elt F) := StableHlo.after hostOps1 (W4 m c)

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh0_2 : ∀ op ∈ (hostOps0_2 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

abbrev HS := Pipeline.HostSeg (Name := ℕ) (U := UR sig nD τ) (pcfgs (F := F)) defs₀ VN Lz lvz

def segA : HS (F := F) :=
  Pipeline.HostSeg.ofOps _ _ _ _ _ (Pipeline.ucRefs τ sig) hostOps0
    (fun op h => Pipeline.sub_ucRefs op ((List.forall_iff_forall_mem.mp hostOps0_sub) op h)) fresh0 (W0 m) R
def segB : HS (F := F) :=
  Pipeline.HostSeg.ofOps _ _ _ _ _ (Pipeline.ucRefs τ sig) hostOps0_1
    (fun op h => Pipeline.sub_ucRefs op ((List.forall_iff_forall_mem.mp hostOps0_1_sub) op h)) fresh0_1 (W1 m) R
def segC : HS (F := F) :=
  Pipeline.HostSeg.ofOps _ _ _ _ _ (Pipeline.ucRefs τ sig) hostOps0_2
    (fun op h => Pipeline.sub_ucRefs op ((List.forall_iff_forall_mem.mp hostOps0_2_sub) op h)) fresh0_2 (W2 m) R
def segD : HS (F := F) :=
  Pipeline.HostSeg.ofOps _ _ _ _ _ (Pipeline.ucRefs τ sig) hostOps1
    (fun op h => Pipeline.sub_ucRefs op ((List.forall_iff_forall_mem.mp hostOps1_sub) op h)) fresh1 (W4 m) R

/-! ## The arrays behind the windows, listed -/

/-- The three buffers behind the four windows. -/
theorem arrBufs_list (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v6) ↦{fullShare} V' main_v6) ∗ (((c : Thread nD τ).loc main_v12) ↦{fullShare} V' main_v12)
          ∗ (((c : Thread nD τ).loc main_v13) ↦{fullShare} V' main_v13)) := by
  unfold Pipeline.arrBufs
  exact Idealize.SL.BI.bigSep_eq_bigSepL_of_eq [main_v6, main_v12, main_v13] (by decide) (by decide) _

/-- The pipeline's arrays, window by window, at the shares the proof data names. -/
theorem arrays_list (c : Dev nD) (Fa : (w : Fin cfg0.W) → Buf (Elt F) ((cfg0.win w).arr.view.loc (c : Thread nD τ))) :
    ((dats m 0 c).arrays Fa : sProp 𝕄)
      = iprop((((c : Thread nD τ).loc main_v6) ↦{fullShare.left} Fa 0) ∗ (((c : Thread nD τ).loc main_v6) ↦{fullShare.right} Fa 1)
          ∗ (((c : Thread nD τ).loc main_v12) ↦{fullShare} Fa 2) ∗ (((c : Thread nD τ).loc main_v13) ↦{fullShare} Fa 3)) := by
  unfold Dat.arrays
  rw [bigSep_W0, (arr_whole0 0).set_eq_univ, (arr_whole0 2).set_eq_univ, (arr_whole0 3).set_eq_univ]
  rfl

/-- Outside the windows' arrays the exit contents are the entry contents. -/
theorem rest_exit (c : Dev nD) :
    (Pipeline.unscopedRest (Ix := Unit) (Name := ℕ) (U := UR sig nD τ) (Lvl := ℕ) spec0 c (fun b => W4 m c (Proc.devRef .tc b)) : sProp 𝕄)
      = Pipeline.unscopedRest spec0 c (V m c) := by
  unfold Pipeline.unscopedRest
  refine Idealize.SL.BI.bigSep_congr fun b hb => ?_
  have hne : b ≠ main_v13 := fun h => (Finset.mem_sdiff.mp hb).2 (Finset.mem_image.mpr ⟨3, Finset.mem_univ _, h.symm ▸ rfl⟩)
  have e : W4 m c (Proc.devRef .tc b) = V0 m c (Proc.devRef .tc b) := Function.update_of_ne (StableHlo.devRef_ne_of_ne hne) _ _
  show (((c : Thread nD τ).loc b) ↦{fullShare} W4 m c (Proc.devRef .tc b) : sProp 𝕄) = _
  rw [e]

/-! ## The region -/

set_option backward.isDefEq.respectTransparency.types false in
def reg : Pipeline.RegionSeg (pcfgs (F := F)) adm (dats m) () defs₀ VN Lz lvz 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ Lz lvz 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X _ := iprop(emp)
  Y _ := iprop(emp)
  Z c := Pipeline.unscopedRest spec0 c (V m c)
  hentry c := by
    rw [W3_eq, show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c), arrBufs_list, arrays_list]
    iintro ⟨⟨⟨⟨H6, H12, H13⟩, Hrest⟩, HO⟩, -, -⟩
    ihave H6 := (pointsTo_share (PosShare.mem_left_op_right fullShare)).1 $$ H6
    icases H6 with ⟨H6l, H6r⟩
    imodintro
    isplitl [H6l H6r H12 H13]
    · isplitl [H6l]; · iexact H6l
      isplitl [H6r]; · iexact H6r
      isplitl [H12]; · iexact H12
      iexact H13
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest spec0 c from rfl]
    iintro ⟨-, -, Hr⟩; iexact Hr
  hout c := by
    rw [Pipeline.ownSems0_none, scopedRest_scratch]
    refine (show (dats m 0 c).Φ (Fin.last cfg0.N) ⊢ iprop(∃ d, owns (c : Thread nD τ) scM fullShare d) from
      PhiS_any m c (Fin.last cfg0.N).val (Nat.le_of_lt_succ (Fin.last cfg0.N).isLt)).trans ?_
    iintro H
    isplitr; · iempintro
    isplitr; · iempintro
    iexact H
  hexit c := by
    rw [arrays_list, show StableHlo.held (c : Thread nD τ) (Pipeline.ucRefs τ sig) (W4 m c) = unscopedBufs c (fun b => W4 m c (Proc.devRef .tc b)) from (Pipeline.unscopedBufs_held c _).symm,
      Pipeline.unscopedBufs_split₀ cfgs 0 winFacts₀0.arr_unscoped c _, arrBufs_list, rest_exit]
    rw [show W4 m c (Proc.devRef .tc main_v6) = V m c main_v6 from Function.update_of_ne (StableHlo.devRef_ne_of_ne (by decide)) _ _,
      show W4 m c (Proc.devRef .tc main_v12) = V m c main_v12 from Function.update_of_ne (StableHlo.devRef_ne_of_ne (by decide)) _ _,
      show W4 m c (Proc.devRef .tc main_v13) = finalOut m c from Function.update_self ..,
      (dats m 0 c).arrAt_in 0 rfl _, (dats m 0 c).arrAt_in 1 rfl _, (dats m 0 c).arrAt_in 2 rfl _]
    iintro ⟨⟨H6l, H6r, H12, H13⟩, HO, -, HZ⟩
    ihave H6 := (pointsTo_share (PosShare.mem_left_op_right fullShare)).2 $$ [H6l H6r]
    · isplitl [H6l]; · iexact H6l
      iexact H6r
    imodintro
    isplitr [HO]
    · isplitr [HZ]
      · isplitl [H6]; · iexact H6
        isplitl [H12]; · iexact H12
        iexact H13
      iexact HZ
    · unfold Pipeline.Dat.owesAt Pipeline.owesWithin
      icases HO with ⟨%W, -, HO⟩; iexists W; iexact HO

/-- The program as the list of its stretches and its region. -/
abbrev segs : List (Pipeline.Seg (pcfgs (F := F)) adm (dats m) () defs₀ VN Lz lvz) :=
  [.host (segA m), .host (segB m), .host (segC m), .region (reg m), .host (segD m)]

/-- Every unscoped buffer ends at the contents the last stretch leaves. -/
def EndsAt : PUnit × MemSt nD τ sig (Elt F) → Prop := fun r =>
  ∀ c : Dev nD, ∀ b ∈ (Finset.univ.filter fun b : Ref sig .tc => ¬ b.isScoped), r.2.mem ((c : Thread nD τ).loc b) = W5 m c (Proc.devRef .tc b)

set_option backward.isDefEq.respectTransparency.types false in
/-- At the compiled mesh, from any memory with zero counters: every weakly fair execution of the program terminates,
    nothing faulting, and every unscoped buffer ends at the contents computed above. -/
theorem run_main : θ_run defs (onTc (τ := τ) (main (F := F))) (s₀ m ρ) (EndsAt m) :=
  Pipeline.θ_run_regions_kit (pcfgs (F := F)) adm (dats m) () cellOf_inj emb₁ defs₀ VN Lz lvz m ρ main (segs m)
    (fun c Q => by
      have h : main (F := F) c = Pipeline.Seg.run (segs m) := by rw [main_chain c, Pipeline.Seg.run_eq_chain]; rfl
      rw [h])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W5 m c))
    (hch := ⟨fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ (Finset.univ.filter fun b : Ref sig .tc => ¬ b.isScoped), s.mem ((c : Thread nD τ).loc b) = W5 m c (Proc.devRef .tc b))
    (hfin := fun c s' => by
      rw [show StableHlo.held (c : Thread nD τ) (Pipeline.ucRefs τ sig) (W5 m c) = unscopedBufs c (fun b => W5 m c (Proc.devRef .tc b)) from (Pipeline.unscopedBufs_held c _).symm]
      unfold unscopedBufs
      iintro ⟨HU, HSI⟩
      imodintro
      iapply (pointsTo_read_all (Finset.univ.filter fun b : Ref sig .tc => ¬ b.isScoped) (fun b => (c : Thread nD τ).loc b) (fun b => W5 m c (Proc.devRef .tc b)) s')
      isplitl [HU] <;> iassumption)
    (hQ := fun _ h => h)

end Cert.Kernel.Frame

end
-- ==== Proof.HostKeptBits.lean ====
/-
  The word-level program's host operations leave its two arguments as they were: none of the
  operations before the kernel region, and none after it, has an argument as its result. Stated for
  every float instance, since only the operations' result references matter.
-/
import proofs.«110881_j37039797960862_2_alg».proof.Kernel
import proofs.«110881_j37039797960862_2_alg».proof.Proof.Gen.Kernel.Launch
import Idealize.ShloMosaic.Lib.StableHlo.Run

noncomputable section

namespace Cert.Kernel.Kept

open Idealize.ShloMosaic Idealize.SL.Sem
open Cert.Kernel

variable {F : FTy → Type} [FloatOps F]

/-- No operation before the region writes the first argument. -/
theorem before_arg0 (W : Valuation τ sig (Elt F)) :
    StableHlo.after (List.flatten [Gen.hostOps0, Gen.hostOps0_1, Gen.hostOps0_2]) W (Proc.devRef .tc main_arg0)
      = W (Proc.devRef .tc main_arg0) := by
  simp only [Gen.hostOps0, Gen.hostOps0_1, Gen.hostOps0_2, List.flatten_cons, List.flatten_nil, List.append_nil,
    List.cons_append, List.nil_append]
  open StableHlo in after_results

/-- No operation before the region writes the second argument. -/
theorem before_arg1 (W : Valuation τ sig (Elt F)) :
    StableHlo.after (List.flatten [Gen.hostOps0, Gen.hostOps0_1, Gen.hostOps0_2]) W (Proc.devRef .tc main_arg1)
      = W (Proc.devRef .tc main_arg1) := by
  simp only [Gen.hostOps0, Gen.hostOps0_1, Gen.hostOps0_2, List.flatten_cons, List.flatten_nil, List.append_nil,
    List.cons_append, List.nil_append]
  open StableHlo in after_results

/-- No operation after the region writes the first argument. -/
theorem after_arg0 (W : Valuation τ sig (Elt F)) :
    StableHlo.after Gen.hostOps1 W (Proc.devRef .tc main_arg0) = W (Proc.devRef .tc main_arg0) := by
  simp only [Gen.hostOps1]
  open StableHlo in after_results

/-- No operation after the region writes the second argument. -/
theorem after_arg1 (W : Valuation τ sig (Elt F)) :
    StableHlo.after Gen.hostOps1 W (Proc.devRef .tc main_arg1) = W (Proc.devRef .tc main_arg1) := by
  simp only [Gen.hostOps1]
  open StableHlo in after_results

end Cert.Kernel.Kept

end
-- ==== Proof.KbKept.lean ====
/-
  The word-level program leaves its two arguments as it found them: no host operation before or after
  the kernel region writes them, and the region's windows do not stage them.
-/
import proofs.«110881_j37039797960862_2_alg».proof.Proof.KbLaunch
import proofs.«110881_j37039797960862_2_alg».proof.Proof.HostKeptBits

noncomputable section

namespace Cert.Kernel.Frame

open Cert.Kernel Cert.Kernel.Gen
open Idealize.ShloMosaic Idealize.ShloMosaic.TcCoe Idealize.SL.Sem

variable {F : FTy → Type} [FloatOps F]
variable (m : (ℓ : Loc nD τ sig) → Buf (Elt F) ℓ)

theorem W5_arg0 (c : Dev nD) : W5 m c (Proc.devRef .tc main_arg0) = m ((c : Thread nD τ).loc main_arg0) := by
  show StableHlo.after hostOps1 (W4 m c) (Proc.devRef .tc main_arg0) = _
  rw [Cert.Kernel.Kept.after_arg0 (W4 m c),
    show W4 m c (Proc.devRef .tc main_arg0) = V0 m c (Proc.devRef .tc main_arg0) from Function.update_of_ne (StableHlo.devRef_ne_of_ne (by decide)) _ _]
  exact Cert.Kernel.Kept.before_arg0 (fun b => m (c, b))

theorem W5_arg1 (c : Dev nD) : W5 m c (Proc.devRef .tc main_arg1) = m ((c : Thread nD τ).loc main_arg1) := by
  show StableHlo.after hostOps1 (W4 m c) (Proc.devRef .tc main_arg1) = _
  rw [Cert.Kernel.Kept.after_arg1 (W4 m c),
    show W4 m c (Proc.devRef .tc main_arg1) = V0 m c (Proc.devRef .tc main_arg1) from Function.update_of_ne (StableHlo.devRef_ne_of_ne (by decide)) _ _]
  exact Cert.Kernel.Kept.before_arg1 (fun b => m (c, b))

/-- The word-level program runs to the end, faulting nowhere, and its arguments end unchanged. -/
theorem frame (ρ : Dev nD → PrngReg) : θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c =>
      ⟨(h c main_arg0 (Finset.mem_filter.mpr ⟨Finset.mem_univ _, by decide⟩)).trans (W5_arg0 m c),
        (h c main_arg1 (Finset.mem_filter.mpr ⟨Finset.mem_univ _, by decide⟩)).trans (W5_arg1 m c)⟩)
    (run_main m ρ)

end Cert.Kernel.Frame

end
-- ==== Proof.KiCases.lean ====
/-
  The kernel body at a grid point (i, j) of the 8 × 8 grid, case by case.

  The body keeps a running denominator in its scratch column: at j = 0 it first stores the positive's
  term there; at every j it adds the block's row sums to it; at j = 7 it stores the row losses into the
  output block.  So there are three cases of the two conditions (j = 0, j = 7), and in each the body
  runs on whole staging buffers to a state that holds the inputs as they were, the scratch with the
  case's stores written, and the output block either untouched (j < 7) or with the loss store written.
-/
import proofs.«110881_j37039797960862_2_alg».proof.Proof.Gen.KernelIdeal.Launch
import proofs.«110881_j37039797960862_2_alg».proof.Proof.Gen.KernelIdeal.Skeleton
import proofs.«110881_j37039797960862_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic
import Idealize.ShloMosaic.PureOps.Ideal

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two conditions over the grid -/

/-- "This is the first column block" (j = 0), as the body computes it from the grid coordinates. -/
abbrev condFirst (i : grid0.Coords) : Prop :=
  (Scalar.cmpi .ne (Scalar.extui (Scalar.cmpi .eq (BitVec.ofNat 32 (i 1).val) 0#32)) 0#32) = 1#1
/-- It holds exactly at the points t with t mod 8 = 0. -/
theorem condFirst_iff : ∀ t : Fin cfg0.N, condFirst (grid0.coords t) ↔ t.val % 8 = 0 :=
  (by decide +kernel : ∀ t : Fin grid0.N, condFirst (grid0.coords t) ↔ t.val % 8 = 0)

/-- "This is the last column block" (j = 7). -/
abbrev condLast (i : grid0.Coords) : Prop := k0_cond2 i = 1#1
/-- It holds exactly at the points t with t mod 8 = 7. -/
theorem condLast_iff : ∀ t : Fin cfg0.N, condLast (grid0.coords t) ↔ t.val % 8 = 7 :=
  (by decide +kernel : ∀ t : Fin grid0.N, condLast (grid0.coords t) ↔ t.val % 8 = 7)

/-! ## Where a window's buffer is left alone -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Before the last column block nothing is stored into the output block, -/
theorem idle3 : ∀ t : Fin cfg0.N, ¬condLast (grid0.coords t) → cfg0.idle 3 (grid0.coords t) = true := by decide +kernel
/-- and it is not written back there; -/
theorem noFlush3 : ∀ t : Fin cfg0.N, ¬condLast (grid0.coords t) → (cfg0.win 3).flush t = false := by decide +kernel
/-- at the last column block it is stored. -/
theorem live3 : ∀ t : Fin cfg0.N, condLast (grid0.coords t) → cfg0.idle 3 (grid0.coords t) = false := by decide +kernel

/-! ## The buffers the body is called with -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
/-- The scratch column that carries the running denominator. -/
abbrev scM : Memref sig .tc .vmem S1024x1 .f32 := Memref.whole cc0_scratch0
abbrev VS : View sig .tc .vmem S1024x1 .f32 := scM.view
/-- A view of the output block's shape, through which its contents are stated. -/
abbrev VO : View sig .tc .vmem S1024x1 .f32 := (Memref.whole cc0_stg3_0 : Memref sig .tc .vmem S1024x1 .f32).view

/-- The scoped buffers no window stages are the scratch column, at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

/-! ## The three cases -/

set_option maxHeartbeats 1600000 in
/-- j = 0: the scratch is found at anything; the body stores the positive's term, then the sum with the
    block's row sums; the output block is handed back as found. -/
noncomputable def runFirst (c : Dev nD) (i : grid0.Coords) (arg2 : Memref sig .tc .vmem S1024x128 .bf16) (harg2 : arg2.IsWhole)
    (arg3 : Memref sig .tc .vmem S1024x128 .bf16) (harg3 : arg3.IsWhole) (arg4 : Memref sig .tc .vmem S1024x1 .f32) (harg4 : arg4.IsWhole)
    (arg5 : Memref sig .tc .vmem S1024x1 .f32) (harg5 : arg5.IsWhole) (arg6 : Memref sig .tc .vmem S1024x1 .f32) (harg6 : arg6.IsWhole)
    (hc0 : condFirst i) (hc1 : ¬condLast i)
    (x0 x1 : Vec F S1024x128 .bf16) (x2 : Vec F S1024x1 .f32) :
    Σ' (L3 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc0__ntxent_kernel i arg2 harg2 arg3 harg3 arg4 harg4 arg5 harg5 arg6 harg6) K } := by
  refine ⟨[], ?_, fun xi E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1600000 in
/-- 0 < j < 7: the scratch is found at what the point before left; the body adds the block's row sums. -/
noncomputable def runMiddle (c : Dev nD) (i : grid0.Coords) (arg2 : Memref sig .tc .vmem S1024x128 .bf16) (harg2 : arg2.IsWhole)
    (arg3 : Memref sig .tc .vmem S1024x128 .bf16) (harg3 : arg3.IsWhole) (arg4 : Memref sig .tc .vmem S1024x1 .f32) (harg4 : arg4.IsWhole)
    (arg5 : Memref sig .tc .vmem S1024x1 .f32) (harg5 : arg5.IsWhole) (arg6 : Memref sig .tc .vmem S1024x1 .f32) (harg6 : arg6.IsWhole)
    (hc0 : ¬condFirst i) (hc1 : ¬condLast i)
    (x0 x1 : Vec F S1024x128 .bf16) (x2 : Vec F S1024x1 .f32) (xs : Vec F S1024x1 .f32) :
    Σ' (L3 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc0__ntxent_kernel i arg2 harg2 arg3 harg3 arg4 harg4 arg5 harg5 arg6 harg6) K } := by
  refine ⟨[], ?_, fun xi E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1600000 in
/-- j = 7: as in the middle, and then the row losses are stored into the output block, found at anything. -/
noncomputable def runLast (c : Dev nD) (i : grid0.Coords) (arg2 : Memref sig .tc .vmem S1024x128 .bf16) (harg2 : arg2.IsWhole)
    (arg3 : Memref sig .tc .vmem S1024x128 .bf16) (harg3 : arg3.IsWhole) (arg4 : Memref sig .tc .vmem S1024x1 .f32) (harg4 : arg4.IsWhole)
    (arg5 : Memref sig .tc .vmem S1024x1 .f32) (harg5 : arg5.IsWhole) (arg6 : Memref sig .tc .vmem S1024x1 .f32) (harg6 : arg6.IsWhole)
    (hc0 : ¬condFirst i) (hc1 : condLast i)
    (x0 x1 : Vec F S1024x128 .bf16) (x2 : Vec F S1024x1 .f32) (xs : Vec F S1024x1 .f32) :
    Σ' (L3 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__ntxent_kernel i arg2 harg2 arg3 harg3 arg4 harg4 arg5 harg5 arg6 harg6) K } := by
  refine ⟨?_, ?_, fun E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Frame

end
-- ==== Proof.KiData.lean ====
/-
  What the scratch column and the output block hold after each grid point, the proof data of the
  pipeline built from it, and the body's obligation at every point.

  The points run row block by row block (t = 8·i + j).  After point t the scratch holds the running
  denominator of row block i over column blocks 0 … j; the output block holds the row losses after the
  points with j = 7, where it is written back, and is left alone elsewhere.
-/
import proofs.«110881_j37039797960862_2_alg».proof.Proof.KiCases

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The arrays as the region finds them -/

/-- Core c's buffers when the region is entered: after the host operations before it. -/
abbrev V0 (c : Dev nD) : Valuation τ sig (Elt F) :=
  StableHlo.after (List.flatten [hostOps0, hostOps0_1, hostOps0_2]) (fun b => m (c, b))
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's current staging buffer holds its block at every point, fetched there or not. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The output block where nothing is stored into it: a placeholder nothing consults. -/
def outIdle : Vec F S1024x1 .f32 := VO.read (Elt F) VO.junk

theorem coverFirstS (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : condFirst i) (hc1 : ¬condLast i)
    (x0 x1 : Vec F S1024x128 .bf16) (x2 : Vec F S1024x1 .f32) (y : S1024x1.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S1024x1.size (by sl_kernel_rfl) y
/-- The scratch after a point with j = 0. -/
def scFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : condFirst i) (hc1 : ¬condLast i)
    (x0 x1 : Vec F S1024x128 .bf16) (x2 : Vec F S1024x1 .f32) : Vec F S1024x1 .f32 :=
  VS.read (Elt F) (VS.writes (Elt F) VS.junk (runFirst c i arg2 harg2 arg3 harg3 arg4 harg4 arg5 harg5 arg6 harg6 hc0 hc1 x0 x1 x2).2.1)

theorem coverMiddleS (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : ¬condLast i)
    (x0 x1 : Vec F S1024x128 .bf16) (x2 : Vec F S1024x1 .f32) (xs : Vec F S1024x1 .f32) (y : S1024x1.Idx) :
    ∃ pc ∈ (runMiddle c i arg2 harg2 arg3 harg3 arg4 harg4 arg5 harg5 arg6 harg6 hc0 hc1 x0 x1 x2 xs).2.1, y ∈ pc.1.set :=
  View.cover_of_tiledL (runMiddle c i arg2 harg2 arg3 harg3 arg4 harg4 arg5 harg5 arg6 harg6 hc0 hc1 x0 x1 x2 xs).2.1 S1024x1.size (by sl_kernel_rfl) y
/-- The scratch after a point with 0 < j < 7. -/
def scMiddle (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : ¬condLast i)
    (x0 x1 : Vec F S1024x128 .bf16) (x2 : Vec F S1024x1 .f32) (xs : Vec F S1024x1 .f32) : Vec F S1024x1 .f32 :=
  VS.read (Elt F) (VS.writes (Elt F) VS.junk (runMiddle c i arg2 harg2 arg3 harg3 arg4 harg4 arg5 harg5 arg6 harg6 hc0 hc1 x0 x1 x2 xs).2.1)

theorem coverLastS (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : condLast i)
    (x0 x1 : Vec F S1024x128 .bf16) (x2 : Vec F S1024x1 .f32) (xs : Vec F S1024x1 .f32) (y : S1024x1.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x1.size (by sl_kernel_rfl) y
/-- The scratch after a point with j = 7. -/
def scLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : condLast i)
    (x0 x1 : Vec F S1024x128 .bf16) (x2 : Vec F S1024x1 .f32) (xs : Vec F S1024x1 .f32) : Vec F S1024x1 .f32 :=
  VS.read (Elt F) (VS.writes (Elt F) VS.junk (runLast c i arg2 harg2 arg3 harg3 arg4 harg4 arg5 harg5 arg6 harg6 hc0 hc1 x0 x1 x2 xs).2.1)
theorem coverLastO (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : condLast i)
    (x0 x1 : Vec F S1024x128 .bf16) (x2 : Vec F S1024x1 .f32) (xs : Vec F S1024x1 .f32) (y : S1024x1.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1024x1.size (by sl_kernel_rfl) y
/-- The output block after a point with j = 7. -/
def outLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : condLast i)
    (x0 x1 : Vec F S1024x128 .bf16) (x2 : Vec F S1024x1 .f32) (xs : Vec F S1024x1 .f32) : Vec F S1024x1 .f32 :=
  VO.read (Elt F) (VO.writes (Elt F) VO.junk (runLast c i arg2 harg2 arg3 harg3 arg4 harg4 arg5 harg5 arg6 harg6 hc0 hc1 x0 x1 x2 xs).1)

/-! ## Point by point -/

/-- What the output block and the scratch hold after the body at position n: the case the position is in,
    run at the point's buffers and input blocks, over the scratch the point before left. -/
def outsAt (c : Dev nD) : (n : ℕ) → n < cfg0.N → Vec F S1024x1 .f32 × Vec F S1024x1 .f32
  | 0, hn => (outIdle, scFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((condFirst_iff ⟨0, hn⟩).mpr (Nat.zero_mod _))
      (fun h => (fun h => by (try dsimp only at h); omega) ((condLast_iff ⟨0, hn⟩).mp h)) (iblk m c 0 ⟨0, hn⟩) (iblk m c 1 ⟨0, hn⟩) (iblk m c 2 ⟨0, hn⟩))
  | n + 1, hn =>
    if h0 : (n + 1) % 8 = 0 then
      (outIdle, scFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((condFirst_iff ⟨n + 1, hn⟩).mpr h0)
        (fun h => (fun h => by (try dsimp only at h); omega) ((condLast_iff ⟨n + 1, hn⟩).mp h)) (iblk m c 0 ⟨n + 1, hn⟩) (iblk m c 1 ⟨n + 1, hn⟩) (iblk m c 2 ⟨n + 1, hn⟩))
    else
      if h1 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) ((condLast_iff ⟨n + 1, hn⟩).mpr h1)
            (iblk m c 0 ⟨n + 1, hn⟩) (iblk m c 1 ⟨n + 1, hn⟩) (iblk m c 2 ⟨n + 1, hn⟩) (outsAt c n (Nat.lt_of_succ_lt hn)).2,
          scLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) ((condLast_iff ⟨n + 1, hn⟩).mpr h1)
            (iblk m c 0 ⟨n + 1, hn⟩) (iblk m c 1 ⟨n + 1, hn⟩) (iblk m c 2 ⟨n + 1, hn⟩) (outsAt c n (Nat.lt_of_succ_lt hn)).2)
      else
        (outIdle, scMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) (fun h => h1 ((condLast_iff ⟨n + 1, hn⟩).mp h))
            (iblk m c 0 ⟨n + 1, hn⟩) (iblk m c 1 ⟨n + 1, hn⟩) (iblk m c 2 ⟨n + 1, hn⟩) (outsAt c n (Nat.lt_of_succ_lt hn)).2)

theorem outsAt_first (c : Dev nD) (t : Fin cfg0.N) (h0 : t.val % 8 = 0) (h1 : ¬t.val % 8 = 7) :
    outsAt m c t.val t.isLt = (outIdle, scFirst c (grid0.coords t) (ms0 t) (hs0 t) (ms1 t) (hs1 t) (ms2 t) (hs2 t) (ms3 t) (hs3 t) scM (Memref.isWhole_whole _) ((condFirst_iff t).mpr h0) (fun h => h1 ((condLast_iff t).mp h)) (iblk m c 0 t) (iblk m c 1 t) (iblk m c 2 t)) := by
  obtain ⟨n, hn⟩ := t
  cases n with
  | zero => exact rfl
  | succ n => exact (dif_pos h0).trans rfl

theorem outsAt_middle (c : Dev nD) (t : Fin cfg0.N) (h0 : ¬t.val % 8 = 0) (h1 : ¬t.val % 8 = 7) :
    outsAt m c t.val t.isLt = (outIdle, scMiddle c (grid0.coords t) (ms0 t) (hs0 t) (ms1 t) (hs1 t) (ms2 t) (hs2 t) (ms3 t) (hs3 t) scM (Memref.isWhole_whole _) (fun h => h0 ((condFirst_iff t).mp h)) (fun h => h1 ((condLast_iff t).mp h)) (iblk m c 0 t) (iblk m c 1 t) (iblk m c 2 t)
      (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt m c t.val t.isLt = (outLast c (grid0.coords t) (ms0 t) (hs0 t) (ms1 t) (hs1 t) (ms2 t) (hs2 t) (ms3 t) (hs3 t) scM (Memref.isWhole_whole _) (fun h => h0 ((condFirst_iff t).mp h)) ((condLast_iff t).mpr h1) (iblk m c 0 t) (iblk m c 1 t) (iblk m c 2 t)
        (outsAt m c (t.val - 1) (Nat.lt_of_le_of_lt (Nat.sub_le _ _) t.isLt)).2,
      scLast c (grid0.coords t) (ms0 t) (hs0 t) (ms1 t) (hs1 t) (ms2 t) (hs2 t) (ms3 t) (hs3 t) scM (Memref.isWhole_whole _) (fun h => h0 ((condFirst_iff t).mp h)) ((condLast_iff t).mpr h1) (iblk m c 0 t) (iblk m c 1 t) (iblk m c 2 t)
        (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position n: the scratch at anything before the first point, afterwards at what the point
    before left in it. -/
def PhiS (c : Dev nD) : (n : ℕ) → n ≤ cfg0.N → sProp 𝕄
  | 0, _ => Pipeline.scopedRest spec0 c
  | n + 1, hn => owns (c : Thread nD τ) scM fullShare ((outsAt m c n hn).2)

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-- At any position the invariant holds the scratch at some contents. -/
theorem PhiS_any (c : Dev nD) (n : ℕ) (h : n ≤ cfg0.N) : PhiS m c n h ⊢ iprop(∃ d, owns (c : Thread nD τ) scM fullShare d) := by
  cases n with
  | zero => rw [show PhiS m c 0 h = Pipeline.scopedRest spec0 c from rfl, scopedRest_scratch]
  | succ n => rw [PhiS_succ]; iintro H; iexists _; iexact H

/-! ## The proof data -/

/-- The pipeline's proof data on core c.  The two windows on the scaled-rows array read it at half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]

set_option maxHeartbeats 4800000 in
/-- The body at any point: the inputs' buffers hold their blocks; the point's position mod 8 says which case it is in;
    the invariant hands the body the scratch (at anything at j = 0, else at what the point before left) and takes it
    back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, PhiS_castSucc m c t]
  have hN : t.val < 64 := lt_of_lt_of_eq t.isLt (show cfg0.N = 64 from N_0)
  by_cases h0 : t.val % 8 = 0
  · have h1 : ¬t.val % 8 = 7 := by omega
    rw [Dat.leavesExact_idle (dats m 0 c) 3 t (idle3 t (fun h => h1 ((condLast_iff t).mp h))) (noFlush3 t (fun h => h1 ((condLast_iff t).mp h)))]
    rw [outsAt_first m c t h0 h1]
    unfold scFirst; (try dsimp only)
    iintro ⟨HS, Ho, ⟨%d0, H0⟩, ⟨%d1, H1⟩, ⟨%d2, H2⟩, ⟨%d3, H3⟩⟩
    ihave HS := (PhiS_any m c _ _) $$ HS
    iapply ((runFirst c (grid0.coords t) _ _ _ _ _ _ _ _ _ _ ((condFirst_iff t).mpr h0) (fun h => h1 ((condLast_iff t).mp h)) (iblk m c 0 t) (iblk m c 1 t) (iblk m c 2 t)).2.2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS]
    · unfold owns; iexists _; isplitr
      swap; · iexact HS
      ipureintro; exact View.read_writes_of_cover _ _ _ _ _ (coverFirstS c _ _ _ _ _ _ _ _ _ _ _ _ _ _ _ _)
    isplitl [Ho]; · iexact Ho
    isplitl [H0]; · iexact H0
    isplitl [H1]; · iexact H1
    isplitl [H2]; · iexact H2
    iexists _; iexact H3
  · have hz : t.val ≠ 0 := fun h => h0 (by rw [h])
    rw [PhiS_pos m c _ _ hz]
    by_cases h1 : t.val % 8 = 7
    · rw [show (dats m 0 c).leavesExact 3 t = owns (c : Thread nD τ) (ms3 t) fullShare ((dats m 0 c).after 3 t) from by
        unfold Dat.leavesExact; rw [live3 t ((condLast_iff t).mpr h1)], after3]
      rw [outsAt_last m c t h0 h1]
      unfold outLast scLast; (try dsimp only)
      iintro ⟨HS, Ho, ⟨%d0, H0⟩, ⟨%d1, H1⟩, ⟨%d2, H2⟩, ⟨%d3, H3⟩⟩
      iapply ((runLast c (grid0.coords t) _ _ _ _ _ _ _ _ _ _ (fun h => h0 ((condFirst_iff t).mp h)) ((condLast_iff t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS]
      · unfold owns; iexists _; isplitr
        swap; · iexact HS
        ipureintro; exact View.read_writes_of_cover _ _ _ _ _ (coverLastS c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastO c _ _ _ _ _ _ _ _ _ _ _ _ _ _ _ _ _)
    · rw [Dat.leavesExact_idle (dats m 0 c) 3 t (idle3 t (fun h => h1 ((condLast_iff t).mp h))) (noFlush3 t (fun h => h1 ((condLast_iff t).mp h)))]
      rw [outsAt_middle m c t h0 h1]
      unfold scMiddle; (try dsimp only)
      iintro ⟨HS, Ho, ⟨%d0, H0⟩, ⟨%d1, H1⟩, ⟨%d2, H2⟩, ⟨%d3, H3⟩⟩
      iapply ((runMiddle c (grid0.coords t) _ _ _ _ _ _ _ _ _ _ (fun h => h0 ((condFirst_iff t).mp h)) (fun h => h1 ((condLast_iff t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact View.read_writes_of_cover _ _ _ _ _ (coverMiddleS c _ _ _ _ _ _ _ _ _ _ _ _ _ _ _ _ _)
      isplitl [Ho]; · iexact Ho
      isplitl [H0]; · iexact H0
      isplitl [H1]; · iexact H1
      isplitl [H2]; · iexact H2
      iexists _; iexact H3

/-- The pipeline library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.KiPieces.lean ====
/-
  What the kernel leaves, read as values.

  Each case's stores, read back, are the body's payloads of the blocks it loaded; so after the point
  (i, j) the scratch column holds, at row r of the block, the running denominator of row 1024·i + r over
  the column blocks 0 … j, and after a point with j = 7 the output block holds the row losses of row
  block i.  The write-backs at those points tile the output array, which therefore ends as the column
  of all 8192 row losses.
-/
import proofs.«110881_j37039797960862_2_alg».proof.Proof.KiData
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz : (![0, 0] : Fin 2 → Nat) = fun _ => 0 := funext fun a => by fin_cases a <;> rfl

/-! ## Each case's stores are the payloads -/

theorem scMiddle_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : ¬condLast i)
    (x0 x1 : Vec F S1024x128 .bf16) (x2 : Vec F S1024x1 .f32) (xs : Vec F S1024x1 .f32) :
    scMiddle c i arg2 harg2 arg3 harg3 arg4 harg4 arg5 harg5 arg6 harg6 hc0 hc1 x0 x1 x2 xs = k0_pay2 x0 x1 xs := by
  unfold scMiddle
  rw [View.read_writes_eq_canon _ _ _ (coverMiddleS c i arg2 harg2 arg3 harg3 arg4 harg4 arg5 harg5 arg6 harg6 hc0 hc1 x0 x1 x2 xs)]
  unfold runMiddle
  dsimp only
  rw [View.canon_unit_zero hz]
  simp only [View.readAt_eq_ld, harg2.read_unread, harg3.read_unread, harg6.read_unread, View.ld_unit_zero (S := S1024x128) hz,
    View.ld_unit_zero (S := S1024x1) hz]

theorem scFirst_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : condFirst i) (hc1 : ¬condLast i)
    (x0 x1 : Vec F S1024x128 .bf16) (x2 : Vec F S1024x1 .f32) :
    scFirst c i arg2 harg2 arg3 harg3 arg4 harg4 arg5 harg5 arg6 harg6 hc0 hc1 x0 x1 x2 = k0_pay2 x0 x1 (k0_pay1 x2) := by
  unfold scFirst
  rw [View.read_writes_eq_canon _ _ _ (coverFirstS c i arg2 harg2 arg3 harg3 arg4 harg4 arg5 harg5 arg6 harg6 hc0 hc1 x0 x1 x2)]
  unfold runFirst
  dsimp only
  sl_unfold_words
  rw [View.canon_cons_unit_zero (S := S1024x1) hz, View.readCov_unit_zero (S := S1024x1) _ hz]
  simp only [View.readAt_eq_ld, harg2.read_unread, harg3.read_unread, harg4.read_unread, View.ld_unit_zero (S := S1024x128) hz,
    View.ld_unit_zero (S := S1024x1) hz]

theorem scLast_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : condLast i)
    (x0 x1 : Vec F S1024x128 .bf16) (x2 : Vec F S1024x1 .f32) (xs : Vec F S1024x1 .f32) :
    scLast c i arg2 harg2 arg3 harg3 arg4 harg4 arg5 harg5 arg6 harg6 hc0 hc1 x0 x1 x2 xs = k0_pay2 x0 x1 xs := by
  unfold scLast
  rw [View.read_writes_eq_canon _ _ _ (coverLastS c i arg2 harg2 arg3 harg3 arg4 harg4 arg5 harg5 arg6 harg6 hc0 hc1 x0 x1 x2 xs)]
  unfold runLast
  dsimp only
  sl_unfold_words
  rw [View.canon_unit_zero hz]
  simp only [View.readAt_eq_ld, harg2.read_unread, harg3.read_unread, harg6.read_unread, View.ld_unit_zero (S := S1024x128) hz,
    View.ld_unit_zero (S := S1024x1) hz]

theorem outLast_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬condFirst i) (hc1 : condLast i)
    (x0 x1 : Vec F S1024x128 .bf16) (x2 : Vec F S1024x1 .f32) (xs : Vec F S1024x1 .f32) :
    outLast c i arg2 harg2 arg3 harg3 arg4 harg4 arg5 harg5 arg6 harg6 hc0 hc1 x0 x1 x2 xs = k0_pay3 (k0_pay2 x0 x1 xs) x2 := by
  unfold outLast
  rw [View.read_writes_eq_canon _ _ _ (coverLastO c i arg2 harg2 arg3 harg3 arg4 harg4 arg5 harg5 arg6 harg6 hc0 hc1 x0 x1 x2 xs)]
  unfold runLast
  dsimp only
  sl_unfold_words
  rw [View.canon_unit_zero hz]
  simp only [View.readAt_eq_ld, harg2.read_unread, harg3.read_unread, harg4.read_unread, harg6.read_unread, View.ld_unit_zero (S := S1024x128) hz,
    View.ld_unit_zero (S := S1024x1) hz, View.readCov_unit_zero (S := S1024x1) _ hz]

end Cert.KernelIdeal.Frame

end
-- ==== Proof.KiLaunch.lean ====
/-
  The whole program around the kernel region, as host stretches and the region in order.

  Three stretches of host operations build the scaled rows and the positives; the region runs over
  them — its two windows on the scaled-rows array each read it at half the share, so the array is
  split in two at the region's entry and joined again at its exit —; one more stretch sums the row
  losses the region wrote and divides by their number.  The run's post names every unscoped buffer's
  final contents.
-/
import proofs.«110881_j37039797960862_2_alg».proof.Proof.KiData
import Idealize.ShloMosaic.Lib.Pipeline.Frame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev Lz : GSem nD τ sig → Finset Unit := fun _ => ∅
abbrev lvz : GSem nD τ sig → Unit → ℕ := fun _ _ => 0
abbrev adm : (p : Fin 1) → (pcfgs (F := F) p).Adm := fun p => (cfgs p).toPCfg_adm
abbrev VN : Variants := Variants.none
/-- What rides beside the buffers: the core owes nothing. -/
abbrev R (c : Dev nD) : sProp 𝕄 := iprop(∃ W, owes (c : Thread nD τ) (0 : CellTallies nD τ sig Unit) W)

/-! ## The buffers' contents, stretch by stretch -/

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)

theorem W3_eq (c : Dev nD) : W3 m c = V0 m c := by
  simp only [W3, W2, W1, W0, V0, List.flatten_cons, List.flatten_nil, List.append_nil, StableHlo.after_append]

/-- The output array after the region: what the pipeline's write-backs leave. -/
abbrev finalOut (c : Dev nD) := (dats m 0 c).arrAt 3 cfg0.N
/-- The buffers at the region's exit: the output array rewritten, every other as at the entry. -/
abbrev W4 (c : Dev nD) : Valuation τ sig (Elt F) := Function.update (V0 m c) (Proc.devRef .tc main_v13) (finalOut m c)
/-- The buffers at the end. -/
abbrev W5 (c : Dev nD) : Valuation τ sig (Elt F) := StableHlo.after hostOps1 (W4 m c)

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh0_2 : ∀ op ∈ (hostOps0_2 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

abbrev HS := Pipeline.HostSeg (Name := ℕ) (U := UR sig nD τ) (pcfgs (F := F)) defs₀ VN Lz lvz

def segA : HS (F := F) :=
  Pipeline.HostSeg.ofOps _ _ _ _ _ (Pipeline.ucRefs τ sig) hostOps0
    (fun op h => Pipeline.sub_ucRefs op ((List.forall_iff_forall_mem.mp hostOps0_sub) op h)) fresh0 (W0 m) R
def segB : HS (F := F) :=
  Pipeline.HostSeg.ofOps _ _ _ _ _ (Pipeline.ucRefs τ sig) hostOps0_1
    (fun op h => Pipeline.sub_ucRefs op ((List.forall_iff_forall_mem.mp hostOps0_1_sub) op h)) fresh0_1 (W1 m) R
def segC : HS (F := F) :=
  Pipeline.HostSeg.ofOps _ _ _ _ _ (Pipeline.ucRefs τ sig) hostOps0_2
    (fun op h => Pipeline.sub_ucRefs op ((List.forall_iff_forall_mem.mp hostOps0_2_sub) op h)) fresh0_2 (W2 m) R
def segD : HS (F := F) :=
  Pipeline.HostSeg.ofOps _ _ _ _ _ (Pipeline.ucRefs τ sig) hostOps1
    (fun op h => Pipeline.sub_ucRefs op ((List.forall_iff_forall_mem.mp hostOps1_sub) op h)) fresh1 (W4 m) R

/-! ## The arrays behind the windows, listed -/

/-- The three buffers behind the four windows. -/
theorem arrBufs_list (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v6) ↦{fullShare} V' main_v6) ∗ (((c : Thread nD τ).loc main_v12) ↦{fullShare} V' main_v12)
          ∗ (((c : Thread nD τ).loc main_v13) ↦{fullShare} V' main_v13)) := by
  unfold Pipeline.arrBufs
  exact Idealize.SL.BI.bigSep_eq_bigSepL_of_eq [main_v6, main_v12, main_v13] (by decide) (by decide) _

/-- The pipeline's arrays, window by window, at the shares the proof data names. -/
theorem arrays_list (c : Dev nD) (Fa : (w : Fin cfg0.W) → Buf (Elt F) ((cfg0.win w).arr.view.loc (c : Thread nD τ))) :
    ((dats m 0 c).arrays Fa : sProp 𝕄)
      = iprop((((c : Thread nD τ).loc main_v6) ↦{fullShare.left} Fa 0) ∗ (((c : Thread nD τ).loc main_v6) ↦{fullShare.right} Fa 1)
          ∗ (((c : Thread nD τ).loc main_v12) ↦{fullShare} Fa 2) ∗ (((c : Thread nD τ).loc main_v13) ↦{fullShare} Fa 3)) := by
  unfold Dat.arrays
  rw [bigSep_W0, (arr_whole0 0).set_eq_univ, (arr_whole0 2).set_eq_univ, (arr_whole0 3).set_eq_univ]
  rfl

/-- Outside the windows' arrays the exit contents are the entry contents. -/
theorem rest_exit (c : Dev nD) :
    (Pipeline.unscopedRest (Ix := Unit) (Name := ℕ) (U := UR sig nD τ) (Lvl := ℕ) spec0 c (fun b => W4 m c (Proc.devRef .tc b)) : sProp 𝕄)
      = Pipeline.unscopedRest spec0 c (V m c) := by
  unfold Pipeline.unscopedRest
  refine Idealize.SL.BI.bigSep_congr fun b hb => ?_
  have hne : b ≠ main_v13 := fun h => (Finset.mem_sdiff.mp hb).2 (Finset.mem_image.mpr ⟨3, Finset.mem_univ _, h.symm ▸ rfl⟩)
  have e : W4 m c (Proc.devRef .tc b) = V0 m c (Proc.devRef .tc b) := Function.update_of_ne (StableHlo.devRef_ne_of_ne hne) _ _
  show (((c : Thread nD τ).loc b) ↦{fullShare} W4 m c (Proc.devRef .tc b) : sProp 𝕄) = _
  rw [e]

/-! ## The region -/

set_option backward.isDefEq.respectTransparency.types false in
def reg : Pipeline.RegionSeg (pcfgs (F := F)) adm (dats m) () defs₀ VN Lz lvz 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ Lz lvz 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X _ := iprop(emp)
  Y _ := iprop(emp)
  Z c := Pipeline.unscopedRest spec0 c (V m c)
  hentry c := by
    rw [W3_eq, show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c), arrBufs_list, arrays_list]
    iintro ⟨⟨⟨⟨H6, H12, H13⟩, Hrest⟩, HO⟩, -, -⟩
    ihave H6 := (pointsTo_share (PosShare.mem_left_op_right fullShare)).1 $$ H6
    icases H6 with ⟨H6l, H6r⟩
    imodintro
    isplitl [H6l H6r H12 H13]
    · isplitl [H6l]; · iexact H6l
      isplitl [H6r]; · iexact H6r
      isplitl [H12]; · iexact H12
      iexact H13
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest spec0 c from rfl]
    iintro ⟨-, -, Hr⟩; iexact Hr
  hout c := by
    rw [Pipeline.ownSems0_none, scopedRest_scratch]
    refine (show (dats m 0 c).Φ (Fin.last cfg0.N) ⊢ iprop(∃ d, owns (c : Thread nD τ) scM fullShare d) from
      PhiS_any m c (Fin.last cfg0.N).val (Nat.le_of_lt_succ (Fin.last cfg0.N).isLt)).trans ?_
    iintro H
    isplitr; · iempintro
    isplitr; · iempintro
    iexact H
  hexit c := by
    rw [arrays_list, show StableHlo.held (c : Thread nD τ) (Pipeline.ucRefs τ sig) (W4 m c) = unscopedBufs c (fun b => W4 m c (Proc.devRef .tc b)) from (Pipeline.unscopedBufs_held c _).symm,
      Pipeline.unscopedBufs_split₀ cfgs 0 winFacts₀0.arr_unscoped c _, arrBufs_list, rest_exit]
    rw [show W4 m c (Proc.devRef .tc main_v6) = V m c main_v6 from Function.update_of_ne (StableHlo.devRef_ne_of_ne (by decide)) _ _,
      show W4 m c (Proc.devRef .tc main_v12) = V m c main_v12 from Function.update_of_ne (StableHlo.devRef_ne_of_ne (by decide)) _ _,
      show W4 m c (Proc.devRef .tc main_v13) = finalOut m c from Function.update_self ..,
      (dats m 0 c).arrAt_in 0 rfl _, (dats m 0 c).arrAt_in 1 rfl _, (dats m 0 c).arrAt_in 2 rfl _]
    iintro ⟨⟨H6l, H6r, H12, H13⟩, HO, -, HZ⟩
    ihave H6 := (pointsTo_share (PosShare.mem_left_op_right fullShare)).2 $$ [H6l H6r]
    · isplitl [H6l]; · iexact H6l
      iexact H6r
    imodintro
    isplitr [HO]
    · isplitr [HZ]
      · isplitl [H6]; · iexact H6
        isplitl [H12]; · iexact H12
        iexact H13
      iexact HZ
    · unfold Pipeline.Dat.owesAt Pipeline.owesWithin
      icases HO with ⟨%W, -, HO⟩; iexists W; iexact HO

/-- The program as the list of its stretches and its region. -/
abbrev segs : List (Pipeline.Seg (pcfgs (F := F)) adm (dats m) () defs₀ VN Lz lvz) :=
  [.host (segA m), .host (segB m), .host (segC m), .region (reg m), .host (segD m)]

/-- Every unscoped buffer ends at the contents the last stretch leaves. -/
def EndsAt : PUnit × MemSt nD τ sig (Elt F) → Prop := fun r =>
  ∀ c : Dev nD, ∀ b ∈ (Finset.univ.filter fun b : Ref sig .tc => ¬ b.isScoped), r.2.mem ((c : Thread nD τ).loc b) = W5 m c (Proc.devRef .tc b)

set_option backward.isDefEq.respectTransparency.types false in
/-- At the compiled mesh, from any memory with zero counters: every weakly fair execution of the program terminates,
    nothing faulting, and every unscoped buffer ends at the contents computed above. -/
theorem run_main : θ_run defs (onTc (τ := τ) (main (F := F))) (s₀ m ρ) (EndsAt m) :=
  Pipeline.θ_run_regions_kit (pcfgs (F := F)) adm (dats m) () cellOf_inj emb₁ defs₀ VN Lz lvz m ρ main (segs m)
    (fun c Q => by
      have h : main (F := F) c = Pipeline.Seg.run (segs m) := by rw [main_chain c, Pipeline.Seg.run_eq_chain]; rfl
      rw [h])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W5 m c))
    (hch := ⟨fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ (Finset.univ.filter fun b : Ref sig .tc => ¬ b.isScoped), s.mem ((c : Thread nD τ).loc b) = W5 m c (Proc.devRef .tc b))
    (hfin := fun c s' => by
      rw [show StableHlo.held (c : Thread nD τ) (Pipeline.ucRefs τ sig) (W5 m c) = unscopedBufs c (fun b => W5 m c (Proc.devRef .tc b)) from (Pipeline.unscopedBufs_held c _).symm]
      unfold unscopedBufs
      iintro ⟨HU, HSI⟩
      imodintro
      iapply (pointsTo_read_all (Finset.univ.filter fun b : Ref sig .tc => ¬ b.isScoped) (fun b => (c : Thread nD τ).loc b) (fun b => W5 m c (Proc.devRef .tc b)) s')
      isplitl [HU] <;> iassumption)
    (hQ := fun _ h => h)

end Cert.KernelIdeal.Frame

end
-- ==== Proof.Spec.lean ====
/-
  The normalized-temperature cross-entropy loss over 2N = 8192 rows of D = 128 features, written
  as one function of the two argument arrays, index by index, on the extended reals.

  The rows of the two arguments are stacked (rows 0 … 4095 from the first, 4096 … 8191 from the
  second), each row is divided by the larger of its Euclidean norm and a floor word, and the
  similarity of rows r and c is the inner product of the two scaled rows.  Row r's positive is
  the similarity of r with its partner row (r ± 4096).  With β the inverse temperature, row r's
  loss is  β + log (exp (β·pos r − β) + ∑_c exp (β·sim r c − β)) − β·pos r,  the sum over all
  8192 columns taken in 8 consecutive blocks of 1024 columns, and the result is the mean of the
  8192 row losses.
-/
import Idealize.ShloMosaic.PureOps.Ideal
import Idealize.ShloMosaic.Lib.ValueIdx

noncomputable section

open scoped BigOperators

namespace Cert.Contrastive

open Idealize.ShloMosaic Idealize.ShloMosaic.ValueIdx

/-- An argument array: 4096 rows of 128 features. -/
abbrev Arg := (⟨2, ![4096, 128]⟩ : Shape).Idx → EReal

/-- The zero word. -/
def zeroW : EReal := Ideal.ofBits .f32 0x00000000#32
/-- The floor under a row's norm. -/
def floorW : EReal := Ideal.ofBits .f32 0x322BCC77#32
/-- The number of rows, 8192, as a float word. -/
def countW : EReal := Ideal.ofBits .f32 0x46000000#32
/-- The inverse temperature β: the reciprocal of the temperature's float word, 13421773 / 2^27. -/
def beta : EReal := ((134217728 / 13421773 : ℝ) : EReal)

/-- The stacked rows. -/
def reps (x0 x1 : Arg) (r : Fin 8192) (k : Fin 128) : EReal :=
  if h : r.val < 4096 then x0 (ix2 (⟨r.val, h⟩ : Fin 4096) k)
  else x1 (ix2 (⟨r.val - 4096, by omega⟩ : Fin 4096) k)

/-- A row's sum of squares, from the zero word. -/
def sumSq (x0 x1 : Arg) (r : Fin 8192) : EReal := zeroW + ∑ k : Fin 128, reps x0 x1 r k * reps x0 x1 r k

/-- A row's norm, floored. -/
def norm (x0 x1 : Arg) (r : Fin 8192) : EReal := max (Ideal.sqrt (sumSq x0 x1 r)) floorW

/-- The scaled rows. -/
def unit (x0 x1 : Arg) (r : Fin 8192) (k : Fin 128) : EReal := Ideal.div (reps x0 x1 r k) (norm x0 x1 r)

/-- Row r of the first half and its partner in the second. -/
def lo (r : Fin 4096) : Fin 8192 := ⟨r.val, by omega⟩
def hi (r : Fin 4096) : Fin 8192 := ⟨r.val + 4096, by omega⟩

/-- The inner product of scaled row r with its partner, from the zero word. -/
def pairDot (x0 x1 : Arg) (r : Fin 4096) : EReal :=
  zeroW + ∑ k : Fin 128, unit x0 x1 (lo r) k * unit x0 x1 (hi r) k

/-- A row of either half to its index within the half. -/
def half (r : Fin 8192) : Fin 4096 := ⟨r.val % 4096, Nat.mod_lt _ (by norm_num)⟩

/-- Row r's positive. -/
def positive (x0 x1 : Arg) (r : Fin 8192) : EReal := pairDot x0 x1 (half r)

/-- The similarity of rows r and c. -/
def sim (x0 x1 : Arg) (r c : Fin 8192) : EReal := ∑ k : Fin 128, unit x0 x1 r k * unit x0 x1 c k

/-- Column c of block j. -/
def col (j : Fin 8) (c : Fin 1024) : Fin 8192 := ⟨j.val * 1024 + c.val, by omega⟩

/-- Block j's share of row r's denominator. -/
def blockSum (x0 x1 : Arg) (r : Fin 8192) (j : Fin 8) : EReal :=
  ∑ c : Fin 1024, Ideal.exp (sim x0 x1 r (col j c) * beta - beta)

/-- Row r's denominator after the first n blocks: the positive's term, then one block after the other. -/
def denom (x0 x1 : Arg) (r : Fin 8192) : ℕ → EReal
  | 0 => Ideal.exp (positive x0 x1 r * beta - beta)
  | n + 1 => denom x0 x1 r n + (if h : n < 8 then blockSum x0 x1 r ⟨n, h⟩ else 0)

/-- Row r's loss. -/
def rowLoss (x0 x1 : Arg) (r : Fin 8192) : EReal :=
  (beta + Ideal.log (denom x0 x1 r 8)) - positive x0 x1 r * beta

/-- The mean of the row losses. -/
def loss (x0 x1 : Arg) : EReal := Ideal.div (zeroW + ∑ r : Fin 8192, rowLoss x0 x1 r) countW

end Cert.Contrastive

end
-- ==== Proof.BodyLayout.lean ====
/-
  The three operations of the kernel body that are not pointwise, read at an index given by its
  coordinates, over the literal shapes of the body: a vector of 1024 entries viewed as a column,
  the sum over the 1024 lanes of a row, and the two pointwise transcendental operations. The matrix
  product is read in the next module, where its dimension numbers are in scope.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Contrastive

open Idealize.ShloMosaic Idealize.ShloMosaic.ValueIdx

/-- The exponential of a vector, at an index, is the exponential of the element. -/
theorem exp_apply {s : Shape} {φ : FTy} (x : FVec Ideal s φ) (i : s.Idx) : exp x i = Ideal.exp (x i) := rfl

/-- The logarithm of a vector, at an index, is the logarithm of the element. -/
theorem log_apply {s : Shape} {φ : FTy} (x : FVec Ideal s φ) (i : s.Idx) : log x i = Ideal.log (x i) := rfl

/-- A vector of 1024 entries viewed as a column of 1024 rows reads, at row r, entry r: both have
    row-major position r. -/
theorem colCast_apply {α : Type} (x : (⟨1, ![1024]⟩ : Shape).Idx → α)
    (h : (⟨1, ![1024]⟩ : Shape).ShapeCasts ⟨2, ![1024, 1]⟩) (r : Fin 1024) (u : Fin 1) :
    shapeCast ⟨2, ![1024, 1]⟩ x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- The sum over the lanes of a 1024 × 1024 array, from the zero word, reads at row r the sum over
    the 1024 columns c of the entry (r, c). -/
theorem laneSum_apply (src : FVec Ideal ⟨2, ![1024, 1024]⟩ .f32)
    (h : (⟨2, ![1024, 1024]⟩ : Shape).Reduces [1] ⟨1, ![1024]⟩)
    (hacc : (0x00000000#32 : BitVec 32) = 0x00000000#32) (r : Fin 1024) :
    multiReduction (F := Ideal) .add [1] ⟨1, ![1024]⟩ src 0x00000000#32 h (.inl rfl) hacc (ix1 r)
      = ∑ c : Fin 1024, src (ix2 r c) := by
  refine (Ideal.multiReduction_add_single src 0x00000000#32 h (.inl rfl) hacc (ix1 r)).trans ?_
  refine Finset.sum_congr rfl fun c _ => congrArg src ?_
  funext a
  match a with
  | ⟨0, _⟩ => exact Fin.ext rfl
  | ⟨1, _⟩ => exact Fin.ext rfl

end Cert.Contrastive

end
-- ==== Proof.BodyMatmul.lean ====
/-
  The kernel body's matrix product, read at an index: the 1024 × 128 block of rows against the
  transposed 1024 × 128 block of columns, accumulated into the zero array, is at (r, c) the sum over
  the 128 features k of the product of the two blocks' entries (r, k) and (k, c).
-/
import proofs.«110881_j37039797960862_2_alg».proof.Proof.Gen.KernelIdeal.Skeleton
import proofs.«110881_j37039797960862_2_alg».proof.Proof.BodyLayout

noncomputable section

open scoped BigOperators

namespace Cert.Contrastive

open Idealize.ShloMosaic Idealize.ShloMosaic.ValueIdx Cert.KernelIdeal

/-- The body's dimension numbers: one contracting axis, the rows' axis 1 against the columns' axis 0. -/
abbrev bodyDot : DotDims S1024x128 S128x1024 S1024x1024 :=
  Cert.KernelIdeal.dot_S1024x128_S128x1024_S1024x1024_1_0_0_1_n_n

/-- The left operand is read at the output's row … -/
theorem bodyDot_lhs_0 (i : S1024x1024.Idx) (q : bodyDot.contr.Idx) : (bodyDot.lhsIdx i q 0).val = (i 0).val := by
  unfold DotDims.lhsIdx
  rw [dif_neg (show ¬(0 : Fin S1024x128.rank) ∈ bodyDot.lhsBatch by decide),
    dif_pos (show (0 : Fin S1024x128.rank) ∈ bodyDot.lhsNonContracting by decide)]
  rfl
/-- … and the contraction's coordinate; -/
theorem bodyDot_lhs_1 (i : S1024x1024.Idx) (q : bodyDot.contr.Idx) :
    (bodyDot.lhsIdx i q 1).val = (q ⟨0, by decide⟩).val :=
  bodyDot.lhsIdx_val_of_single rfl i q
/-- the right operand at the contraction's coordinate … -/
theorem bodyDot_rhs_0 (i : S1024x1024.Idx) (q : bodyDot.contr.Idx) :
    (bodyDot.rhsIdx i q 0).val = (q ⟨0, by decide⟩).val :=
  bodyDot.rhsIdx_val_of_single rfl i q
/-- … and the output's column. -/
theorem bodyDot_rhs_1 (i : S1024x1024.Idx) (q : bodyDot.contr.Idx) : (bodyDot.rhsIdx i q 1).val = (i 1).val := by
  unfold DotDims.rhsIdx
  rw [dif_neg (show ¬(1 : Fin S128x1024.rank) ∈ bodyDot.rhsBatch by decide),
    dif_pos (show (1 : Fin S128x1024.rank) ∈ bodyDot.rhsNonContracting by decide)]
  rfl

/-- The product into the zero array at (r, c): the sum over the 128 features. -/
theorem bodyMatmul_apply (x : FVec Ideal S1024x128 .bf16) (y : FVec Ideal S128x1024 .bf16) (r c : Fin 1024) :
    matmul bodyDot none x y (constant (F := Ideal) S1024x1024 .f32 0x00000000#32) (ix2 r c)
      = ∑ k : Fin 128, x (ix2 r k) * y (ix2 k c) := by
  simp only [matmul]
  rw [Ideal.matmul_constant_zero_apply, ← Equiv.sum_comp (contrEquiv1 bodyDot 128 rfl rfl).symm]
  refine Finset.sum_congr rfl fun k _ => ?_
  have hk := contrEquiv1_symm_val bodyDot 128 rfl rfl k
  have el : bodyDot.lhsIdx (ix2 r c) ((contrEquiv1 bodyDot 128 rfl rfl).symm k) = ix2 r k :=
    funext fun a => Fin.ext (by
      match a with
      | ⟨0, _⟩ => exact bodyDot_lhs_0 _ _
      | ⟨1, _⟩ => exact (bodyDot_lhs_1 _ _).trans hk)
  have er : bodyDot.rhsIdx (ix2 r c) ((contrEquiv1 bodyDot 128 rfl rfl).symm k) = ix2 k c :=
    funext fun a => Fin.ext (by
      match a with
      | ⟨0, _⟩ => exact (bodyDot_rhs_0 _ _).trans hk
      | ⟨1, _⟩ => exact bodyDot_rhs_1 _ _)
  rw [el, er]

end Cert.Contrastive

end
-- ==== Proof.Body.lean ====
/-
  The kernel body's three stored values at the ideal instance, read at row r of the 1024-row block.
  With β the inverse temperature (the table's value of the name "inv_t"):
  the first store starts the row's denominator at exp (pos·β − β); the second adds to it the block's
  sum over its 1024 columns c of exp (⟨a_r, b_c⟩·β − β), the inner product over the 128 features;
  the third is the row's loss (β + log denom) − pos·β.
-/
import proofs.«110881_j37039797960862_2_alg».proof.Proof.Spec
import proofs.«110881_j37039797960862_2_alg».proof.Proof.BodyMatmul
import Idealize.ShloMosaic.PureOps.IdealRules

noncomputable section

open scoped BigOperators

namespace Cert.Contrastive

open Idealize.ShloMosaic Idealize.ShloMosaic.ValueIdx Cert.KernelIdeal

/-- The named inverse temperature denotes β on the extended reals, by the certificate's table. -/
theorem inv_t : Named.named (F := Ideal) Cert.KernelIdeal.κ "inv_t" (φ := .f32) 0x41200000#32 = beta :=
  IdealRules.named_const.ideal_named_scalar _ _ _ _ rfl

/-- The first store, as a function of the loaded positives: exp (pos·β − β) at every row. -/
theorem pay1_eq (p : Vec Ideal S1024x1 .f32) :
    Gen.k0_pay1 (F := Ideal) p = fun i => Ideal.exp (p i * beta - beta) := by
  unfold Gen.k0_pay1
  simp only [shapeCast_self, inv_t]
  rfl

theorem pay1_apply (p : Vec Ideal S1024x1 .f32) (r : Fin 1024) :
    Gen.k0_pay1 (F := Ideal) p (ix2 r (0 : Fin 1)) = Ideal.exp (p (ix2 r 0) * beta - beta) :=
  congrFun (pay1_eq p) _

/-- The third store, as a function of the loaded denominator and positives: (β + log denom) − pos·β. -/
theorem pay3_eq (l p : Vec Ideal S1024x1 .f32) :
    Gen.k0_pay3 (F := Ideal) l p = fun i => (beta + Ideal.log (l i)) - p i * beta := by
  unfold Gen.k0_pay3
  simp only [shapeCast_self, inv_t]
  rfl

theorem pay3_apply (l p : Vec Ideal S1024x1 .f32) (r : Fin 1024) :
    Gen.k0_pay3 (F := Ideal) l p (ix2 r (0 : Fin 1)) = (beta + Ideal.log (l (ix2 r 0))) - p (ix2 r 0) * beta :=
  congrFun (pay3_eq l p) _

/-- The second store at row r: the loaded denominator plus the block's sum over its 1024 columns of
    exp (⟨a_r, b_c⟩·β − β). -/
theorem pay2_apply (a b : Vec Ideal S1024x128 .bf16) (l : Vec Ideal S1024x1 .f32) (r : Fin 1024) :
    Gen.k0_pay2 (F := Ideal) a b l (ix2 r (0 : Fin 1))
      = l (ix2 r 0) + ∑ c : Fin 1024, Ideal.exp ((∑ k : Fin 128, a (ix2 r k) * b (ix2 c k)) * beta - beta) := by
  unfold Gen.k0_pay2
  simp only [shapeCast_self, inv_t]
  refine (addf_apply _ _ _).trans (congrArg (l (ix2 r 0) + ·) ?_)
  refine (colCast_apply _ _ r 0).trans ?_
  refine (laneSum_apply _ _ _ r).trans ?_
  refine Finset.sum_congr rfl fun c _ => ?_
  refine (exp_apply _ _).trans (congrArg Ideal.exp ?_)
  refine (subf_apply _ _ _).trans (congrArg (· - beta) ?_)
  refine (mulf_apply _ _ _).trans (congrArg (· * beta) ?_)
  refine (bodyMatmul_apply a _ r c).trans ?_
  refine Finset.sum_congr rfl fun k _ => congrArg (a (ix2 r k) * ·) ?_
  exact transpose_ix2_apply b _ k c

/-- The second store as a function of the three loaded blocks, at every index of the column. -/
theorem pay2_eq (a b : Vec Ideal S1024x128 .bf16) (l : Vec Ideal S1024x1 .f32) :
    Gen.k0_pay2 (F := Ideal) a b l
      = fun i => l i + ∑ c : Fin 1024, Ideal.exp ((∑ k : Fin 128, a (ix2 (i 0) k) * b (ix2 c k)) * beta - beta) := by
  funext i
  obtain ⟨r, u, rfl⟩ : ∃ (r : Fin 1024) (u : Fin 1), i = ix2 r u := ⟨i 0, i 1, eq_ix2 i⟩
  obtain rfl : u = 0 := Subsingleton.elim _ _
  exact pay2_apply a b l r

end Cert.Contrastive

end
-- ==== Proof.HostBeforeRead.lean ====
/-
  The host operations of the contrastive-loss program, read at an index.

  Stacking two [4096, ·] arrays along the rows reads the first array at rows below 4096 and the
  second, 4096 rows down, from there on; a sum over the feature axis is the initial word plus the
  sum of the 128 entries of the row; a vector broadcast to a column, a scalar broadcast to a column
  and a column broadcast along the features each read their operand at the row (or at its one
  entry); the two half slices read rows r and r + 4096.
-/
import proofs.«110881_j37039797960862_2_alg».proof.Proof.Spec
import proofs.«110881_j37039797960862_2_alg».proof.KernelIdeal
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Contrastive

open Idealize.ShloMosaic Idealize.ShloMosaic.ValueIdx
open Cert.KernelIdeal

/-! ## Stacking along the rows -/

/-- Two [4096, 128] arrays stacked: row r of the result is row r of the first array below 4096,
    row r - 4096 of the second from there on — the specification's `reps`. -/
theorem stack_rows_apply (x0 x1 : Arg) (h : Shape.Concatenates [S4096x128, S4096x128] S8192x128 0)
    (r : Fin 8192) (k : Fin 128) :
    concatenate S8192x128 0 [⟨S4096x128, x0⟩, ⟨S4096x128, x1⟩] h (ix2 r k) = reps x0 x1 r k := by
  unfold reps
  split
  · next hlt =>
    exact concatenate_pair_apply_left (t := S8192x128) (s₁ := S4096x128) (s₂ := S4096x128) 0 x0 x1 h (ix2 r k) rfl
      (ix2 (⟨r.val, hlt⟩ : Fin 4096) k) (fun b => match b with | ⟨0, _⟩ => rfl | ⟨1, _⟩ => rfl)
  · next hge =>
    refine concatenate_pair_apply_right (t := S8192x128) (s₁ := S4096x128) (s₂ := S4096x128) 0 x0 x1 h (ix2 r k) rfl rfl
      (ix2 (⟨r.val - 4096, by omega⟩ : Fin 4096) k) (fun b => match b with | ⟨0, _⟩ => fun hb => absurd rfl hb | ⟨1, _⟩ => fun _ => rfl) ?_
    show r.val - 4096 + 4096 = r.val
    omega

/-- Two copies of one [4096, 1] column stacked: row r of the result is row r mod 4096 of the column. -/
theorem stack_cols_apply (v : (⟨2, ![4096, 1]⟩ : Shape).Idx → EReal) (h : Shape.Concatenates [S4096x1, S4096x1] S8192x1 0)
    (r : Fin 8192) (c : Fin 1) :
    concatenate S8192x1 0 [⟨S4096x1, v⟩, ⟨S4096x1, v⟩] h (ix2 r c) = v (ix2 (half r) c) := by
  by_cases hlt : r.val < 4096
  · exact concatenate_pair_apply_left (t := S8192x1) (s₁ := S4096x1) (s₂ := S4096x1) 0 v v h (ix2 r c) rfl
      (ix2 (half r) c) (fun b => match b with
        | ⟨0, _⟩ => by show r.val % 4096 = r.val; omega
        | ⟨1, _⟩ => rfl)
  · refine concatenate_pair_apply_right (t := S8192x1) (s₁ := S4096x1) (s₂ := S4096x1) 0 v v h (ix2 r c) rfl rfl
      (ix2 (half r) c) (fun b => match b with | ⟨0, _⟩ => fun hb => absurd rfl hb | ⟨1, _⟩ => fun _ => rfl) ?_
    show r.val % 4096 + 4096 = r.val
    have := r.isLt
    omega

/-! ## Sums over the feature axis -/

/-- The sum over the features of an [8192, 128] array from an initial word, at row r. -/
theorem row_sum8192_apply (X : FVec Ideal S8192x128 .f32) (init : FVec Ideal S_ .f32)
    (h' : S8192x128.ReducesTo [1] S8192) (hu : 0 < S_.numel) (r : Fin 8192) :
    Host.reduceAdd (F := Ideal) X init h' hu (ix1 r) = init ix0 + ∑ k : Fin 128, X (ix2 r k) := by
  have h : S8192x128.Reduces [1] S8192 := by decide
  unfold Host.reduceAdd
  rw [Ideal.hostReduceAdd_def, Ideal.hostReduceAdd_single h' h, eq_ix0 (Shape.Idx.first hu)]
  refine congrArg (init ix0 + ·) (Finset.sum_congr rfl fun k _ => congrArg X ?_)
  funext a
  match a with
  | ⟨0, _⟩ => rfl
  | ⟨1, _⟩ => rfl

/-- The sum over the features of a [4096, 128] array from an initial word, at row r. -/
theorem row_sum4096_apply (X : FVec Ideal S4096x128 .f32) (init : FVec Ideal S_ .f32)
    (h' : S4096x128.ReducesTo [1] S4096) (hu : 0 < S_.numel) (r : Fin 4096) :
    Host.reduceAdd (F := Ideal) X init h' hu (ix1 r) = init ix0 + ∑ k : Fin 128, X (ix2 r k) := by
  have h : S4096x128.Reduces [1] S4096 := by decide
  unfold Host.reduceAdd
  rw [Ideal.hostReduceAdd_def, Ideal.hostReduceAdd_single h' h, eq_ix0 (Shape.Idx.first hu)]
  refine congrArg (init ix0 + ·) (Finset.sum_congr rfl fun k _ => congrArg X ?_)
  funext a
  match a with
  | ⟨0, _⟩ => rfl
  | ⟨1, _⟩ => rfl

/-! ## Broadcasts -/

/-- A vector of 8192 entries as a column: entry r. -/
theorem col8192_apply {α : Type} (v : S8192.Idx → α) (h : S8192.BroadcastsInDim S8192x1 (![0] : Fin 1 → Fin S8192x1.rank))
    (r : Fin 8192) (c : Fin 1) : broadcastInDim S8192x1 ![0] h v (ix2 r c) = v (ix1 r) :=
  broadcastInDim_apply _ h v (ix2 r c) (ix1 r) fun a => match a with | ⟨0, _⟩ => rfl

/-- A vector of 4096 entries as a column: entry r. -/
theorem col4096_apply {α : Type} (v : S4096.Idx → α) (h : S4096.BroadcastsInDim S4096x1 (![0] : Fin 1 → Fin S4096x1.rank))
    (r : Fin 4096) (c : Fin 1) : broadcastInDim S4096x1 ![0] h v (ix2 r c) = v (ix1 r) :=
  broadcastInDim_apply _ h v (ix2 r c) (ix1 r) fun a => match a with | ⟨0, _⟩ => rfl

/-- A scalar as a column of 8192 entries: the scalar. -/
theorem scalar_col_apply {α : Type} (v : S_.Idx → α) (h : S_.BroadcastsInDim S8192x1 (![] : Fin 0 → Fin S8192x1.rank))
    (j : S8192x1.Idx) : broadcastInDim S8192x1 ![] h v j = v ix0 :=
  broadcastInDim_apply _ h v j ix0 fun a => a.elim0

/-- A column of 8192 entries along the 128 features: entry r. -/
theorem along_features_apply {α : Type} (v : S8192x1.Idx → α)
    (h : S8192x1.BroadcastsInDim S8192x128 (![0, 1] : Fin 2 → Fin S8192x128.rank)) (r : Fin 8192) (k : Fin 128) :
    broadcastInDim S8192x128 ![0, 1] h v (ix2 r k) = v (ix2 r (0 : Fin 1)) :=
  broadcastInDim_apply _ h v (ix2 r k) (ix2 r (0 : Fin 1)) fun a => match a with | ⟨0, _⟩ => rfl | ⟨1, _⟩ => rfl

/-! ## The two half slices -/

/-- The first 4096 rows: row r. -/
theorem lower_half_apply {α : Type} (X : S8192x128.Idx → α) (h : S8192x128.Slices ![0, 0] S4096x128)
    (r : Fin 4096) (k : Fin 128) : extractStridedSlice S4096x128 ![0, 0] X h (ix2 r k) = X (ix2 (lo r) k) :=
  slice2_axis0_apply 0 X h r k (lo r) (Nat.zero_add _).symm

/-- The last 4096 rows: row r + 4096. -/
theorem upper_half_apply {α : Type} (X : S8192x128.Idx → α) (h : S8192x128.Slices ![4096, 0] S4096x128)
    (r : Fin 4096) (k : Fin 128) : extractStridedSlice S4096x128 ![4096, 0] X h (ix2 r k) = X (ix2 (hi r) k) :=
  slice2_axis0_apply 4096 X h r k (hi r) (Nat.add_comm _ _)

end Cert.Contrastive

end
-- ==== Proof.HostBeforeStages.lean ====
/-
  The host operations before the kernel region, stage by stage, over the two argument arrays:
  the stacked rows, each row's sum of squares, its floored norm, the scaled rows, the inner product
  of scaled row r with its partner r + 4096, and that column written twice, one copy under the
  other. Read at an index, each stage is the specification's function of the same name.
-/
import proofs.«110881_j37039797960862_2_alg».proof.Proof.HostBeforeRead
import proofs.«110881_j37039797960862_2_alg».proof.Proof.Gen.KernelIdeal

noncomputable section

open scoped BigOperators

namespace Cert.Contrastive

open Idealize.ShloMosaic Idealize.ShloMosaic.ValueIdx
open Cert.KernelIdeal

/-- The two arguments stacked along the rows. -/
def stackedRows (x0 x1 : Arg) : FVec Ideal S8192x128 .f32 :=
  concatenate S8192x128 0 [⟨S4096x128, x0⟩, ⟨S4096x128, x1⟩] Gen.concatenates_S4096x128_S4096x128_S8192x128_d0

theorem stackedRows_apply (x0 x1 : Arg) (r : Fin 8192) (k : Fin 128) :
    stackedRows x0 x1 (ix2 r k) = reps x0 x1 r k :=
  stack_rows_apply x0 x1 _ r k

/-- Each row's sum of squares, from the zero word. -/
def rowSumSq (x0 x1 : Arg) : FVec Ideal S8192 .f32 :=
  Host.reduceAdd (F := Ideal) (mulf (stackedRows x0 x1) (stackedRows x0 x1)) (constant (F := Ideal) S_ .f32 0x00000000#32)
    Gen.reducesTo_S8192x128_S8192_d1 Gen.h_S_

theorem rowSumSq_apply (x0 x1 : Arg) (r : Fin 8192) : rowSumSq x0 x1 (ix1 r) = sumSq x0 x1 r := by
  unfold rowSumSq sumSq
  rw [row_sum8192_apply]
  refine congrArg (zeroW + ·) (Finset.sum_congr rfl fun k _ => ?_)
  rw [mulf_apply, stackedRows_apply]

/-- Each row's norm as a column, floored. -/
def rowNorm (x0 x1 : Arg) : FVec Ideal S8192x1 .f32 :=
  maximumf (Host.sqrt (F := Ideal) (broadcastInDim S8192x1 ![0] Gen.bcast_S8192_S8192x1_0 (rowSumSq x0 x1)))
    (broadcastInDim S8192x1 ![] Gen.bcast_S_S8192x1 (constant (F := Ideal) S_ .f32 0x322BCC77#32))

theorem rowNorm_apply (x0 x1 : Arg) (r : Fin 8192) (c : Fin 1) : rowNorm x0 x1 (ix2 r c) = norm x0 x1 r := by
  unfold rowNorm norm
  rw [maximumf_apply, scalar_col_apply]
  show max (Ideal.sqrt (broadcastInDim S8192x1 ![0] Gen.bcast_S8192_S8192x1_0 (rowSumSq x0 x1) (ix2 r c))) floorW = _
  rw [col8192_apply, rowSumSq_apply]

/-- The scaled rows. -/
def scaledRows (x0 x1 : Arg) : FVec Ideal S8192x128 .f32 :=
  Host.divf (F := Ideal) (stackedRows x0 x1) (broadcastInDim S8192x128 ![0, 1] Gen.bcast_S8192x1_S8192x128_0_1 (rowNorm x0 x1))

theorem scaledRows_apply (x0 x1 : Arg) (r : Fin 8192) (k : Fin 128) : scaledRows x0 x1 (ix2 r k) = unit x0 x1 r k := by
  unfold scaledRows unit
  show Ideal.div (stackedRows x0 x1 (ix2 r k))
      (broadcastInDim S8192x128 ![0, 1] Gen.bcast_S8192x1_S8192x128_0_1 (rowNorm x0 x1) (ix2 r k)) = _
  rw [stackedRows_apply, along_features_apply, rowNorm_apply]

/-- The inner product of each scaled row of the first half with its partner in the second. -/
def partnerDot (x0 x1 : Arg) : FVec Ideal S4096 .f32 :=
  Host.reduceAdd (F := Ideal)
    (mulf (extractStridedSlice S4096x128 ![0, 0] (scaledRows x0 x1) Gen.slices_S8192x128_S4096x128_0_0)
      (extractStridedSlice S4096x128 ![4096, 0] (scaledRows x0 x1) Gen.slices_S8192x128_S4096x128_4096_0))
    (constant (F := Ideal) S_ .f32 0x00000000#32) Gen.reducesTo_S4096x128_S4096_d1 Gen.h_S_

theorem partnerDot_apply (x0 x1 : Arg) (r : Fin 4096) : partnerDot x0 x1 (ix1 r) = pairDot x0 x1 r := by
  unfold partnerDot pairDot
  rw [row_sum4096_apply]
  refine congrArg (zeroW + ·) (Finset.sum_congr rfl fun k _ => ?_)
  rw [mulf_apply, lower_half_apply, upper_half_apply, scaledRows_apply, scaledRows_apply]

/-- The partner products as a column, written twice: rows r and r + 4096 hold the same product. -/
def positiveCol (x0 x1 : Arg) : FVec Ideal S8192x1 .f32 :=
  concatenate S8192x1 0
    [⟨S4096x1, broadcastInDim S4096x1 ![0] Gen.bcast_S4096_S4096x1_0 (partnerDot x0 x1)⟩,
     ⟨S4096x1, broadcastInDim S4096x1 ![0] Gen.bcast_S4096_S4096x1_0 (partnerDot x0 x1)⟩]
    Gen.concatenates_S4096x1_S4096x1_S8192x1_d0

theorem positiveCol_apply (x0 x1 : Arg) (r : Fin 8192) (c : Fin 1) : positiveCol x0 x1 (ix2 r c) = positive x0 x1 r := by
  unfold positiveCol positive
  rw [stack_cols_apply, col4096_apply, partnerDot_apply]

end Cert.Contrastive

end
-- ==== Proof.HostBefore.lean ====
/-
  What the host operations before the kernel region leave in the arrays the region reads.

  The operations' composed term at the scaled-rows array and at the positives' column is, stage by
  stage, the term of the stages module; read at an index it is the specification's `unit` and
  `positive`. The two arguments are no operation's result, so they stay as they were.
-/
import proofs.«110881_j37039797960862_2_alg».proof.Proof.HostBeforeStages
import proofs.«110881_j37039797960862_2_alg».proof.Proof.Gen.KernelIdeal.Launch
import Idealize.ShloMosaic.Lib.StableHlo.Run

noncomputable section

open scoped BigOperators

namespace Cert.Contrastive

open Idealize.ShloMosaic Idealize.ShloMosaic.ValueIdx Idealize.SL.Sem
open Cert.KernelIdeal

/-- After the host operations before the region, the array the region reads its row and column
    blocks from holds the scaled rows: entry (r, k) is `unit x0 x1 r k` (the change of float format
    is the identity on extended reals). -/
theorem before_scaled (W : Valuation τ sig (Elt Ideal)) :
    StableHlo.after (List.flatten [Gen.hostOps0, Gen.hostOps0_1, Gen.hostOps0_2]) W (Proc.devRef .tc main_v6)
      = fun i => unit (W (Proc.devRef .tc main_arg0)) (W (Proc.devRef .tc main_arg1)) (i 0) (i 1) := by
  have e : StableHlo.after (List.flatten [Gen.hostOps0, Gen.hostOps0_1, Gen.hostOps0_2]) W (Proc.devRef .tc main_v6)
      = truncf .bf16 (scaledRows (W (Proc.devRef .tc main_arg0)) (W (Proc.devRef .tc main_arg1))) Gen.bitsLt_bf16_f32 := by
    simp only [Gen.hostOps0, Gen.hostOps0_1, Gen.hostOps0_2, List.flatten_cons, List.flatten_nil, List.append_nil,
      List.cons_append, List.nil_append]
    open StableHlo in after_results
    rfl
  rw [e]
  funext i
  obtain ⟨r, k, rfl⟩ : ∃ (r : Fin 8192) (k : Fin 128), i = ix2 r k := ⟨i 0, i 1, eq_ix2 i⟩
  exact scaledRows_apply _ _ r k

/-- After the same operations the column the region reads each row's positive from holds, at row r,
    the inner product of scaled row r mod 4096 with its partner: `positive x0 x1 r`. -/
theorem before_positive (W : Valuation τ sig (Elt Ideal)) :
    StableHlo.after (List.flatten [Gen.hostOps0, Gen.hostOps0_1, Gen.hostOps0_2]) W (Proc.devRef .tc main_v12)
      = fun i => positive (W (Proc.devRef .tc main_arg0)) (W (Proc.devRef .tc main_arg1)) (i 0) := by
  have e : StableHlo.after (List.flatten [Gen.hostOps0, Gen.hostOps0_1, Gen.hostOps0_2]) W (Proc.devRef .tc main_v12)
      = positiveCol (W (Proc.devRef .tc main_arg0)) (W (Proc.devRef .tc main_arg1)) := by
    simp only [Gen.hostOps0, Gen.hostOps0_1, Gen.hostOps0_2, List.flatten_cons, List.flatten_nil, List.append_nil,
      List.cons_append, List.nil_append]
    open StableHlo in after_results
    rfl
  rw [e]
  funext i
  obtain ⟨r, c, rfl⟩ : ∃ (r : Fin 8192) (c : Fin 1), i = ix2 r c := ⟨i 0, i 1, eq_ix2 i⟩
  exact positiveCol_apply _ _ r c

/-- No operation before the region writes the first argument. -/
theorem before_arg0 (W : Valuation τ sig (Elt Ideal)) :
    StableHlo.after (List.flatten [Gen.hostOps0, Gen.hostOps0_1, Gen.hostOps0_2]) W (Proc.devRef .tc main_arg0)
      = W (Proc.devRef .tc main_arg0) := by
  simp only [Gen.hostOps0, Gen.hostOps0_1, Gen.hostOps0_2, List.flatten_cons, List.flatten_nil, List.append_nil,
    List.cons_append, List.nil_append]
  open StableHlo in after_results

/-- No operation before the region writes the second argument. -/
theorem before_arg1 (W : Valuation τ sig (Elt Ideal)) :
    StableHlo.after (List.flatten [Gen.hostOps0, Gen.hostOps0_1, Gen.hostOps0_2]) W (Proc.devRef .tc main_arg1)
      = W (Proc.devRef .tc main_arg1) := by
  simp only [Gen.hostOps0, Gen.hostOps0_1, Gen.hostOps0_2, List.flatten_cons, List.flatten_nil, List.append_nil,
    List.cons_append, List.nil_append]
  open StableHlo in after_results

end Cert.Contrastive

end
-- ==== Proof.HostAfter.lean ====
/-
  The host operations after the kernel region: the mean of the region's output column.

  The result word is the zero word plus the sum of the column's 8192 entries, divided by the word
  8192; the two arguments are no operation's result.
-/
import proofs.«110881_j37039797960862_2_alg».proof.Proof.Spec
import proofs.«110881_j37039797960862_2_alg».proof.KernelIdeal
import proofs.«110881_j37039797960862_2_alg».proof.Proof.Gen.KernelIdeal.Launch
import Idealize.ShloMosaic.Lib.StableHlo.Run
import Idealize.ShloMosaic.Lib.ValueIdx
import Idealize.ShloMosaic.PureOps.Ideal.Laws

noncomputable section

open scoped BigOperators

namespace Cert.Contrastive

open Idealize.ShloMosaic Idealize.ShloMosaic.ValueIdx Idealize.SL.Sem
open Cert.KernelIdeal

/-- The sum over both axes of an [8192, 1] column from an initial word is the word plus the sum
    of the column's 8192 entries. -/
theorem total_sum_apply (y : FVec Ideal S8192x1 .f32) (init : FVec Ideal S_ .f32)
    (h' : S8192x1.ReducesTo [0, 1] S_) (hu : 0 < S_.numel) (j : S_.Idx) :
    Host.reduceAdd (F := Ideal) y init h' hu j = init ix0 + ∑ r : Fin 8192, y (ix2 r (0 : Fin 1)) := by
  unfold Host.reduceAdd
  rw [Ideal.hostReduceAdd_def, Ideal.hostReduceAdd_total h' (fun b => b.elim0), eq_ix0 (Shape.Idx.first hu),
    sum_idx2]
  refine congrArg (init ix0 + ·) (Finset.sum_congr rfl fun r _ => ?_)
  exact Fin.sum_univ_one _

/-- After the host operations that follow the kernel region the result word is the mean of the
    region's output column: the zero word plus the sum of its 8192 entries, divided by the word 8192. -/
theorem after_loss (W : Valuation τ sig (Elt Ideal)) :
    StableHlo.after Gen.hostOps1 W (Proc.devRef .tc main_v15)
      = fun _ => Ideal.div (zeroW + Finset.sum (M := EReal) Finset.univ
          fun r : Fin 8192 => W (Proc.devRef .tc main_v13) (ix2 r (0 : Fin 1))) countW := by
  have e : StableHlo.after Gen.hostOps1 W (Proc.devRef .tc main_v15)
      = Host.divf (F := Ideal)
          (Host.reduceAdd (F := Ideal) (W (Proc.devRef .tc main_v13) : FVec Ideal S8192x1 .f32)
            (constant (F := Ideal) S_ .f32 0x00000000#32) Gen.reducesTo_S8192x1_S_d0_1 Gen.h_S_)
          (constant (F := Ideal) S_ .f32 0x46000000#32) := by
    simp only [Gen.hostOps1]
    open StableHlo in after_results
  rw [e]
  funext j
  show Ideal.div (Host.reduceAdd (F := Ideal) (W (Proc.devRef .tc main_v13) : FVec Ideal S8192x1 .f32)
      (constant (F := Ideal) S_ .f32 0x00000000#32) Gen.reducesTo_S8192x1_S_d0_1 Gen.h_S_ j) countW = _
  rw [total_sum_apply]
  rfl

/-- No operation after the region writes the first argument. -/
theorem after_arg0 (W : Valuation τ sig (Elt Ideal)) :
    StableHlo.after Gen.hostOps1 W (Proc.devRef .tc main_arg0) = W (Proc.devRef .tc main_arg0) := by
  simp only [Gen.hostOps1]
  open StableHlo in after_results

/-- No operation after the region writes the second argument. -/
theorem after_arg1 (W : Valuation τ sig (Elt Ideal)) :
    StableHlo.after Gen.hostOps1 W (Proc.devRef .tc main_arg1) = W (Proc.devRef .tc main_arg1) := by
  simp only [Gen.hostOps1]
  open StableHlo in after_results

end Cert.Contrastive

end
-- ==== Proof.KiValue.lean ====
/-
  The kernel program's result on the extended reals: the loss of the specification.

  With the scaled rows u and the positives p as the host operations before the region leave them,
  the window blocks at the point t = 8·i + j are rows 1024·i … of u, rows 1024·j … of u and rows
  1024·i … of p.  By induction along the points, the scratch after point t holds the specification's
  running denominator of its rows over j + 1 column blocks, so the output array ends as the column of
  row losses, and the host operations after the region turn it into their mean.
-/
import proofs.«110881_j37039797960862_2_alg».proof.Proof.KiPieces
import proofs.«110881_j37039797960862_2_alg».proof.Proof.KiLaunch
import proofs.«110881_j37039797960862_2_alg».proof.Proof.Spec
import proofs.«110881_j37039797960862_2_alg».proof.Proof.Body
import proofs.«110881_j37039797960862_2_alg».proof.Proof.HostBefore
import proofs.«110881_j37039797960862_2_alg».proof.Proof.HostAfter

set_option maxRecDepth 16384

noncomputable section

namespace Cert.KernelIdeal.Frame

open Cert.KernelIdeal Cert.KernelIdeal.Gen Cert.Contrastive
open Idealize.ShloMosaic Idealize.ShloMosaic.TcCoe Idealize.ShloMosaic.ValueIdx
open Idealize.SL.Sem
open Idealize.ShloMosaic.Pipeline (Dat)
open scoped BigOperators

variable (m : (ℓ : Loc nD τ sig) → Buf (Elt Ideal) ℓ)

/-- The two argument arrays on core c. -/
abbrev a0 (c : Dev nD) : Arg := m ((c : Thread nD τ).loc main_arg0)
abbrev a1 (c : Dev nD) : Arg := m ((c : Thread nD τ).loc main_arg1)

/-- Which blocks the windows take at point t = 8·i + j: the row block i for the rows, the positives and the
    output, the row block j for the columns. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, _)

/-- Row r of the row block of point t. -/
def rowOf (t : Fin cfg0.N) (r : Fin 1024) : Fin 8192 :=
  ⟨t.val / 8 * 1024 + r.val, by have := t.isLt; have hN : cfg0.N = 64 := N_0; have := r.isLt; omega⟩

theorem V_scaled (c : Dev nD) : V m c main_v6 = fun i => unit (a0 m c) (a1 m c) (i 0) (i 1) :=
  before_scaled (fun b => m (c, b))
theorem V_pos (c : Dev nD) : V m c main_v12 = fun i => positive (a0 m c) (a1 m c) (i 0) :=
  before_positive (fun b => m (c, b))

theorem iblk0_apply (c : Dev nD) (t : Fin cfg0.N) (r : Fin 1024) (k : Fin 128) :
    (iblk m c 0 t : Vec Ideal S1024x128 .bf16) (ix2 r k) = unit (a0 m c) (a1 m c) (rowOf t r) k := by
  unfold iblk; rw [View.read_apply]
  show V m c main_v6 (((cfg0.win 0).blk t).view.emb (ix2 r k)) = _
  rw [V_scaled]
  obtain ⟨e0, e1, -⟩ := idx_facts t
  have h0 : (((cfg0.win 0).blk t).view.emb (ix2 r k)) 0 = rowOf t r :=
    Fin.ext (by show win0_0.index t (0 : Fin 2) * 1024 + 1 * r.val = t.val / 8 * 1024 + r.val; rw [e0]; omega)
  have h1 : (((cfg0.win 0).blk t).view.emb (ix2 r k)) 1 = k :=
    Fin.ext (by show win0_0.index t (1 : Fin 2) * 128 + 1 * k.val = k.val; rw [e1]; omega)
  show unit _ _ ((((cfg0.win 0).blk t).view.emb (ix2 r k)) 0) ((((cfg0.win 0).blk t).view.emb (ix2 r k)) 1) = _
  rw [h0, h1]

theorem iblk1_apply (c : Dev nD) (t : Fin cfg0.N) (j : ℕ) (hj : t.val % 8 = j) (hj8 : j < 8) (r : Fin 1024) (k : Fin 128) :
    (iblk m c 1 t : Vec Ideal S1024x128 .bf16) (ix2 r k) = unit (a0 m c) (a1 m c) (col ⟨j, hj8⟩ r) k := by
  unfold iblk; rw [View.read_apply]
  show V m c main_v6 (((cfg0.win 1).blk t).view.emb (ix2 r k)) = _
  rw [V_scaled]
  obtain ⟨-, -, e0, e1, -⟩ := idx_facts t
  have h0 : (((cfg0.win 1).blk t).view.emb (ix2 r k)) 0 = col ⟨j, hj8⟩ r :=
    Fin.ext (by show win0_1.index t (0 : Fin 2) * 1024 + 1 * r.val = j * 1024 + r.val; rw [e0, hj]; omega)
  have h1 : (((cfg0.win 1).blk t).view.emb (ix2 r k)) 1 = k :=
    Fin.ext (by show win0_1.index t (1 : Fin 2) * 128 + 1 * k.val = k.val; rw [e1]; omega)
  show unit _ _ ((((cfg0.win 1).blk t).view.emb (ix2 r k)) 0) ((((cfg0.win 1).blk t).view.emb (ix2 r k)) 1) = _
  rw [h0, h1]

theorem iblk2_apply (c : Dev nD) (t : Fin cfg0.N) (r : Fin 1024) :
    (iblk m c 2 t : Vec Ideal S1024x1 .f32) (ix2 r (0 : Fin 1)) = positive (a0 m c) (a1 m c) (rowOf t r) := by
  unfold iblk; rw [View.read_apply]
  show V m c main_v12 (((cfg0.win 2).blk t).view.emb (ix2 r (0 : Fin 1))) = _
  rw [V_pos]
  obtain ⟨-, -, -, -, e0, e1, -⟩ := idx_facts t
  have h0 : (((cfg0.win 2).blk t).view.emb (ix2 r (0 : Fin 1))) 0 = rowOf t r :=
    Fin.ext (by show win0_2.index t (0 : Fin 2) * 1024 + 1 * r.val = t.val / 8 * 1024 + r.val; rw [e0]; omega)
  show positive _ _ ((((cfg0.win 2).blk t).view.emb (ix2 r (0 : Fin 1))) 0) = _
  rw [h0]

/-- The denominator after one more block. -/
theorem denom_succ (x0 x1 : Arg) (R : Fin 8192) (j : ℕ) (hj : j < 8) :
    denom x0 x1 R (j + 1) = denom x0 x1 R j + blockSum x0 x1 R ⟨j, hj⟩ := by
  rw [denom, dif_pos hj]

/-- One column block added to a running denominator l. -/
theorem blockStep (c : Dev nD) (t : Fin cfg0.N) (j : ℕ) (hj : t.val % 8 = j) (hj8 : j < 8) (l : Vec Ideal S1024x1 .f32) (r : Fin 1024) :
    k0_pay2 (F := Ideal) (iblk m c 0 t) (iblk m c 1 t) l (ix2 r (0 : Fin 1))
      = l (ix2 r 0) + blockSum (a0 m c) (a1 m c) (rowOf t r) ⟨j, hj8⟩ := by
  rw [pay2_apply]
  simp only [iblk0_apply, iblk1_apply m c t j hj hj8]
  rfl

/-- THE RUNNING DENOMINATOR: after position n the scratch holds, at row r, the denominator of row (n / 8)·1024 + r
    over the first n % 8 + 1 column blocks. -/
theorem sc_eq (c : Dev nD) : ∀ (n : ℕ) (h : n < cfg0.N) (r : Fin 1024),
    (outsAt m c n h).2 (ix2 r (0 : Fin 1)) = denom (a0 m c) (a1 m c) (rowOf ⟨n, h⟩ r) (n % 8 + 1) := by
  intro n
  induction n with
  | zero =>
    intro h r
    rw [outsAt_first m c ⟨0, h⟩ rfl (by show ¬(0 % 8 = 7); decide)]
    dsimp only
    rw [scFirst_eq, blockStep m c ⟨0, h⟩ 0 rfl (by norm_num), pay1_apply, iblk2_apply, denom_succ _ _ _ 0 (by norm_num)]
    rfl
  | succ n ih =>
    intro h r
    have hN : cfg0.N = 64 := N_0
    by_cases h0 : (n + 1) % 8 = 0
    · rw [outsAt_first m c ⟨n + 1, h⟩ h0 (by dsimp only; omega)]
      dsimp only
      rw [scFirst_eq, blockStep m c ⟨n + 1, h⟩ 0 h0 (by norm_num), pay1_apply, iblk2_apply, h0, denom_succ _ _ _ 0 (by norm_num)]
      rfl
    · have hrow : rowOf ⟨n, Nat.lt_of_succ_lt h⟩ r = rowOf ⟨n + 1, h⟩ r := Fin.ext (by show n / 8 * 1024 + r.val = (n + 1) / 8 * 1024 + r.val; omega)
      have hj : n % 8 + 1 = (n + 1) % 8 := by omega
      have hj8 : (n + 1) % 8 < 8 := Nat.mod_lt _ (by norm_num)
      by_cases h1 : (n + 1) % 8 = 7
      · rw [outsAt_last m c ⟨n + 1, h⟩ h0 h1]
        dsimp only
        rw [scLast_eq, blockStep m c ⟨n + 1, h⟩ ((n + 1) % 8) rfl hj8]
        simp only [Nat.add_sub_cancel]
        rw [ih (Nat.lt_of_succ_lt h) r, hrow, hj, denom_succ _ _ _ _ hj8]
      · rw [outsAt_middle m c ⟨n + 1, h⟩ h0 h1]
        dsimp only
        rw [scMiddle_eq, blockStep m c ⟨n + 1, h⟩ ((n + 1) % 8) rfl hj8]
        simp only [Nat.add_sub_cancel]
        rw [ih (Nat.lt_of_succ_lt h) r, hrow, hj, denom_succ _ _ _ _ hj8]

/-- THE ROW LOSSES: after a point with j = 7 the output block holds the row losses of its row block. -/
theorem out_eq (c : Dev nD) (t : Fin cfg0.N) (h7 : t.val % 8 = 7) (r : Fin 1024) :
    (outsAt m c t.val t.isLt).1 (ix2 r (0 : Fin 1)) = rowLoss (a0 m c) (a1 m c) (rowOf t r) := by
  have hN : cfg0.N = 64 := N_0
  have h0 : ¬t.val % 8 = 0 := by omega
  have hpos : t.val - 1 < cfg0.N := Nat.lt_of_le_of_lt (Nat.sub_le _ _) t.isLt
  have hrow : rowOf ⟨t.val - 1, hpos⟩ r = rowOf t r := Fin.ext (by show (t.val - 1) / 8 * 1024 + r.val = t.val / 8 * 1024 + r.val; omega)
  rw [outsAt_last m c t h0 h7]
  dsimp only
  rw [outLast_eq, pay3_apply, blockStep m c t 7 h7 (by norm_num), iblk2_apply, sc_eq m c (t.val - 1) hpos r, hrow,
    show (t.val - 1) % 8 + 1 = 7 from by omega, ← denom_succ _ _ _ 7 (by norm_num)]
  rfl

/-- The column of all row losses. -/
abbrev lossColumn (c : Dev nD) : Buf (Elt Ideal) ((c : Thread nD τ).loc main_v13) := fun i => rowLoss (a0 m c) (a1 m c) (i 0)

set_option maxHeartbeats 1600000 in
theorem flushed_eq (c : Dev nD) (t : Fin cfg0.N) (hf : (cfg0.win 3).flush t = true) :
    (dats m 0 c).flushed 3 t = ((cfg0.win 3).blk t).view.read (Elt Ideal) (lossColumn m c) := by
  have h7 : t.val % 8 = 7 := (flush0_3 t).mp hf
  show (cfg0.win 3).cut (grid0.coords t) ((dats m 0 c).after 3 t) = _
  rw [after3]
  funext y
  obtain ⟨r, z, rfl⟩ : ∃ (r : Fin 1024) (z : Fin 1), y = ix2 r z := ⟨y 0, y 1, eq_ix2 y⟩
  obtain rfl : z = 0 := Subsingleton.elim _ _
  obtain ⟨-, -, -, -, -, -, e0, e1⟩ := idx_facts t
  have hR : ((cfg0.win 3).blk t).view.read (Elt Ideal) (lossColumn m c) (ix2 r (0 : Fin 1)) = rowLoss (a0 m c) (a1 m c) (rowOf t r) := by
    have h0 : (((cfg0.win 3).blk t).view.emb (ix2 r (0 : Fin 1))) 0 = rowOf t r :=
      Fin.ext (by show win0_3.index t (0 : Fin 2) * 1024 + 1 * r.val = t.val / 8 * 1024 + r.val; rw [e0]; omega)
    rw [View.read_apply]
    show rowLoss (a0 m c) (a1 m c) ((((cfg0.win 3).blk t).view.emb (ix2 r (0 : Fin 1))) 0) = _
    rw [h0]
  rw [hR]
  exact out_eq m c t h7 r

theorem mem_blk3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v13).slice (win0_3.rect t)).set ↔ _
  rw [View.set_slice_whole, Rect.mem_set_unit]
  exact Iff.rfl

/-- The output array after the region is the column of row losses: the blocks written back at the points with j = 7
    tile it. -/
theorem finalOut_eq (c : Dev nD) : finalOut m c = lossColumn m c :=
  (dats m 0 c).arrAt_eq_of_cover 3 (lossColumn m c) (flushed_eq m c) fun i => by
    have hi0 : (i 0).val < 8192 := (i 0).isLt
    have hi1 : (i 1).val < 1 := (i 1).isLt
    have hN : cfg0.N = 64 := N_0
    refine ⟨⟨8 * ((i 0).val / 1024) + 7, by omega⟩, (flush0_3 _).mpr (by dsimp only; omega), ?_⟩
    rw [mem_blk3]
    obtain ⟨-, -, -, -, -, -, e0, e1⟩ := idx_facts ⟨8 * ((i 0).val / 1024) + 7, by omega⟩
    intro a
    match a with
    | ⟨0, _⟩ =>
      show win0_3.index _ (0 : Fin 2) * 1024 ≤ (i 0).val ∧ (i 0).val < win0_3.index _ (0 : Fin 2) * 1024 + 1024
      rw [e0]; dsimp only; omega
    | ⟨1, _⟩ =>
      show win0_3.index _ (1 : Fin 2) * 1 ≤ (i 1).val ∧ (i 1).val < win0_3.index _ (1 : Fin 2) * 1 + 1
      rw [e1]; omega

/-- The result buffer at the end: the mean of the row losses. -/
theorem W5_result (c : Dev nD) : W5 m c (Proc.devRef .tc main_v15) = fun _ => loss (a0 m c) (a1 m c) := by
  show StableHlo.after hostOps1 (W4 m c) (Proc.devRef .tc main_v15) = _
  rw [after_loss (W4 m c), show W4 m c (Proc.devRef .tc main_v13) = finalOut m c from Function.update_self .., finalOut_eq]
  rfl

theorem W5_arg0 (c : Dev nD) : W5 m c (Proc.devRef .tc main_arg0) = m ((c : Thread nD τ).loc main_arg0) := by
  show StableHlo.after hostOps1 (W4 m c) (Proc.devRef .tc main_arg0) = _
  rw [after_arg0 (W4 m c), show W4 m c (Proc.devRef .tc main_arg0) = V0 m c (Proc.devRef .tc main_arg0) from Function.update_of_ne (StableHlo.devRef_ne_of_ne (by decide)) _ _]
  exact before_arg0 (fun b => m (c, b))
theorem W5_arg1 (c : Dev nD) : W5 m c (Proc.devRef .tc main_arg1) = m ((c : Thread nD τ).loc main_arg1) := by
  show StableHlo.after hostOps1 (W4 m c) (Proc.devRef .tc main_arg1) = _
  rw [after_arg1 (W4 m c), show W4 m c (Proc.devRef .tc main_arg1) = V0 m c (Proc.devRef .tc main_arg1) from Function.update_of_ne (StableHlo.devRef_ne_of_ne (by decide)) _ _]
  exact before_arg1 (fun b => m (c, b))

/-- The kernel program's run on the extended reals: the result is the specification's loss of the arguments, which end
    unchanged. -/
theorem value_run (ρ : Dev nD → PrngReg) : θ_run defs (onTc (τ := τ) (main (F := Ideal))) ⟨m, fun _ => 0, ρ⟩ fun r => ∀ c : Dev nD,
      r.2.mem ((c : Thread nD τ).loc main_v15) = (fun _ => loss (a0 m c) (a1 m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨(h c main_v15 (Finset.mem_filter.mpr ⟨Finset.mem_univ _, by decide⟩)).trans (W5_result m c),
        (h c main_arg0 (Finset.mem_filter.mpr ⟨Finset.mem_univ _, by decide⟩)).trans (W5_arg0 m c),
        (h c main_arg1 (Finset.mem_filter.mpr ⟨Finset.mem_univ _, by decide⟩)).trans (W5_arg1 m c)⟩)
    (run_main m ρ)

end Cert.KernelIdeal.Frame

end
-- ==== Proof.RefSim.lean ====
/-
  The reference's first stages read at an index, down to the arguments.

  The reference stacks the two arguments' rows, divides each row by the larger of its Euclidean
  norm (the square root of the row's sum of squares, summed from the zero word) and the floor
  word, and multiplies the scaled matrix by its transpose.  Read at an index these stages are the
  specification's stacked rows, sums of squares, floored norms, scaled rows and similarities, term
  by term: the same operations in the same order.
-/
import proofs.«110881_j37039797960862_2_alg».proof.Proof.Spec
import proofs.«110881_j37039797960862_2_alg».proof.Proof.RefStages
import Idealize.ShloMosaic.Lib.Pipeline.Value
import Idealize.ShloMosaic.Lib.ValueIdx
import Idealize.ShloMosaic.PureOps.Ideal.Laws

noncomputable section

open scoped BigOperators

namespace Cert.Contrastive

open Cert.ReferenceIdeal Cert.ReferenceIdeal.Gen Cert.ReferenceIdeal.Read
open Idealize.ShloMosaic Idealize.ShloMosaic.ValueIdx

/-- The stacked array at row r, feature k: the first argument's row r below 4096, else the second
    argument's row r − 4096. -/
theorem v0_apply (x0 x1 : Arg) (r : Fin 8192) (k : Fin 128) :
    val_main_v0 (F := Ideal) x0 x1 (ix2 r k) = reps x0 x1 r k := by
  unfold val_main_v0 reps
  by_cases h : r.val < 4096
  · rw [dif_pos h]
    exact concatenate_pair_apply_left (0 : Fin 2) x0 x1 concatenates_S4096x128_S4096x128_S8192x128_d0 (ix2 r k) rfl
      (ix2 (⟨r.val, h⟩ : Fin 4096) k) (fun b => match b with | ⟨0, _⟩ => rfl | ⟨1, _⟩ => rfl)
  · rw [dif_neg h]
    exact concatenate_pair_apply_right (0 : Fin 2) x0 x1 concatenates_S4096x128_S4096x128_S8192x128_d0 (ix2 r k) rfl rfl
      (ix2 (⟨r.val - 4096, by omega⟩ : Fin 4096) k)
      (fun b hb => match b, hb with | ⟨0, _⟩, hb => absurd rfl hb | ⟨1, _⟩, _ => rfl)
      (by show (r.val - 4096) + 4096 = r.val; omega)

theorem idx_call0_v1 (r : Fin 8192) (k : Fin 128) : idx_main_call0_v1 (ix1 r) k = ix2 r k :=
  funext fun a => match a with | ⟨0, _⟩ => rfl | ⟨1, _⟩ => rfl

theorem idx_call0_v2 (r : Fin 8192) (z : Fin 1) : idx_main_call0_v2 (ix2 r z) = ix1 r :=
  funext fun a => match a with | ⟨0, _⟩ => rfl

theorem idx_v4 (r : Fin 8192) (k : Fin 128) : idx_main_v4 (ix2 r k) = ix2 r (⟨0, Nat.one_pos⟩ : Fin 1) :=
  funext fun a => match a with | ⟨0, _⟩ => rfl | ⟨1, _⟩ => rfl

/-- A row's sum of squares. -/
theorem call0_v1_apply (x0 x1 : Arg) (r : Fin 8192) :
    val_main_call0_v1 (F := Ideal) x0 x1 (ix1 r) = sumSq x0 x1 r := by
  rw [val_main_call0_v1_apply]
  unfold sumSq zeroW
  refine congrArg (Ideal.ofBits .f32 0x00000000#32 + ·) (Finset.sum_congr rfl fun k _ => ?_)
  rw [val_main_call0_v0_apply, idx_call0_v1, v0_apply]
  rfl

/-- A row's floored norm. -/
theorem v3_apply (x0 x1 : Arg) (r : Fin 8192) (z : Fin 1) :
    val_main_v3 (F := Ideal) x0 x1 (ix2 r z) = norm x0 x1 r := by
  rw [val_main_v3_apply, val_main_v1_apply, val_main_call0_v2_apply, idx_call0_v2, call0_v1_apply, val_main_v2_apply,
    val_main_cst_apply]
  rfl

/-- A scaled entry. -/
theorem v5_apply (x0 x1 : Arg) (r : Fin 8192) (k : Fin 128) :
    val_main_v5 (F := Ideal) x0 x1 (ix2 r k) = unit x0 x1 r k := by
  rw [val_main_v5_apply, val_main_v4_apply, idx_v4, v3_apply, v0_apply]
  rfl

theorem lidx_v7 (r c : Fin 8192) (k : Fin 128) : lidx_main_v7 (ix2 r c) k = ix2 r k :=
  funext fun a => match a with | ⟨0, _⟩ => rfl | ⟨1, _⟩ => rfl

theorem ridx_v7 (r c : Fin 8192) (k : Fin 128) : idx_main_v6 (ridx_main_v7 (ix2 r c) k) = ix2 c k :=
  funext fun a => match a with | ⟨0, _⟩ => rfl | ⟨1, _⟩ => rfl

/-- The similarity of rows r and c: the inner product of the two scaled rows. -/
theorem v7_apply (x0 x1 : Arg) (r c : Fin 8192) :
    val_main_v7 (F := Ideal) x0 x1 (ix2 r c) = sim x0 x1 r c := by
  rw [val_main_v7_apply]
  unfold sim
  refine Finset.sum_congr rfl fun k _ => ?_
  rw [val_main_v6_apply, lidx_v7, ridx_v7, v5_apply, v5_apply]

end Cert.Contrastive

end
-- ==== Proof.RefGather.lean ====
/-
  The reference's positives read at an index.

  The reference takes the two diagonals of the 8192 × 8192 similarity matrix at offsets ±4096 by
  two gathers whose start indices are built from a row counter: for q below 4096 the first gather
  reads the matrix at (q, q + 4096) and the second at (q + 4096, q) (each index word passes a
  wrap-around select that adds 8192 to a negative word; none of these words is negative, and all
  are below 8192, so the gather's clamp leaves them unchanged).  The two diagonals are then joined
  into one column of 8192 entries: row r's entry is the similarity of r with its partner row
  r ± 4096.
-/
import proofs.«110881_j37039797960862_2_alg».proof.Proof.RefSim

noncomputable section

open scoped BigOperators

namespace Cert.Contrastive

open Cert.ReferenceIdeal Cert.ReferenceIdeal.Gen Cert.ReferenceIdeal.Read
open Idealize.ShloMosaic Idealize.ShloMosaic.ValueIdx

/-! ### Index words -/

/-- A counter below 2^31 as a 32-bit word, read signed, is the counter. -/
theorem toInt_ofNat_small (n : Nat) (h : n < 2147483648) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- The counter plus 4096, as a word. -/
theorem add4096 (n : Nat) : IntOp.addi 4096#32 (BitVec.ofNat 32 n) = BitVec.ofNat 32 (4096 + n) := by
  show 4096#32 + BitVec.ofNat 32 n = _
  rw [← BitVec.ofNat_add]

/-- The wrap-around select leaves a word that is not negative unchanged. -/
theorem wrap_nonneg (w : BitVec 32) (h : 0 ≤ w.toInt) :
    Scalar.select (IntOp.cmpi .slt w 0#32) (IntOp.addi w 8192#32) w = w := by
  have e : IntOp.cmpi .slt w 0#32 = 0#1 := by
    show BitVec.ofBool (w.slt 0#32) = 0#1
    have : w.slt 0#32 = false := by
      rw [BitVec.slt, decide_eq_false_iff_not, BitVec.toInt_zero]
      exact not_lt.2 h
    rw [this]; rfl
  rw [e]
  exact select_zero _ _

/-! ### The gather of one entry per row pair -/

/-- The gather at q: the matrix at the two start-index words of row q, each read signed and
    clamped into 0 … 8191. -/
theorem gather_pair_apply {α : Type} (x : S8192x8192.Idx → α) (idx : IVec S4096x2 32) (q : Fin 4096) :
    Host.gather gather_S8192x8192_S4096x2_S4096_n_01_n_n_01_1_11 x idx (ix1 q)
      = x (ix2 (⟨min (idx (ix2 q (0 : Fin 2))).toInt.toNat 8191, by omega⟩ : Fin 8192)
               (⟨min (idx (ix2 q (1 : Fin 2))).toInt.toNat 8191, by omega⟩ : Fin 8192)) := by
  unfold Host.gather
  congr 1
  funext a
  refine Fin.ext ?_
  match a with
  | ⟨0, _⟩ =>
    show gather_S8192x8192_S4096x2_S4096_n_01_n_n_01_1_11.start (ix1 q) idx 0
        + gather_S8192x8192_S4096x2_S4096_n_01_n_n_01_1_11.batchCoord (ix1 q) 0
        + gather_S8192x8192_S4096x2_S4096_n_01_n_n_01_1_11.offCoord (ix1 q) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin S8192x8192.rank) ∈ gather_S8192x8192_S4096x2_S4096_n_01_n_n_01_1_11.startIndexMap by decide)]
    have hsi : gather_S8192x8192_S4096x2_S4096_n_01_n_n_01_1_11.siIdx (ix1 q)
        ⟨List.idxOf (0 : Fin S8192x8192.rank) gather_S8192x8192_S4096x2_S4096_n_01_n_n_01_1_11.startIndexMap,
          List.idxOf_lt_length_iff.2 (by decide)⟩ = ix2 q (0 : Fin 2) := by
      funext b; refine Fin.ext ?_
      match b with
      | ⟨0, _⟩ => rfl
      | ⟨1, _⟩ => rfl
    rw [hsi]
    rfl
  | ⟨1, _⟩ =>
    show gather_S8192x8192_S4096x2_S4096_n_01_n_n_01_1_11.start (ix1 q) idx 1
        + gather_S8192x8192_S4096x2_S4096_n_01_n_n_01_1_11.batchCoord (ix1 q) 1
        + gather_S8192x8192_S4096x2_S4096_n_01_n_n_01_1_11.offCoord (ix1 q) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin S8192x8192.rank) ∈ gather_S8192x8192_S4096x2_S4096_n_01_n_n_01_1_11.startIndexMap by decide)]
    have hsi : gather_S8192x8192_S4096x2_S4096_n_01_n_n_01_1_11.siIdx (ix1 q)
        ⟨List.idxOf (1 : Fin S8192x8192.rank) gather_S8192x8192_S4096x2_S4096_n_01_n_n_01_1_11.startIndexMap,
          List.idxOf_lt_length_iff.2 (by decide)⟩ = ix2 q (1 : Fin 2) := by
      funext b; refine Fin.ext ?_
      match b with
      | ⟨0, _⟩ => rfl
      | ⟨1, _⟩ => rfl
    rw [hsi]
    rfl

end Cert.Contrastive

end
-- ==== Proof.MathBasic.lean ====
/-
  Real-valuedness on the extended reals, for the contrastive loss.

  With every entry of the two argument arrays a real number, every intermediate quantity of the
  loss is a real number too: a row's sum of squares is a nonnegative real, its floored norm a
  positive real (the floor word is a positive real), a scaled entry the real quotient, and a
  similarity or a positive a finite sum of products of reals.  This module states those facts,
  together with the small vocabulary used for them: the predicate "is a real", its closure under
  the field operations and finite sums, and the coercion of a finite real sum.
-/
import proofs.«110881_j37039797960862_2_alg».proof.Proof.Spec
import Idealize.ShloMosaic.PureOps.Ideal.Laws

noncomputable section

open scoped BigOperators

namespace Cert.Contrastive

open Idealize.ShloMosaic Idealize.ShloMosaic.ValueIdx

/-- An extended real that is (the coercion of) a real number. -/
def IsR (x : EReal) : Prop := ∃ a : ℝ, x = (a : EReal)

theorem IsR.coe (a : ℝ) : IsR (a : EReal) := ⟨a, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.neg {x : EReal} (hx : IsR x) : IsR (-x) := by
  obtain ⟨a, rfl⟩ := hx; exact ⟨-a, (EReal.coe_neg a).symm⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A finite sum of reals is a real. -/
theorem IsR.sum {ι : Type*} (s : Finset ι) (f : ι → EReal) (h : ∀ i ∈ s, IsR (f i)) : IsR (∑ i ∈ s, f i) := by
  classical
  revert h
  refine Finset.induction_on s (fun _ => ⟨0, by simp⟩) ?_
  intro a s ha ih h
  rw [Finset.sum_insert ha]
  exact (h a (Finset.mem_insert_self a s)).add (ih fun i hi => h i (Finset.mem_insert_of_mem hi))

/-- The maximum of two reals, inside the extended reals. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The zero word is zero. -/
theorem zeroW_eq : zeroW = 0 := Ideal.ofBits_zero_f32

/-- The floor word is a positive real. -/
theorem floorW_pos : ∃ f : ℝ, 0 < f ∧ floorW = (f : EReal) := by
  refine ⟨11258999 * (2 : ℝ) ^ (-50 : Int), by positivity, ?_⟩
  unfold floorW
  simp [Ideal.ofBits, Ideal.ieee, -EReal.coe_mul]

section Real

variable (x0 x1 : Arg) (h0 : ∀ i, IsR (x0 i)) (h1 : ∀ i, IsR (x1 i))
include h0 h1

/-- A stacked entry is a real. -/
theorem reps_isR (r : Fin 8192) (k : Fin 128) : IsR (reps x0 x1 r k) := by
  unfold reps
  split
  · exact h0 _
  · exact h1 _

/-- A row's sum of squares is a nonnegative real. -/
theorem sumSq_real (r : Fin 8192) : ∃ q : ℝ, 0 ≤ q ∧ sumSq x0 x1 r = (q : EReal) := by
  choose a ha using fun k => reps_isR x0 x1 h0 h1 r k
  refine ⟨∑ k : Fin 128, a k * a k, Finset.sum_nonneg fun k _ => mul_self_nonneg _, ?_⟩
  unfold sumSq
  rw [zeroW_eq, zero_add, coe_sum]
  exact Finset.sum_congr rfl fun k _ => by rw [ha k, EReal.coe_mul]

/-- A row's floored norm is a positive real. -/
theorem norm_real (r : Fin 8192) : ∃ n : ℝ, 0 < n ∧ norm x0 x1 r = (n : EReal) := by
  obtain ⟨q, hq, e⟩ := sumSq_real x0 x1 h0 h1 r
  obtain ⟨f, hf, ef⟩ := floorW_pos
  refine ⟨max (Real.sqrt q) f, lt_max_of_lt_right hf, ?_⟩
  unfold norm
  rw [e, ef, Ideal.sqrt_coe, if_neg (not_lt.2 hq), max_coe]

/-- A scaled entry is a real. -/
theorem unit_isR (r : Fin 8192) (k : Fin 128) : IsR (unit x0 x1 r k) := by
  obtain ⟨n, hn, e⟩ := norm_real x0 x1 h0 h1 r
  unfold unit
  rw [e, Ideal.div_coe hn.ne']
  exact (reps_isR x0 x1 h0 h1 r k).mul (IsR.coe _)

/-- A similarity is a real. -/
theorem sim_isR (r c : Fin 8192) : IsR (sim x0 x1 r c) := by
  unfold sim
  exact IsR.sum _ _ fun k _ => (unit_isR x0 x1 h0 h1 r k).mul (unit_isR x0 x1 h0 h1 c k)

/-- A positive is a real. -/
theorem positive_isR (r : Fin 8192) : IsR (positive x0 x1 r) := by
  unfold positive pairDot
  rw [zeroW_eq, zero_add]
  exact IsR.sum _ _ fun k _ => (unit_isR x0 x1 h0 h1 _ k).mul (unit_isR x0 x1 h0 h1 _ k)

end Real

end Cert.Contrastive

end
-- ==== Proof.RefPos.lean ====
/-
  The reference's column of positives is the specification's.

  The start-index arrays of the two gathers, read at row q below 4096: the first gather's pair of
  words is (q, q + 4096), the second's (q + 4096, q).  Hence the first gather reads the similarity
  of rows q and q + 4096, the second that of rows q + 4096 and q, and the two joined into one
  column of 8192 entries give at row r the inner product of the scaled row r with its partner row.
  That is the specification's positive: the same inner product from the zero word, with the two
  factors in the other order in the second half.
-/
import proofs.«110881_j37039797960862_2_alg».proof.Proof.RefGather
import proofs.«110881_j37039797960862_2_alg».proof.Proof.MathBasic

noncomputable section

open scoped BigOperators

namespace Cert.Contrastive

open Cert.ReferenceIdeal Cert.ReferenceIdeal.Gen Cert.ReferenceIdeal.Read
open Idealize.ShloMosaic Idealize.ShloMosaic.ValueIdx

/-! ### The start indices -/

theorem idx_v14 (q : Fin 4096) (z : Fin 1) : idx_main_call1_v14 (ix2 q z) = ix1 q :=
  funext fun a => match a with | ⟨0, _⟩ => rfl

theorem idx_v15 (q : Fin 4096) (z : Fin 1) : idx_main_call1_v15 (ix2 q z) = ix1 q :=
  funext fun a => match a with | ⟨0, _⟩ => rfl

theorem idx_c2v14 (q : Fin 4096) (z : Fin 1) : idx_main_call2_v14 (ix2 q z) = ix1 q :=
  funext fun a => match a with | ⟨0, _⟩ => rfl

theorem idx_c2v15 (q : Fin 4096) (z : Fin 1) : idx_main_call2_v15 (ix2 q z) = ix1 q :=
  funext fun a => match a with | ⟨0, _⟩ => rfl

/-- The row counter as a word is not negative. -/
theorem counter_nonneg (q : Fin 4096) : 0 ≤ (BitVec.ofNat 32 q.val).toInt := by
  rw [toInt_ofNat_small _ (by have := q.isLt; omega)]; exact Int.natCast_nonneg _

/-- The row counter plus 4096 as a word is not negative. -/
theorem counter4096_nonneg (q : Fin 4096) : 0 ≤ (BitVec.ofNat 32 (4096 + q.val)).toInt := by
  rw [toInt_ofNat_small _ (by have := q.isLt; omega)]; exact Int.natCast_nonneg _

/-- The first gather's first word at row q: the counter. -/
theorem call1_v8_apply (q : Fin 4096) :
    val_main_call1_v8 (F := Ideal) (ix1 q) = BitVec.ofNat 32 q.val := by
  rw [val_main_call1_v8_apply, val_main_call1_v5_apply, val_main_call1_v4_apply, val_main_call1_c_0_apply,
    val_main_call1_v7_apply, val_main_call1_v6_apply, val_main_call1_c_1_apply, val_main_call1_v0_apply]
  exact wrap_nonneg _ (counter_nonneg q)

/-- The first gather's second word at row q: the counter plus 4096. -/
theorem call1_v13_apply (q : Fin 4096) :
    val_main_call1_v13 (F := Ideal) (ix1 q) = BitVec.ofNat 32 (4096 + q.val) := by
  rw [val_main_call1_v13_apply, val_main_call1_v10_apply, val_main_call1_v9_apply, val_main_call1_c_2_apply,
    val_main_call1_v12_apply, val_main_call1_v11_apply, val_main_call1_c_3_apply, val_main_call1_v3_apply,
    val_main_call1_v2_apply, val_main_call1_c_apply, val_main_call1_v1_apply]
  show Scalar.select (IntOp.cmpi .slt (IntOp.addi 4096#32 (BitVec.ofNat 32 q.val)) 0#32)
      (IntOp.addi (IntOp.addi 4096#32 (BitVec.ofNat 32 q.val)) 8192#32) (IntOp.addi 4096#32 (BitVec.ofNat 32 q.val)) = _
  rw [add4096]
  exact wrap_nonneg _ (counter4096_nonneg q)

/-- The second gather's first word at row q: the counter plus 4096. -/
theorem call2_v8_apply (q : Fin 4096) :
    val_main_call2_v8 (F := Ideal) (ix1 q) = BitVec.ofNat 32 (4096 + q.val) := by
  rw [val_main_call2_v8_apply, val_main_call2_v5_apply, val_main_call2_v4_apply, val_main_call2_c_0_apply,
    val_main_call2_v7_apply, val_main_call2_v6_apply, val_main_call2_c_1_apply, val_main_call2_v3_apply,
    val_main_call2_v2_apply, val_main_call2_c_apply, val_main_call2_v1_apply]
  show Scalar.select (IntOp.cmpi .slt (IntOp.addi 4096#32 (BitVec.ofNat 32 q.val)) 0#32)
      (IntOp.addi (IntOp.addi 4096#32 (BitVec.ofNat 32 q.val)) 8192#32) (IntOp.addi 4096#32 (BitVec.ofNat 32 q.val)) = _
  rw [add4096]
  exact wrap_nonneg _ (counter4096_nonneg q)

/-- The second gather's second word at row q: the counter. -/
theorem call2_v13_apply (q : Fin 4096) :
    val_main_call2_v13 (F := Ideal) (ix1 q) = BitVec.ofNat 32 q.val := by
  rw [val_main_call2_v13_apply, val_main_call2_v10_apply, val_main_call2_v9_apply, val_main_call2_c_2_apply,
    val_main_call2_v12_apply, val_main_call2_v11_apply, val_main_call2_c_3_apply, val_main_call2_v0_apply]
  exact wrap_nonneg _ (counter_nonneg q)

/-- The first gather's start indices at row q. -/
theorem call1_v16_apply (q : Fin 4096) :
    val_main_call1_v16 (F := Ideal) (ix2 q (0 : Fin 2)) = BitVec.ofNat 32 q.val
    ∧ val_main_call1_v16 (F := Ideal) (ix2 q (1 : Fin 2)) = BitVec.ofNat 32 (4096 + q.val) := by
  unfold val_main_call1_v16
  constructor
  · rw [concatenate_pair_apply_left (t := S4096x2) (s₁ := S4096x1) (s₂ := S4096x1) (1 : Fin 2) _ _ concatenates_S4096x1_S4096x1_S4096x2_d1 (ix2 q (0 : Fin 2)) rfl
      (ix2 q (0 : Fin 1)) (fun b => match b with | ⟨0, _⟩ => rfl | ⟨1, _⟩ => rfl),
      val_main_call1_v14_apply, idx_v14, call1_v8_apply]
  · rw [concatenate_pair_apply_right (t := S4096x2) (s₁ := S4096x1) (s₂ := S4096x1) (1 : Fin 2) _ _ concatenates_S4096x1_S4096x1_S4096x2_d1 (ix2 q (1 : Fin 2)) rfl rfl
      (ix2 q (0 : Fin 1)) (fun b hb => match b, hb with | ⟨0, _⟩, _ => rfl | ⟨1, _⟩, hb => absurd rfl hb) rfl,
      val_main_call1_v15_apply, idx_v15, call1_v13_apply]

/-- The second gather's start indices at row q. -/
theorem call2_v16_apply (q : Fin 4096) :
    val_main_call2_v16 (F := Ideal) (ix2 q (0 : Fin 2)) = BitVec.ofNat 32 (4096 + q.val)
    ∧ val_main_call2_v16 (F := Ideal) (ix2 q (1 : Fin 2)) = BitVec.ofNat 32 q.val := by
  unfold val_main_call2_v16
  constructor
  · rw [concatenate_pair_apply_left (t := S4096x2) (s₁ := S4096x1) (s₂ := S4096x1) (1 : Fin 2) _ _ concatenates_S4096x1_S4096x1_S4096x2_d1 (ix2 q (0 : Fin 2)) rfl
      (ix2 q (0 : Fin 1)) (fun b => match b with | ⟨0, _⟩ => rfl | ⟨1, _⟩ => rfl),
      val_main_call2_v14_apply, idx_c2v14, call2_v8_apply]
  · rw [concatenate_pair_apply_right (t := S4096x2) (s₁ := S4096x1) (s₂ := S4096x1) (1 : Fin 2) _ _ concatenates_S4096x1_S4096x1_S4096x2_d1 (ix2 q (1 : Fin 2)) rfl rfl
      (ix2 q (0 : Fin 1)) (fun b hb => match b, hb with | ⟨0, _⟩, _ => rfl | ⟨1, _⟩, hb => absurd rfl hb) rfl,
      val_main_call2_v15_apply, idx_c2v15, call2_v13_apply]

/-! ### The two diagonals -/

/-- A word below 8192 read signed and clamped into 0 … 8191 is itself. -/
theorem clamp_small (n : Nat) (h : n < 8192) : min (BitVec.ofNat 32 n).toInt.toNat 8191 = n := by
  rw [toInt_ofNat_small _ (by omega), Int.toNat_natCast]; omega

/-- The first gather at q: the similarity of rows q and q + 4096. -/
theorem v8_apply (x0 x1 : Arg) (q : Fin 4096) :
    val_main_v8 (F := Ideal) x0 x1 (ix1 q) = sim x0 x1 (lo q) (hi q) := by
  unfold val_main_v8
  rw [gather_pair_apply, ← v7_apply]
  congr 1
  obtain ⟨e0, e1⟩ := call1_v16_apply q
  refine congrArg₂ ix2 (Fin.ext ?_) (Fin.ext ?_)
  · show min (val_main_call1_v16 (F := Ideal) (ix2 q (0 : Fin 2))).toInt.toNat 8191 = q.val
    rw [e0, clamp_small _ (by have := q.isLt; omega)]
  · show min (val_main_call1_v16 (F := Ideal) (ix2 q (1 : Fin 2))).toInt.toNat 8191 = q.val + 4096
    rw [e1, clamp_small _ (by have := q.isLt; omega)]; omega

/-- The second gather at q: the similarity of rows q + 4096 and q. -/
theorem v9_apply (x0 x1 : Arg) (q : Fin 4096) :
    val_main_v9 (F := Ideal) x0 x1 (ix1 q) = sim x0 x1 (hi q) (lo q) := by
  unfold val_main_v9
  rw [gather_pair_apply, ← v7_apply]
  congr 1
  obtain ⟨e0, e1⟩ := call2_v16_apply q
  refine congrArg₂ ix2 (Fin.ext ?_) (Fin.ext ?_)
  · show min (val_main_call2_v16 (F := Ideal) (ix2 q (0 : Fin 2))).toInt.toNat 8191 = q.val + 4096
    rw [e0, clamp_small _ (by have := q.isLt; omega)]; omega
  · show min (val_main_call2_v16 (F := Ideal) (ix2 q (1 : Fin 2))).toInt.toNat 8191 = q.val
    rw [e1, clamp_small _ (by have := q.isLt; omega)]

/-! ### The column of positives -/

/-- The similarity is symmetric. -/
theorem sim_comm (x0 x1 : Arg) (r c : Fin 8192) : sim x0 x1 r c = sim x0 x1 c r := by
  unfold sim
  exact Finset.sum_congr rfl fun k _ => mul_comm _ _

/-- The positive is the similarity of the two partner rows. -/
theorem positive_eq_sim (x0 x1 : Arg) (r : Fin 8192) :
    positive x0 x1 r = sim x0 x1 (lo (half r)) (hi (half r)) := by
  unfold positive pairDot sim
  rw [zeroW_eq, zero_add]

/-- The joined diagonals at row r: the specification's positive. -/
theorem v10_apply (x0 x1 : Arg) (r : Fin 8192) :
    val_main_v10 (F := Ideal) x0 x1 (ix1 r) = positive x0 x1 r := by
  unfold val_main_v10
  rw [positive_eq_sim]
  by_cases h : r.val < 4096
  · have hh : half r = ⟨r.val, h⟩ := Fin.ext (Nat.mod_eq_of_lt h)
    rw [concatenate_pair_apply_left (t := S8192) (s₁ := S4096) (s₂ := S4096) (0 : Fin 1) _ _ concatenates_S4096_S4096_S8192_d0 (ix1 r) rfl
      (ix1 (⟨r.val, h⟩ : Fin 4096)) (fun b => match b with | ⟨0, _⟩ => rfl), v8_apply, hh]
  · have hh : half r = ⟨r.val - 4096, by omega⟩ :=
      Fin.ext (by show r.val % 4096 = r.val - 4096; have := r.isLt; omega)
    rw [concatenate_pair_apply_right (t := S8192) (s₁ := S4096) (s₂ := S4096) (0 : Fin 1) _ _ concatenates_S4096_S4096_S8192_d0 (ix1 r) rfl rfl
      (ix1 (⟨r.val - 4096, by omega⟩ : Fin 4096)) (fun b hb => match b, hb with | ⟨0, _⟩, hb => absurd rfl hb)
      (by show (r.val - 4096) + 4096 = r.val; omega), v9_apply, hh, sim_comm]

end Cert.Contrastive

end
-- ==== Proof.RefLayout.lean ====
/-
  Two layout facts the reference's loss uses, read at an index.

  The logits are the column of positives followed by the 8192 columns of the similarity matrix, so entry
  (r, 0) of the 8192 × 8193 array is row r's positive and entry (r, c + 1) the similarity of rows r and c;
  and the row maximum the log-softmax subtracts is the maximum, from the initial word, of the 8193 entries
  of the row.
-/
import proofs.«110881_j37039797960862_2_alg».proof.ReferenceIdeal
import Idealize.ShloMosaic.Lib.Pipeline.Value
import Idealize.ShloMosaic.Lib.ValueIdx
import Idealize.ShloMosaic.PureOps.Ideal.Laws

noncomputable section

namespace Cert.Contrastive

open Idealize.ShloMosaic Idealize.ShloMosaic.ValueIdx
open Cert.ReferenceIdeal

/-- A column followed by a square matrix: column 0 of the result is the column, column c ≥ 1 is column c − 1
    of the matrix. -/
theorem concat_cols_apply {α : Type} (p : S8192x1.Idx → α) (s : S8192x8192.Idx → α)
    (h : Shape.Concatenates [S8192x1, S8192x8192] S8192x8193 1) (r : Fin 8192) (c : Fin 8193) :
    concatenate S8192x8193 1 [⟨S8192x1, p⟩, ⟨S8192x8192, s⟩] h (ix2 r c)
      = if hc : c.val = 0 then p (ix2 r (0 : Fin 1)) else s (ix2 r (⟨c.val - 1, by have := c.isLt; omega⟩ : Fin 8192)) := by
  split
  · next hc =>
    exact concatenate_pair_apply_left (t := S8192x8193) (s₁ := S8192x1) (s₂ := S8192x8192) 1 p s h (ix2 r c) rfl
      (ix2 r (0 : Fin 1)) (fun b => match b with
        | ⟨0, _⟩ => rfl
        | ⟨1, _⟩ => by show (0 : Nat) = c.val; omega)
  · next hc =>
    refine concatenate_pair_apply_right (t := S8192x8193) (s₁ := S8192x1) (s₂ := S8192x8192) 1 p s h (ix2 r c) rfl rfl
      (ix2 r (⟨c.val - 1, by have := c.isLt; omega⟩ : Fin 8192))
      (fun b => match b with | ⟨0, _⟩ => fun _ => rfl | ⟨1, _⟩ => fun hb => absurd rfl hb) ?_
    show c.val - 1 + 1 = c.val
    omega

/-- The maximum along the second axis of an 8192 × 8193 array from an initial word, at row r: the maximum of the
    word and the row's 8193 entries. -/
theorem row_max_apply (X : FVec Ideal S8192x8193 .f32) (init : FVec Ideal S_ .f32)
    (h' : S8192x8193.ReducesTo [1] S8192) (hu : 0 < S_.numel) (r : Fin 8192) :
    Host.reduce (FloatOps.maximumf (F := Ideal) (φ := .f32)) X init h' hu (ix1 r)
      = (Finset.univ : Finset (Fin 8193)).fold max (init ix0) (fun k => X (ix2 r k)) := by
  have h : S8192x8193.Reduces [1] S8192 := by decide
  rw [Host.reduce_eq_fold_single (FloatOps.maximumf (F := Ideal) (φ := .f32)) X init h' h hu, eq_ix0 (Shape.Idx.first hu)]
  have hf : (X ∘ h.lift (ix1 r)) = fun k : Fin 8193 => X (ix2 r k) := funext fun k => congrArg X (by
    funext a
    match a with
    | ⟨0, _⟩ => rfl
    | ⟨1, _⟩ => rfl)
  rw [hf]
  rfl

end Cert.Contrastive

end
-- ==== Proof.MathLoss.lean ====
/-
  The algebra that joins the two forms of a row's loss.

  For reals p (the positive), s_c (the 8192 similarities), the inverse temperature β and ANY real
  shift M,

     −((pβ − M) − log (exp (pβ − M) + ∑_c exp (s_c β − M)))
        =  (β + log (exp (pβ − β) + ∑_c exp (s_c β − β))) − pβ :

  both sides are  log (exp (pβ) + ∑_c exp (s_c β)) − pβ, because a common factor exp (−M) leaves the
  sum's logarithm shifted by −M.  The left side is the negated log-probability of the first of
  8193 logits after a shift by their maximum; the right side is the running-denominator form,
  whose sum over the 8192 columns is taken in 8 consecutive blocks of 1024.  Division by the
  temperature word 13421773 / 2^27 is multiplication by β = 2^27 / 13421773.  Also here: the
  maximum of a nonempty row of reals is a real, and the negated total of the rows.
-/
import proofs.«110881_j37039797960862_2_alg».proof.Proof.MathBasic

noncomputable section

open scoped BigOperators

namespace Cert.Contrastive

open Idealize.ShloMosaic Idealize.ShloMosaic.ValueIdx

/-- The temperature's float word. -/
def tempW : EReal := Ideal.ofBits .f32 0x3DCCCCCD#32
/-- The word of −∞. -/
def negInfW : EReal := Ideal.ofBits .f32 0xFF800000#32

/-- β as a real. -/
def bR : ℝ := 134217728 / 13421773

theorem beta_eq : beta = (bR : EReal) := rfl

theorem tempW_eq : tempW = ((13421773 / 2 ^ 27 : ℝ) : EReal) := by
  unfold tempW
  simp [Ideal.ofBits, Ideal.ieee, -EReal.coe_mul]
  norm_num

theorem negInfW_eq : negInfW = ⊥ := by
  unfold negInfW
  simp [Ideal.ofBits, Ideal.ieee]

/-- Division by the temperature word is multiplication by β. -/
theorem div_tempW (x : EReal) : Ideal.div x tempW = x * beta := by
  rw [tempW_eq, Ideal.div_coe (by norm_num), beta_eq]
  congr 2
  unfold bR
  norm_num

/-! ### The running denominator, over an abstract positive and row of similarities -/

/-- The denominator after the first n blocks, as a function of the positive and the row. -/
def denomOf (P : EReal) (S : Fin 8192 → EReal) : ℕ → EReal
  | 0 => Ideal.exp (P * beta - beta)
  | n + 1 => denomOf P S n + (if h : n < 8 then ∑ c : Fin 1024, Ideal.exp (S (col ⟨n, h⟩ c) * beta - beta) else 0)

theorem denom_eq_denomOf (x0 x1 : Arg) (r : Fin 8192) :
    ∀ n, denom x0 x1 r n = denomOf (positive x0 x1 r) (sim x0 x1 r) n
  | 0 => rfl
  | n + 1 => by
    rw [denom, denomOf, denom_eq_denomOf x0 x1 r n]
    rfl

/-- One block's share, over the reals (zero past the eighth block). -/
def blockR (s : Fin 8192 → ℝ) (n : ℕ) : ℝ :=
  if h : n < 8 then ∑ c : Fin 1024, Real.exp (s (col ⟨n, h⟩ c) * bR - bR) else 0

/-- The running denominator over the reals. -/
def denomR (p : ℝ) (s : Fin 8192 → ℝ) : ℕ → ℝ
  | 0 => Real.exp (p * bR - bR)
  | n + 1 => denomR p s n + blockR s n

theorem denomOf_coe (p : ℝ) (s : Fin 8192 → ℝ) :
    ∀ n, denomOf (p : EReal) (fun c => (s c : EReal)) n = (denomR p s n : EReal)
  | 0 => by
    show Ideal.exp ((p : EReal) * beta - beta) = _
    rw [beta_eq, ← EReal.coe_mul, ← EReal.coe_sub, Ideal.exp_coe]
    rfl
  | n + 1 => by
    rw [denomOf, denomR, denomOf_coe p s n, EReal.coe_add]
    congr 1
    unfold blockR
    split
    · rw [coe_sum]
      refine Finset.sum_congr rfl fun c _ => ?_
      rw [beta_eq, ← EReal.coe_mul, ← EReal.coe_sub, Ideal.exp_coe]
    · exact EReal.coe_zero.symm

theorem denomR_eq_range (p : ℝ) (s : Fin 8192 → ℝ) (n : ℕ) :
    denomR p s n = Real.exp (p * bR - bR) + ∑ j ∈ Finset.range n, blockR s j := by
  induction n with
  | zero => simp [denomR]
  | succ n ih => rw [denomR, ih, Finset.sum_range_succ, add_assoc]

/-- The 8192 columns are the 8 blocks of 1024 columns, one after the other. -/
theorem sum_blocks (g : Fin 8192 → ℝ) : ∑ j : Fin 8, ∑ c : Fin 1024, g (col j c) = ∑ c : Fin 8192, g c := by
  rw [← Fintype.sum_prod_type' (f := fun (j : Fin 8) (c : Fin 1024) => g (col j c))]
  refine Fintype.sum_equiv (finProdFinEquiv (m := 8) (n := 1024)) _ _ fun x => congrArg g (Fin.ext ?_)
  show x.1.val * 1024 + x.2.val = x.2.val + 1024 * x.1.val
  omega

/-- After the eighth block the denominator is the positive's term plus the sum over all columns. -/
theorem denomR_eight (p : ℝ) (s : Fin 8192 → ℝ) :
    denomR p s 8 = Real.exp (p * bR - bR) + ∑ c : Fin 8192, Real.exp (s c * bR - bR) := by
  rw [denomR_eq_range, Finset.sum_range, ← sum_blocks]
  refine congrArg (Real.exp (p * bR - bR) + ·) (Finset.sum_congr rfl fun j _ => ?_)
  unfold blockR
  rw [dif_pos j.isLt]

/-! ### The shift of a log-sum-exp -/

theorem log_sum_exp_shift {ι : Type*} [Fintype ι] [Nonempty ι] (a : ι → ℝ) (M : ℝ) :
    Real.log (∑ i, Real.exp (a i - M)) = Real.log (∑ i, Real.exp (a i)) - M := by
  have hpos : 0 < ∑ i, Real.exp (a i) := Finset.sum_pos (fun i _ => Real.exp_pos _) Finset.univ_nonempty
  have e : ∑ i, Real.exp (a i - M) = (∑ i, Real.exp (a i)) / Real.exp M := by
    rw [Finset.sum_div]
    exact Finset.sum_congr rfl fun i _ => Real.exp_sub _ _
  rw [e, Real.log_div hpos.ne' (Real.exp_pos M).ne', Real.log_exp]

/-- The identity between the two forms of a row's loss, over the reals. -/
theorem rowLoss_real (p : ℝ) (s : Fin 8192 → ℝ) (b m : ℝ) :
    -((p * b - m) - Real.log (Real.exp (p * b - m) + ∑ c, Real.exp (s c * b - m)))
      = (b + Real.log (Real.exp (p * b - b) + ∑ c, Real.exp (s c * b - b))) - p * b := by
  have key : ∀ M : ℝ, Real.log (Real.exp (p * b - M) + ∑ c, Real.exp (s c * b - M))
      = Real.log (Real.exp (p * b) + ∑ c, Real.exp (s c * b)) - M := by
    intro M
    have h := log_sum_exp_shift (ι := Option (Fin 8192)) (fun o => o.elim (p * b) (fun c => s c * b)) M
    simpa [Fintype.sum_option] using h
  rw [key m, key b]
  ring

/-- The first of 8193 terms, then the other 8192. -/
theorem sum_8193 {M : Type*} [AddCommMonoid M] (f : Fin 8193 → M) :
    ∑ k : Fin 8193, f k = f ⟨0, by norm_num⟩ + ∑ c : Fin 8192, f ⟨c.val + 1, by omega⟩ :=
  Fin.sum_univ_succ (n := 8192) f

/-- The two forms of a row's loss agree: the shifted log-probability of the first of the 8193 logits
    is a real, and its negation is the running-denominator form. -/
theorem neg_logSoftmax_row (P : EReal) (S : Fin 8192 → EReal) (L : Fin 8193 → EReal) (M : EReal)
    (hP : IsR P) (hS : ∀ c, IsR (S c)) (hM : IsR M)
    (hL0 : L ⟨0, by norm_num⟩ = P) (hLs : ∀ c : Fin 8192, L ⟨c.val + 1, by omega⟩ = S c) :
    IsR ((Ideal.div (L ⟨0, by norm_num⟩) tempW - M)
        - Ideal.log (zeroW + ∑ k : Fin 8193, Ideal.exp (Ideal.div (L k) tempW - M)))
    ∧ -((Ideal.div (L ⟨0, by norm_num⟩) tempW - M)
        - Ideal.log (zeroW + ∑ k : Fin 8193, Ideal.exp (Ideal.div (L k) tempW - M)))
      = (beta + Ideal.log (denomOf P S 8)) - P * beta := by
  obtain ⟨p, rfl⟩ := hP
  choose s hs using hS
  obtain ⟨m, rfl⟩ := hM
  obtain rfl : S = fun c => (s c : EReal) := funext hs
  have pos1 : 0 < Real.exp (p * bR - m) + ∑ c, Real.exp (s c * bR - m) :=
    add_pos_of_pos_of_nonneg (Real.exp_pos _) (Finset.sum_nonneg fun _ _ => (Real.exp_pos _).le)
  have pos2 : 0 < Real.exp (p * bR - bR) + ∑ c, Real.exp (s c * bR - bR) :=
    add_pos_of_pos_of_nonneg (Real.exp_pos _) (Finset.sum_nonneg fun _ _ => (Real.exp_pos _).le)
  have term : ∀ a : ℝ, Ideal.exp (Ideal.div (a : EReal) tempW - (m : EReal)) = ((Real.exp (a * bR - m) : ℝ) : EReal) := by
    intro a
    rw [div_tempW, beta_eq, ← EReal.coe_mul, ← EReal.coe_sub, Ideal.exp_coe]
  have hsum : zeroW + ∑ k : Fin 8193, Ideal.exp (Ideal.div (L k) tempW - (m : EReal))
      = ((Real.exp (p * bR - m) + ∑ c, Real.exp (s c * bR - m) : ℝ) : EReal) := by
    rw [zeroW_eq, zero_add, sum_8193, hL0, term, EReal.coe_add, coe_sum]
    exact congrArg (((Real.exp (p * bR - m) : ℝ) : EReal) + ·) (Finset.sum_congr rfl fun c _ => by rw [hLs c, term])
  have hin : (Ideal.div (L ⟨0, by norm_num⟩) tempW - (m : EReal))
        - Ideal.log (zeroW + ∑ k : Fin 8193, Ideal.exp (Ideal.div (L k) tempW - (m : EReal)))
      = (((p * bR - m) - Real.log (Real.exp (p * bR - m) + ∑ c, Real.exp (s c * bR - m)) : ℝ) : EReal) := by
    rw [hsum, hL0, div_tempW, beta_eq, ← EReal.coe_mul, ← EReal.coe_sub, Ideal.log_coe, if_neg (not_le.2 pos1),
      ← EReal.coe_sub]
  have hrhs : (beta + Ideal.log (denomOf (p : EReal) (fun c => (s c : EReal)) 8)) - (p : EReal) * beta
      = (((bR + Real.log (Real.exp (p * bR - bR) + ∑ c, Real.exp (s c * bR - bR))) - p * bR : ℝ) : EReal) := by
    rw [denomOf_coe, denomR_eight, Ideal.log_coe, if_neg (not_le.2 pos2), beta_eq, ← EReal.coe_add, ← EReal.coe_mul,
      ← EReal.coe_sub]
  refine ⟨⟨_, hin⟩, ?_⟩
  rw [hin, hrhs, ← EReal.coe_neg, rowLoss_real]

/-! ### The row maximum, and the total -/

/-- From −∞ the maximum of a nonempty row of reals is a real (and stays one when the maximum with
    −∞ is taken once more). -/
theorem rowMax_isR {N : ℕ} (hN : 0 < N) (g : Fin N → EReal) (hg : ∀ k, IsR (g k)) :
    IsR (max negInfW ((Finset.univ : Finset (Fin N)).fold max negInfW g)) := by
  rw [negInfW_eq, max_eq_right bot_le]
  have aux : ∀ s : Finset (Fin N), s.fold max ⊥ g = ⊥ ∨ IsR (s.fold max ⊥ g) := by
    classical
    intro s
    refine Finset.induction_on s (Or.inl Finset.fold_empty) ?_
    intro a s ha ih
    right
    rw [Finset.fold_insert ha]
    obtain ⟨x, hx⟩ := hg a
    rcases ih with h | ⟨y, hy⟩
    · rw [h, max_eq_left bot_le]; exact hg a
    · rw [hx, hy, max_coe]; exact IsR.coe _
  rcases aux Finset.univ with h | h
  · exfalso
    have hle : g ⟨0, hN⟩ ≤ (Finset.univ : Finset (Fin N)).fold max ⊥ g :=
      (Finset.le_fold_max _).2 (Or.inr ⟨⟨0, hN⟩, Finset.mem_univ _, le_rfl⟩)
    obtain ⟨x, hx⟩ := hg ⟨0, hN⟩
    rw [h, hx] at hle
    exact EReal.coe_ne_bot x (le_bot_iff.1 hle)
  · exact h

/-- The negated total of real rows is the total of the negated rows. -/
theorem neg_total (v rl : Fin 8192 → EReal) (hv : ∀ r, IsR (v r)) (h : ∀ r, -(v r) = rl r) :
    -(zeroW + ∑ r, v r) = zeroW + ∑ r, rl r := by
  choose a ha using hv
  have e1 : ∑ r, v r = ((∑ r, a r : ℝ) : EReal) := by
    rw [coe_sum]; exact Finset.sum_congr rfl fun r _ => ha r
  have e2 : ∑ r, rl r = ((∑ r, -(a r) : ℝ) : EReal) := by
    rw [coe_sum]; exact Finset.sum_congr rfl fun r _ => by rw [← h r, ha r, EReal.coe_neg]
  rw [zeroW_eq, zero_add, zero_add, e1, e2, ← EReal.coe_neg, Finset.sum_neg_distrib]

end Cert.Contrastive

end
-- ==== Proof.RefLoss.lean ====
/-
  The reference's log-softmax stages read at an index.

  Row r of the reference's logits is the positive followed by the 8192 similarities, each divided
  by the temperature word.  The row's maximum M (from −∞, and once more against −∞) is subtracted,
  the exponentials are summed from the zero word over the 8193 columns, and column 0 of the result,
     (logit 0 − M) − log (∑_k exp (logit k − M)),
  is what the final sum takes from row r.  Every logit is a real, hence so is M.
-/
import proofs.«110881_j37039797960862_2_alg».proof.Proof.RefPos
import proofs.«110881_j37039797960862_2_alg».proof.Proof.RefLayout
import proofs.«110881_j37039797960862_2_alg».proof.Proof.MathLoss

noncomputable section

open scoped BigOperators

namespace Cert.Contrastive

open Cert.ReferenceIdeal Cert.ReferenceIdeal.Gen Cert.ReferenceIdeal.Read
open Idealize.ShloMosaic Idealize.ShloMosaic.ValueIdx

/-! ### The logits before the division -/

theorem idx_v11 (r : Fin 8192) (z : Fin 1) : idx_main_v11 (ix2 r z) = ix1 r :=
  funext fun a => match a with | ⟨0, _⟩ => rfl

/-- Column 0 of the joined array: the positive. -/
theorem v12_zero (x0 x1 : Arg) (r : Fin 8192) :
    val_main_v12 (F := Ideal) x0 x1 (ix2 r (⟨0, by norm_num⟩ : Fin 8193)) = positive x0 x1 r := by
  unfold val_main_v12
  rw [concat_cols_apply, dif_pos rfl, val_main_v11_apply, idx_v11, v10_apply]

/-- Column c + 1 of the joined array: the similarity of rows r and c. -/
theorem v12_succ (x0 x1 : Arg) (r c : Fin 8192) :
    val_main_v12 (F := Ideal) x0 x1 (ix2 r (⟨c.val + 1, by omega⟩ : Fin 8193)) = sim x0 x1 r c := by
  unfold val_main_v12
  rw [concat_cols_apply, dif_neg (show ¬ ((⟨c.val + 1, by omega⟩ : Fin 8193).val = 0) from Nat.succ_ne_zero _)]
  refine Eq.trans (congrArg (fun c' : Fin 8192 => val_main_v7 (F := Ideal) x0 x1 (ix2 r c')) (Fin.ext ?_)) (v7_apply x0 x1 r c)
  show c.val + 1 - 1 = c.val
  omega

section Real

variable (x0 x1 : Arg) (h0 : ∀ i, IsR (x0 i)) (h1 : ∀ i, IsR (x1 i))
include h0 h1

/-- Every entry of the joined array is a real. -/
theorem v12_isR (r : Fin 8192) (k : Fin 8193) : IsR (val_main_v12 (F := Ideal) x0 x1 (ix2 r k)) := by
  by_cases h : k.val = 0
  · obtain rfl : k = ⟨0, by norm_num⟩ := Fin.ext h
    rw [v12_zero]; exact positive_isR x0 x1 h0 h1 r
  · have e : k = ⟨(⟨k.val - 1, by omega⟩ : Fin 8192).val + 1, by omega⟩ :=
      Fin.ext (by show k.val = k.val - 1 + 1; omega)
    rw [e, v12_succ]; exact sim_isR x0 x1 h0 h1 _ _

end Real

/-! ### The logits -/

/-- A logit: the joined array's entry divided by the temperature word. -/
theorem v14_apply (x0 x1 : Arg) (i : S8192x8193.Idx) :
    val_main_v14 (F := Ideal) x0 x1 i = Ideal.div (val_main_v12 (F := Ideal) x0 x1 i) tempW := by
  rw [val_main_v14_apply, val_main_v13_apply, val_main_cst_0_apply]
  rfl

section Real2

variable (x0 x1 : Arg) (h0 : ∀ i, IsR (x0 i)) (h1 : ∀ i, IsR (x1 i))
include h0 h1

/-- Every logit is a real. -/
theorem v14_isR (i : S8192x8193.Idx) : IsR (val_main_v14 (F := Ideal) x0 x1 i) := by
  rw [v14_apply, div_tempW, beta_eq, eq_ix2 i]
  exact (v12_isR x0 x1 h0 h1 _ _).mul (IsR.coe _)

/-- The row maximum is a real. -/
theorem call3_v2_isR (r : Fin 8192) : IsR (val_main_call3_v2 (F := Ideal) x0 x1 (ix1 r)) := by
  rw [val_main_call3_v2_apply, val_main_call3_v1_apply, val_main_call3_cst_0_apply]
  unfold val_main_call3_v0
  rw [row_max_apply]
  exact rowMax_isR (by norm_num) _ (fun k => v14_isR x0 x1 h0 h1 (ix2 r k))

end Real2

/-! ### The shifted logits, their exponentials' sum, and column 0 of the log-softmax -/

theorem idx_c3v3 (r : Fin 8192) (z : Fin 1) : idx_main_call3_v3 (ix2 r z) = ix1 r :=
  funext fun a => match a with | ⟨0, _⟩ => rfl

theorem idx_c3v4 (r : Fin 8192) (k : Fin 8193) : idx_main_call3_v4 (ix2 r k) = ix2 r (⟨0, Nat.one_pos⟩ : Fin 1) :=
  funext fun a => match a with | ⟨0, _⟩ => rfl | ⟨1, _⟩ => rfl

theorem idx_c3v7 (r : Fin 8192) (k : Fin 8193) : idx_main_call3_v7 (ix1 r) k = ix2 r k :=
  funext fun a => match a with | ⟨0, _⟩ => rfl | ⟨1, _⟩ => rfl

theorem idx_c3v8 (r : Fin 8192) (z : Fin 1) : idx_main_call3_v8 (ix2 r z) = ix1 r :=
  funext fun a => match a with | ⟨0, _⟩ => rfl

theorem idx_c3v10 (r : Fin 8192) (k : Fin 8193) : idx_main_call3_v10 (ix2 r k) = ix2 r (⟨0, Nat.one_pos⟩ : Fin 1) :=
  funext fun a => match a with | ⟨0, _⟩ => rfl | ⟨1, _⟩ => rfl

theorem idx_v17 (r : Fin 8192) : idx_main_v16 (idx_main_v17 (ix1 r)) = ix2 r (⟨0, by norm_num⟩ : Fin 8193) :=
  funext fun a => match a with | ⟨0, _⟩ => Fin.ext (Nat.div_one _) | ⟨1, _⟩ => rfl

/-- A shifted logit. -/
theorem call3_v5_at (x0 x1 : Arg) (r : Fin 8192) (k : Fin 8193) :
    val_main_call3_v5 (F := Ideal) x0 x1 (ix2 r k)
      = Ideal.div (val_main_v12 (F := Ideal) x0 x1 (ix2 r k)) tempW - val_main_call3_v2 (F := Ideal) x0 x1 (ix1 r) := by
  rw [val_main_call3_v5_apply, v14_apply, val_main_call3_v4_apply, idx_c3v4, val_main_call3_v3_apply, idx_c3v3]
  rfl

/-- The sum of the exponentials of row r's shifted logits, from the zero word. -/
theorem call3_v7_at (x0 x1 : Arg) (r : Fin 8192) :
    val_main_call3_v7 (F := Ideal) x0 x1 (ix1 r)
      = zeroW + ∑ k : Fin 8193, Ideal.exp (Ideal.div (val_main_v12 (F := Ideal) x0 x1 (ix2 r k)) tempW
          - val_main_call3_v2 (F := Ideal) x0 x1 (ix1 r)) := by
  rw [val_main_call3_v7_apply]
  unfold zeroW
  refine congrArg (Ideal.ofBits .f32 0x00000000#32 + ·) (Finset.sum_congr rfl fun k _ => ?_)
  rw [idx_c3v7, val_main_call3_v6_apply, call3_v5_at]
  rfl

/-- What the final sum takes from row r. -/
theorem v17_at (x0 x1 : Arg) (r : Fin 8192) :
    val_main_v17 (F := Ideal) x0 x1 (ix1 r)
      = (Ideal.div (val_main_v12 (F := Ideal) x0 x1 (ix2 r (⟨0, by norm_num⟩ : Fin 8193))) tempW
            - val_main_call3_v2 (F := Ideal) x0 x1 (ix1 r))
          - Ideal.log (zeroW + ∑ k : Fin 8193, Ideal.exp (Ideal.div (val_main_v12 (F := Ideal) x0 x1 (ix2 r k)) tempW
              - val_main_call3_v2 (F := Ideal) x0 x1 (ix1 r))) := by
  rw [val_main_v17_apply, val_main_v16_apply, idx_v17, val_main_v15_apply, call3_v5_at, val_main_call3_v10_apply, idx_c3v10,
    val_main_call3_v9_apply, val_main_call3_v8_apply, idx_c3v8, call3_v7_at]
  rfl

/-- A sum over a rank-1 index set is the sum over its coordinate. -/
theorem sum_idx1 {M : Type*} [AddCommMonoid M] {n : ℕ} (f : (⟨1, ![n]⟩ : Shape).Idx → M) :
    ∑ j, f j = ∑ r : Fin n, f (ix1 r) := by
  let e : (⟨1, ![n]⟩ : Shape).Idx ≃ Fin n :=
    ⟨fun i => i 0, fun r => ix1 r, fun i => (eq_ix1 i).symm, fun _ => rfl⟩
  exact (Equiv.sum_comp e.symm f).symm

end Cert.Contrastive

end
-- ==== Proof.RefValue.lean ====
/-
  The reference computes the specification's loss.

  Row by row, the reference's negated column-0 log-probability (shifted by the row maximum) is the
  specification's row loss in its running-denominator form; the reference negates the total of
  its rows where the specification sums the already negated rows; both divide by the same word.
-/
import proofs.«110881_j37039797960862_2_alg».proof.Proof.Spec
import proofs.«110881_j37039797960862_2_alg».proof.Proof.RefStages
import proofs.«110881_j37039797960862_2_alg».proof.Proof.RefLoss

noncomputable section

open scoped BigOperators

namespace Cert.Contrastive

open Cert.ReferenceIdeal Cert.ReferenceIdeal.Gen Cert.ReferenceIdeal.Read
open Idealize.ShloMosaic Idealize.ShloMosaic.ValueIdx

/-- Row r: what the reference's final sum takes is a real, and its negation is the row loss. -/
theorem ref_row (x0 x1 : Arg) (h0 : ∀ i, IsR (x0 i)) (h1 : ∀ i, IsR (x1 i)) (r : Fin 8192) :
    IsR (val_main_v17 (F := Ideal) x0 x1 (ix1 r)) ∧ -(val_main_v17 (F := Ideal) x0 x1 (ix1 r)) = rowLoss x0 x1 r := by
  have key := neg_logSoftmax_row (positive x0 x1 r) (sim x0 x1 r)
    (fun k => val_main_v12 (F := Ideal) x0 x1 (ix2 r k)) (val_main_call3_v2 (F := Ideal) x0 x1 (ix1 r))
    (positive_isR x0 x1 h0 h1 r) (fun c => sim_isR x0 x1 h0 h1 r c) (call3_v2_isR x0 x1 h0 h1 r)
    (v12_zero x0 x1 r) (fun c => v12_succ x0 x1 r c)
  rw [v17_at]
  unfold rowLoss
  rw [denom_eq_denomOf]
  exact key

/-- The reference's result is the specification's loss. -/
theorem reference_eq_loss (x0 x1 : Arg) (h0 : ∀ i, ∃ a : ℝ, x0 i = (a : EReal)) (h1 : ∀ i, ∃ a : ℝ, x1 i = (a : EReal)) :
    Cert.ReferenceIdeal.Read.val_main_v20 (F := Ideal) x0 x1 = fun _ => loss x0 x1 := by
  funext i
  rw [val_main_v20_apply, val_main_v19_apply, val_main_v18_apply, val_main_cst_2_apply, val_main_cst_1_apply]
  unfold loss
  show Ideal.div (-(zeroW + ∑ j : S8192.Idx, val_main_v17 (F := Ideal) x0 x1 j)) countW = _
  refine congrArg (Ideal.div · countW) ?_
  rw [sum_idx1]
  exact neg_total _ _ (fun r => (ref_row x0 x1 h0 h1 r).1) (fun r => (ref_row x0 x1 h0 h1 r).2)

end Cert.Contrastive

end
-- ==== Proof.LibFiniteEntry.lean ====
/-
  One "every entry is finite" test of a precondition, read back at an entry.

  A precondition "all float inputs are finite" is, per input, an and-reduction over all axes of the entrywise
  comparison |v| < +∞ (the bound the word 0x7F800000), started from true. When such a reduction is true every
  entry's comparison is true, and an extended real v with max(v, -v) < +∞ is neither +∞ nor -∞: it is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.FiniteEntry

open Idealize.ShloMosaic Idealize.ShloMosaic.ValueIdx

/-- The comparison bound's word denotes +∞. -/
theorem inf_eq : Ideal.ofBits .f32 0x7F800000#32 = ⊤ := by
  simp [Ideal.ofBits, Ideal.ieee]

/-- |v| < +∞ came out true: v is a real number. -/
theorem real_of_abs_lt_inf (v : EReal)
    (h : FloatOps.cmpf (F := Ideal) (φ := .f32) .olt (FloatOps.hostAbsf v) (Ideal.ofBits .f32 0x7F800000#32) = 1#1) :
    ∃ r : ℝ, v = (r : EReal) := by
  have hlt : max v (-v) < ⊤ := by
    by_contra hn
    have h0 : FloatOps.cmpf (F := Ideal) (φ := .f32) .olt (FloatOps.hostAbsf v) (Ideal.ofBits .f32 0x7F800000#32) = 0#1 := by
      show BitVec.ofBool (decide (max v (-v) < Ideal.ofBits .f32 0x7F800000#32)) = 0#1
      rw [inf_eq, decide_eq_false hn]
      rfl
    rw [h0] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A rank-0 array has one index. -/
instance : Subsingleton (⟨0, ![]⟩ : Shape).Idx := ⟨fun a b => funext fun d => d.elim0⟩

/-- The whole test read back: if the and-reduction over all axes of "|a| < +∞" (the bound broadcast from a scalar
    constant) is true, every entry of a is a real number. -/
theorem all_real {s : Shape} {axes : List (Fin s.rank)} (a : FVec Ideal s .f32)
    (hb : (⟨0, ![]⟩ : Shape).BroadcastsInDim s ![]) (hr : s.ReducesTo axes ⟨0, ![]⟩) (hn : 0 < (⟨0, ![]⟩ : Shape).numel)
    (init : IVec ⟨0, ![]⟩ 1)
    (h : Host.reduce IntOp.andi
        (cmpf .olt (Host.absf a) (broadcastInDim s ![] hb (constant (F := Ideal) ⟨0, ![]⟩ .f32 0x7F800000#32))) init hr hn ix0 = 1#1)
    (i : s.Idx) : ∃ r : ℝ, a i = (r : EReal) := by
  have e := Host.reduce_andi_all _ _ _ _ ix0 h i
  rw [cmpf_apply, broadcastInDim_scalar_apply] at e
  exact real_of_abs_lt_inf (a i) e

end Cert.Lib.FiniteEntry

end
-- ==== Proof.Finite.lean ====
/-
  The finiteness precondition, read back: every entry of both argument arrays is a real number.
-/
import proofs.«110881_j37039797960862_2_alg».proof.Defs
import proofs.«110881_j37039797960862_2_alg».proof.Proof.LibFiniteEntry
import Idealize.ShloMosaic.Lib.ReduceAll
import Idealize.ShloMosaic.Lib.ValueIdx

noncomputable section

namespace Cert.Contrastive

open Idealize.ShloMosaic Idealize.SL.Sem

/-- Under the finiteness precondition every entry of both argument arrays is a real number: the
    precondition is the conjunction of the two arguments' tests, each an and-reduction over all axes
    of the entrywise comparison |v| < +∞. -/
theorem real_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ a : ℝ, m ((c.tc : Thread Cert.KernelIdeal.nD Cert.KernelIdeal.τ).loc Cert.KernelIdeal.main_arg0) i = (a : EReal))
    ∧ (∀ i, ∃ a : ℝ, m ((c.tc : Thread Cert.KernelIdeal.nD Cert.KernelIdeal.τ).loc Cert.KernelIdeal.main_arg1) i = (a : EReal)) := by
  have h0 := congrFun (h c) ValueIdx.ix0
  dsimp only [Cert.Pre_finite_inputs.fn] at h0
  obtain ⟨ha, hb⟩ := IntOp.andi_eq_one.1 h0
  exact ⟨fun i => Cert.Lib.FiniteEntry.all_real _ _ _ _ _ ha i, fun i => Cert.Lib.FiniteEntry.all_real _ _ _ _ _ hb i⟩

end Cert.Contrastive

end
-- ==== Proof.Preserves.lean ====
/-
  The idealization conjunct: each of the six rewrites of the ideal pass replaces the inverse
  temperature's float constant by the name "inv_t", to which the certificate's table gives the
  rational 134217728 / 13421773, the exact reciprocal of the temperature word 13421773 / 2^27.
  Each entry's proposition is the rule's statement at that name and value.
-/
import proofs.«110881_j37039797960862_2_alg».proof.Defs

noncomputable section

open Idealize.ShloMosaic

namespace Cert.Contrastive

/-- One ledger entry: the table gives "inv_t" the rational 134217728 / 13421773, and the printed
    constant is that value on the extended reals. -/
theorem inv_t_statement :
    IdealRules.named_const.Statement Cert.KernelIdeal.κ "inv_t" .f32 0x41200000#32
      ((134217728 / 13421773 : ℝ) : EReal) :=
  IdealRules.named_const.statement Cert.KernelIdeal.κ "inv_t" .f32 0x41200000#32
    ((134217728 / 13421773 : ℝ) : EReal) rfl

/-- The six entries of the ledger, in order. -/
theorem preserves : Cert.preserves_Kernel_KernelIdeal :=
  ⟨inv_t_statement, inv_t_statement, inv_t_statement, inv_t_statement, inv_t_statement,
    inv_t_statement⟩

end Cert.Contrastive

end
-- ==== Proof.lean ====
/-
  The claim: a streaming kernel for the normalized-temperature cross-entropy loss computes, on the
  extended reals, what the reference computes.

  Both programs stack the two 4096 × 128 arguments, scale every row by the larger of its norm and a floor,
  and take inner products of scaled rows.  The kernel never forms the 8192 × 8192 similarity matrix: on an
  8 × 8 grid of 1024 × 1024 tiles it keeps, per row, a running sum of exp (β·sim − β) over the column tiles,
  started from the positive pair's term, and at the last column tile writes β + log (sum) − β·pos; the host
  then averages the 8192 row losses.  The reference forms the matrix, prepends each row's positive, divides
  by the temperature, subtracts the row maximum, and takes minus the mean of the first column of the
  log-softmax.  With every entry real the two agree: the logarithm of a sum of exponentials does not depend on
  the shift subtracted inside and added back outside, dividing by the temperature word is multiplying by the
  kernel's inverse temperature β once β is read as that word's exact reciprocal, and a sum of reals does not
  depend on how it is grouped into tiles.

  The three frames: each kernel program's run is the run of its host stretches and its region in order
  (the region's two windows on the scaled-rows array reading it at half shares), the reference's is the run of
  its straight line of host operations, read stretch by stretch against the stages of the arguments.
-/
import proofs.«110881_j37039797960862_2_alg».proof.Defs
import proofs.«110881_j37039797960862_2_alg».proof.Proof.Gen.Kernel
import proofs.«110881_j37039797960862_2_alg».proof.Proof.Gen.KernelIdeal
import proofs.«110881_j37039797960862_2_alg».proof.Proof.Gen.ReferenceIdeal
import proofs.«110881_j37039797960862_2_alg».proof.Proof.Gen.Pre_finite_inputs
import proofs.«110881_j37039797960862_2_alg».proof.Proof.RefRun
import proofs.«110881_j37039797960862_2_alg».proof.Proof.KbKept
import proofs.«110881_j37039797960862_2_alg».proof.Proof.KiValue
import proofs.«110881_j37039797960862_2_alg».proof.Proof.RefValue
import proofs.«110881_j37039797960862_2_alg».proof.Proof.Finite
import proofs.«110881_j37039797960862_2_alg».proof.Proof.Preserves

noncomputable section

namespace Cert.Proof

open Idealize.ShloMosaic Idealize.SL.Sem

theorem frame_kernel : Cert.frame_Kernel := fun m ρ _ => Cert.Kernel.Frame.frame (F := Bits) m ρ

theorem frame_kernelIdeal : Cert.frame_KernelIdeal := fun m ρ _ =>
  (θ_run Cert.KernelIdeal.defs _ _).mono (fun _ h c => ⟨(h c).2.1, (h c).2.2⟩) (Cert.KernelIdeal.Frame.value_run m ρ)

theorem frame_referenceIdeal : Cert.frame_ReferenceIdeal := fun m ρ _ =>
  (θ_run Cert.ReferenceIdeal.defs _ _).mono (fun _ h c => (h c).2) (Cert.ReferenceIdeal.Stretch.run (F := Ideal) m ρ)

/-- With every entry real, the kernel program's mean of row losses is the reference's. -/
theorem algebraic : Cert.algebraic_KernelIdeal_ReferenceIdeal := by
  intro m ρ m' ρ' hpre hagree
  refine ⟨fun c _ => Cert.Contrastive.loss (Cert.KernelIdeal.Frame.a0 m c) (Cert.KernelIdeal.Frame.a1 m c),
    Cert.KernelIdeal.Frame.value_run m ρ, ?_⟩
  refine (θ_run Cert.ReferenceIdeal.defs _ _).mono (fun _ h c => ⟨?_, (h c).2⟩) (Cert.ReferenceIdeal.Stretch.run (F := Ideal) m' ρ')
  rw [(h c).1, (hagree c).1, (hagree c).2]
  exact Cert.Contrastive.reference_eq_loss _ _ (Cert.Contrastive.real_of_pre m hpre c).1 (Cert.Contrastive.real_of_pre m hpre c).2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, Cert.Contrastive.preserves, algebraic⟩

end Cert.Proof

end
